-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x767 : Shape := ⟨2, ![100000, 767]⟩
abbrev S2x3200000 : Shape := ⟨2, ![2, 3200000]⟩
abbrev S3200000x1 : Shape := ⟨2, ![3200000, 1]⟩
abbrev S2x767x16 : Shape := ⟨3, ![2, 767, 16]⟩
abbrev S767x16 : Shape := ⟨2, ![767, 16]⟩
abbrev S16 : Shape := ⟨1, ![16]⟩
abbrev S2x16x10 : Shape := ⟨3, ![2, 16, 10]⟩
abbrev S16x10 : Shape := ⟨2, ![16, 10]⟩
abbrev S10 : Shape := ⟨1, ![10]⟩
abbrev S_ : Shape := ⟨0, ![]⟩

class Facts : Prop where
  bcast_S_S100000x767 : S_.BroadcastsInDim S100000x767 (![] : Fin 0 → Fin S100000x767.rank)
  reducesTo_S100000x767_S_d0_1 : S100000x767.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S2x767x16 : S_.BroadcastsInDim S2x767x16 (![] : Fin 0 → Fin S2x767x16.rank)
  reducesTo_S2x767x16_S_d0_1_2 : S2x767x16.ReducesTo [0, 1, 2] S_
  bcast_S_S767x16 : S_.BroadcastsInDim S767x16 (![] : Fin 0 → Fin S767x16.rank)
  reducesTo_S767x16_S_d0_1 : S767x16.ReducesTo [0, 1] S_
  bcast_S_S16 : S_.BroadcastsInDim S16 (![] : Fin 0 → Fin S16.rank)
  reducesTo_S16_S_d0 : S16.ReducesTo [0] S_
  bcast_S_S2x16x10 : S_.BroadcastsInDim S2x16x10 (![] : Fin 0 → Fin S2x16x10.rank)
  reducesTo_S2x16x10_S_d0_1_2 : S2x16x10.ReducesTo [0, 1, 2] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg5 : FVec F S16 .f32) (main_arg6 : FVec F S2x16x10 .f32) (main_arg7 : FVec F S16x10 .f32) (main_arg8 : FVec F S10 .f32) (main_v13 : IVec S_ 1) (main_v16 : IVec S767x16 1) : IVec S_ 1 :=
  let main_c_5 : IVec S_ 1 := constantI S_ 1 1#1
  let main_v17 : IVec S_ 1 := (fun x v => Host.reduce IntOp.andi x v reducesTo_S767x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S2x16x10 .f32 := Host.absf main_arg6
  let main_cst_8 : FVec F S_ .f32 := constant S_ .f32 0x7F800000#32
  let main_v25 : FVec F S2x16x10 .f32 := broadcastInDim S2x16x10 ![] bcast_S_S2x16x10 main_cst_8
  let main_v26 : IVec S2x16x10 1 := cmpf .olt main_v24 main_v25
  let main_c_9 : IVec S_ 1 := constantI S_ 1 1#1
  let main_v27 : IVec S_ 1 := (fun x v => Host.reduce IntOp.andi x v reducesTo_S2x16x10_S_d0_1_2 h_S_) main_v26 main_c_9
  let main_v28 : IVec S_ 1 := andi main_v23 main_v27
  let main_v29 : FVec F S16x10 .f32 := Host.absf main_arg7
  let main_cst_10 : FVec F S_ .f32 := constant S_ .f32 0x7F800000#32
  let main_v30 : FVec F S16x10 .f32 := broadcastInDim S16x10 ![] bcast_S_S16x10 main_cst_10
  let main_v31 : IVec S16x10 1 := cmpf .olt main_v29 main_v30
  let main_c_11 : IVec S_ 1 := constantI S_ 1 1#1
  let main_v32 : IVec S_ 1 := (fun x v => Host.reduce IntOp.andi x v reducesTo_S16x10_S_d0_1 h_S_) main_v31 main_c_11
  let main_v33 : IVec S_ 1 := andi main_v28 main_v32
  fn_part2 (F := F) main_arg8 main_v33

def fn {F : FTy → Type} [FloatOps F] (main_arg0 : FVec F S100000x767 .f32) (main_arg1 : IVec S2x3200000 32) (main_arg2 : FVec F S3200000x1 .f32) (main_arg3 : FVec F S2x767x16 .f32) (main_arg4 : FVec F S767x16 .f32) (main_arg5 : FVec F S16 .f32) (main_arg6 : FVec F S2x16x10 .f32) (main_arg7 : FVec F S16x10 .f32) (main_arg8 : FVec F S10 .f32) : IVec S_ 1 :=
  let main_v0 : FVec F S100000x767 .f32 := Host.absf main_arg0
  let main_cst : FVec F S_ .f32 := constant S_ .f32 0x7F800000#32
  let main_v1 : FVec F S100000x767 .f32 := broadcastInDim S100000x767 ![] bcast_S_S100000x767 main_cst
  let main_v2 : IVec S100000x767 1 := cmpf .olt main_v0 main_v1
  let main_c : IVec S_ 1 := constantI S_ 1 1#1
  let main_v3 : IVec S_ 1 := (fun x v => Host.reduce IntOp.andi x v reducesTo_S100000x767_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S2x767x16 .f32 := Host.absf main_arg3
  let main_cst_2 : FVec F S_ .f32 := constant S_ .f32 0x7F800000#32
  let main_v10 : FVec F S2x767x16 .f32 := broadcastInDim S2x767x16 ![] bcast_S_S2x767x16 main_cst_2
  let main_v11 : IVec S2x767x16 1 := cmpf .olt main_v9 main_v10
  let main_c_3 : IVec S_ 1 := constantI S_ 1 1#1
  let main_v12 : IVec S_ 1 := (fun x v => Host.reduce IntOp.andi x v reducesTo_S2x767x16_S_d0_1_2 h_S_) main_v11 main_c_3
  let main_v13 : IVec S_ 1 := andi main_v8 main_v12
  let main_v14 : FVec F S767x16 .f32 := Host.absf main_arg4
  let main_cst_4 : FVec F S_ .f32 := constant S_ .f32 0x7F800000#32
  let main_v15 : FVec F S767x16 .f32 := broadcastInDim S767x16 ![] bcast_S_S767x16 main_cst_4
  let main_v16 : IVec S767x16 1 := cmpf .olt main_v14 main_v15
  fn_part1 (F := F) main_arg5 main_arg6 main_arg7 main_arg8 main_v13 main_v16
-- ==== Kernel.lean ====
abbrev S100000x767 : Shape := ⟨2, ![100000, 767]⟩
abbrev S2x3200000 : Shape := ⟨2, ![2, 3200000]⟩
abbrev S3200000x1 : Shape := ⟨2, ![3200000, 1]⟩
abbrev S2x767x16 : Shape := ⟨3, ![2, 767, 16]⟩
abbrev S767x16 : Shape := ⟨2, ![767, 16]⟩
abbrev S16 : Shape := ⟨1, ![16]⟩
abbrev S2x16x10 : Shape := ⟨3, ![2, 16, 10]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S1x767x16 : Shape := ⟨3, ![1, 767, 16]⟩
abbrev S767x48 : Shape := ⟨2, ![767, 48]⟩
abbrev S100000x32 : Shape := ⟨2, ![100000, 32]⟩
abbrev S100000x16 : Shape := ⟨2, ![100000, 16]⟩
abbrev S5000x767 : Shape := ⟨2, ![5000, 767]⟩
abbrev S5000x32 : Shape := ⟨2, ![5000, 32]⟩
abbrev S5000x16 : Shape := ⟨2, ![5000, 16]⟩
abbrev S5000x48 : Shape := ⟨2, ![5000, 48]⟩
abbrev S3200000x32 : Shape := ⟨2, ![3200000, 32]⟩
abbrev S3200000x16 : Shape := ⟨2, ![3200000, 16]⟩
abbrev S100000x1 : Shape := ⟨2, ![100000, 1]⟩
abbrev S1x16 : Shape := ⟨2, ![1, 16]⟩
abbrev S10000x16 : Shape := ⟨2, ![10000, 16]⟩
abbrev S1x16x10 : Shape := ⟨3, ![1, 16, 10]⟩
abbrev S16x30 : Shape := ⟨2, ![16, 30]⟩
abbrev S100000x20 : Shape := ⟨2, ![100000, 20]⟩
abbrev S100000x10 : Shape := ⟨2, ![100000, 10]⟩
abbrev S10000x20 : Shape := ⟨2, ![10000, 20]⟩
abbrev S10000x10 : Shape := ⟨2, ![10000, 10]⟩
abbrev S10000x30 : Shape := ⟨2, ![10000, 30]⟩
abbrev S3200000x20 : Shape := ⟨2, ![3200000, 20]⟩
abbrev S3200000x10 : Shape := ⟨2, ![3200000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 100
  | .vmem => 28
  | .smem => 0
  | _ => 0

abbrev bufTy : (tb : Table) → Fin (tcTables nBuf tb) → BufTy
  | .hbm, ⟨0, _⟩ => ⟨S100000x767, .f32⟩
  | .hbm, ⟨1, _⟩ => ⟨S2x3200000, .i32⟩
  | .hbm, ⟨2, _⟩ => ⟨S3200000x1, .f32⟩
  | .hbm, ⟨3, _⟩ => ⟨S2x767x16, .f32⟩
  | .hbm, ⟨4, _⟩ => ⟨S767x16, .f32⟩
  | .hbm, ⟨5, _⟩ => ⟨S16, .f32⟩
  | .hbm, ⟨6, _⟩ => ⟨S2x16x10, .f32⟩
  | .hbm, ⟨7, _⟩ => ⟨S16x10, .f32⟩
  | .hbm, ⟨8, _⟩ => ⟨S10, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S3200000, .f32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S1x767x16, .f32⟩
  | .hbm, ⟨27, _⟩ => ⟨S767x16, .f32⟩
  | .hbm, ⟨28, _⟩ => ⟨S1x767x16, .f32⟩
  | .hbm, ⟨29, _⟩ => ⟨S767x16, .f32⟩
  | .hbm, ⟨30, _⟩ => ⟨S767x48, .f32⟩
  | .hbm, ⟨31, _⟩ => ⟨S100000x32, .f32⟩
  | .hbm, ⟨32, _⟩ => ⟨S100000x16, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x32, .f32⟩
  | .hbm, ⟨42, _⟩ => ⟨S_, .f32⟩
  | .hbm, ⟨43, _⟩ => ⟨S3200000, .f32⟩
  | .hbm, ⟨44, _⟩ => ⟨S3200000, .f32⟩
  | .hbm, ⟨45, _⟩ => ⟨S3200000x1, .f32⟩
  | .hbm, ⟨46, _⟩ => ⟨S3200000x16, .f32⟩
  | .hbm, ⟨47, _⟩ => ⟨S3200000x16, .f32⟩
  | .hbm, ⟨48, _⟩ => ⟨S3200000x16, .f32⟩
  | .hbm, ⟨49, _⟩ => ⟨S3200000x1, .f32⟩
  | .hbm, ⟨50, _⟩ => ⟨S3200000x16, .f32⟩
  | .hbm, ⟨51, _⟩ => ⟨S3200000x16, .f32⟩
  | .hbm, ⟨52, _⟩ => ⟨S3200000x16, .f32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S100000x1, .f32⟩
  | .hbm, ⟨59, _⟩ => ⟨S100000x16, .f32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S1x16x10, .f32⟩
  | .hbm, ⟨64, _⟩ => ⟨S16x10, .f32⟩
  | .hbm, ⟨65, _⟩ => ⟨S1x16x10, .f32⟩
  | .hbm, ⟨66, _⟩ => ⟨S16x10, .f32⟩
  | .hbm, ⟨67, _⟩ => ⟨S16x30, .f32⟩
  | .hbm, ⟨68, _⟩ => ⟨S100000x20, .f32⟩
  | .hbm, ⟨69, _⟩ => ⟨S100000x10, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x20, .f32⟩
  | .hbm, ⟨79, _⟩ => ⟨S_, .f32⟩
  | .hbm, ⟨80, _⟩ => ⟨S3200000, .f32⟩
  | .hbm, ⟨81, _⟩ => ⟨S3200000, .f32⟩
  | .hbm, ⟨82, _⟩ => ⟨S3200000x1, .f32⟩
  | .hbm, ⟨83, _⟩ => ⟨S3200000x10, .f32⟩
  | .hbm, ⟨84, _⟩ => ⟨S3200000x10, .f32⟩
  | .hbm, ⟨85, _⟩ => ⟨S3200000x10, .f32⟩
  | .hbm, ⟨86, _⟩ => ⟨S3200000x1, .f32⟩
  | .hbm, ⟨87, _⟩ => ⟨S3200000x10, .f32⟩
  | .hbm, ⟨88, _⟩ => ⟨S3200000x10, .f32⟩
  | .hbm, ⟨89, _⟩ => ⟨S3200000x10, .f32⟩
  | .hbm, ⟨90, _⟩ => ⟨S3200000x10, .f32⟩
  | .hbm, ⟨91, _⟩ => ⟨S_, .f32⟩
  | .hbm, ⟨92, _⟩ => ⟨S100000x10, .f32⟩
  | .hbm, ⟨93, _⟩ => ⟨S3200000x1, .i32⟩
  | .hbm, ⟨94, _⟩ => ⟨S100000x10, .f32⟩
  | .hbm, ⟨95, _⟩ => ⟨S100000x1, .f32⟩
  | .hbm, ⟨96, _⟩ => ⟨S100000x10, .f32⟩
  | .hbm, ⟨97, _⟩ => ⟨S100000x10, .f32⟩
  | .hbm, ⟨98, _⟩ => ⟨S1x10, .f32⟩
  | .hbm, ⟨99, _⟩ => ⟨S100000x10, .f32⟩
  | .local _ .vmem, ⟨0, _⟩ => ⟨S5000x767, .f32⟩
  | .local _ .vmem, ⟨1, _⟩ => ⟨S5000x767, .f32⟩
  | .local _ .vmem, ⟨2, _⟩ => ⟨S767x48, .f32⟩
  | .local _ .vmem, ⟨3, _⟩ => ⟨S5000x32, .f32⟩
  | .local _ .vmem, ⟨4, _⟩ => ⟨S5000x32, .f32⟩
  | .local _ .vmem, ⟨5, _⟩ => ⟨S5000x16, .f32⟩
  | .local _ .vmem, ⟨6, _⟩ => ⟨S5000x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S16x30, .f32⟩
  | .local _ .vmem, ⟨17, _⟩ => ⟨S10000x20, .f32⟩
  | .local _ .vmem, ⟨18, _⟩ => ⟨S10000x20, .f32⟩
  | .local _ .vmem, ⟨19, _⟩ => ⟨S10000x10, .f32⟩
  | .local _ .vmem, ⟨20, _⟩ => ⟨S10000x10, .f32⟩
  | .local _ .vmem, ⟨21, _⟩ => ⟨S10000x10, .f32⟩
  | .local _ .vmem, ⟨22, _⟩ => ⟨S10000x10, .f32⟩
  | .local _ .vmem, ⟨23, _⟩ => ⟨S10000x10, .f32⟩
  | .local _ .vmem, ⟨24, _⟩ => ⟨S10000x10, .f32⟩
  | .local _ .vmem, ⟨25, _⟩ => ⟨S1x10, .f32⟩
  | .local _ .vmem, ⟨26, _⟩ => ⟨S10000x10, .f32⟩
  | .local _ .vmem, ⟨27, _⟩ => ⟨S10000x10, .f32⟩
  | _, _ => ⟨S100000x767, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50_0 : Ref sig .tc := ⟨.hbm, 68, rfl⟩
abbrev main_v50_1 : Ref sig .tc := ⟨.hbm, 69, rfl⟩
abbrev main_c_6 : Ref sig .tc := ⟨.hbm, 70, rfl⟩
abbrev main_v51 : Ref sig .tc := ⟨.hbm, 71, rfl⟩
abbrev main_v52 : Ref sig .tc := ⟨.hbm, 72, rfl⟩
abbrev main_c_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x767 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S767x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x30 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x20 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S3200000x1_S3200000 : S3200000x1.ShapeCasts S3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  slices_S2x767x16_S1x767x16_0_0_0 : S2x767x16.Slices ![0, 0, 0] S1x767x16
  shapeCasts_S1x767x16_S767x16 : S1x767x16.ShapeCasts S767x16
  slices_S2x767x16_S1x767x16_1_0_0 : S2x767x16.Slices ![1, 0, 0] S1x767x16
  concatenates_S767x16_S767x16_S767x16_S767x48_d1 : Shape.Concatenates [S767x16, S767x16, S767x16] S767x48 1
  inb_S5000x767_S5000x767_0_0 : ∀ a, (![0, 0] : Fin 2 → Nat) a + S5000x767.size a ≤ S5000x767.size a
  h_S5000x767 : 0 < S5000x767.numel
  inb_S767x48_S767x48_0_0 : ∀ a, (![0, 0] : Fin 2 → Nat) a + S767x48.size a ≤ S767x48.size a
  h_S767x48 : 0 < S767x48.numel
  shapeCasts_S767x48_S767x48 : S767x48.ShapeCasts S767x48
  slices_S5000x48_o0_0_S5000x32 : S5000x48.Slices ![0, 0] S5000x32
  inb_S5000x32_S5000x32_0_0 : ∀ a, (![0, 0] : Fin 2 → Nat) a + S5000x32.size a ≤ S5000x32.size a
  h_S5000x32 : 0 < S5000x32.numel
  slices_S5000x48_o0_32_S5000x16 : S5000x48.Slices ![0, 32] S5000x16
  inb_S5000x16_S5000x16_0_0 : ∀ a, (![0, 0] : Fin 2 → Nat) a + S5000x16.size a ≤ S5000x16.size a
  h_S5000x16 : 0 < S5000x16.numel
  slices_S3200000x32_S3200000x16_0_0 : S3200000x32.Slices ![0, 0] S3200000x16
  bcast_S3200000x1_S3200000x16_0_1 : S3200000x1.BroadcastsInDim S3200000x16 (![0, 1] : Fin 2 → Fin S3200000x16.rank)
  slices_S3200000x32_S3200000x16_0_16 : S3200000x32.Slices ![0, 16] S3200000x16
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  slices_S2x16x10_S1x16x10_0_0_0 : S2x16x10.Slices ![0, 0, 0] S1x16x10
  shapeCasts_S1x16x10_S16x10 : S1x16x10.ShapeCasts S16x10
  slices_S2x16x10_S1x16x10_1_0_0 : S2x16x10.Slices ![1, 0, 0] S1x16x10
  concatenates_S16x10_S16x10_S16x10_S16x30_d1 : Shape.Concatenates [S16x10, S16x10, S16x10] S16x30 1
  inb_S16x30_S16x30_0_0 : ∀ a, (![0, 0] : Fin 2 → Nat) a + S16x30.size a ≤ S16x30.size a
  h_S16x30 : 0 < S16x30.numel
  shapeCasts_S16x30_S16x30 : S16x30.ShapeCasts S16x30
  slices_S10000x30_o0_0_S10000x20 : S10000x30.Slices ![0, 0] S10000x20
  inb_S10000x20_S10000x20_0_0 : ∀ a, (![0, 0] : Fin 2 → Nat) a + S10000x20.size a ≤ S10000x20.size a
  h_S10000x20 : 0 < S10000x20.numel
  slices_S10000x30_o0_20_S10000x10 : S10000x30.Slices ![0, 20] S10000x10
  inb_S10000x10_S10000x10_0_0 : ∀ a, (![0, 0] : Fin 2 → Nat) a + S10000x10.size a ≤ S10000x10.size a
  h_S10000x10 : 0 < S10000x10.numel
  slices_S3200000x20_S3200000x10_0_0 : S3200000x20.Slices ![0, 0] S3200000x10
  bcast_S3200000x1_S3200000x10_0_1 : S3200000x1.BroadcastsInDim S3200000x10 (![0, 1] : Fin 2 → Fin S3200000x10.rank)
  slices_S3200000x20_S3200000x10_0_10 : S3200000x20.Slices ![0, 10] S3200000x10
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  shapeCasts_S10_S1x10 : S10.ShapeCasts S1x10
  shapeCasts_S10000x10_S10000x10 : S10000x10.ShapeCasts S10000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  broadcasts_S10000x1_S10000x10 : S10000x1.Broadcasts S10000x10
  scatter_S100000_S3200000x1_S3200000_n_0_0_1_wf : ScatterDims.WF S100000 S3200000x1 S3200000 [] [0] [0] 1
  dot_S5000x767_S767x48_S5000x48_1_0_0_1_n_n_wf : DotDims.WF S5000x767 S767x48 S5000x48 [1] [0] [0] [1] [] []
  gather_S100000x32_S3200000x1_S3200000x32_1_0_n_n_0_1_132_wf : GatherDims.WF S100000x32 S3200000x1 S3200000x32 [1] [0] [] [0] [] 1 ![1, 32]
  scatter_S100000x16_S3200000x1_S3200000x16_1_0_0_1_wf : ScatterDims.WF S100000x16 S3200000x1 S3200000x16 [1] [0] [0] 1
  dot_S10000x16_S16x30_S10000x30_1_0_0_1_n_n_wf : DotDims.WF S10000x16 S16x30 S10000x30 [1] [0] [0] [1] [] []
  gather_S100000x20_S3200000x1_S3200000x20_1_0_n_n_0_1_120_wf : GatherDims.WF S100000x20 S3200000x1 S3200000x20 [1] [0] [] [0] [] 1 ![1, 20]
  scatter_S100000x10_S3200000x1_S3200000x10_1_0_0_1_wf : ScatterDims.WF S100000x10 S3200000x1 S3200000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x767.size a ≤ S100000x767.size a
  hwx0_0 : ∀ i : grid0.Coords, EltTy.bits .f32 = 32 ∨ (Rect.block (s := S100000x767) S5000x767.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S767x48.size a ≤ S767x48.size a
  hwx0_1 : ∀ i : grid0.Coords, EltTy.bits .f32 = 32 ∨ (Rect.block (s := S767x48) S767x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x30.size a ≤ S16x30.size a
  hwx2_1 : ∀ i : grid2.Coords, EltTy.bits .f32 = 32 ∨ (Rect.block (s := S16x30) S16x30.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x20.size a ≤ S100000x20.size a
  hwx2_2 : ∀ i : grid2.Coords, EltTy.bits .f32 = 32 ∨ (Rect.block (s := S100000x20) S10000x20.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x10.size a ≤ S100000x10.size a
  hwx2_3 : ∀ i : grid2.Coords, EltTy.bits .f32 = 32 ∨ (Rect.block (s := S100000x10) S10000x10.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x10.size a ≤ S100000x10.size a
  hwx3_0 : ∀ i : grid3.Coords, EltTy.bits .f32 = 32 ∨ (Rect.block (s := S100000x10) S10000x10.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x10.size a ≤ S100000x10.size a
  hwx3_1 : ∀ i : grid3.Coords, EltTy.bits .f32 = 32 ∨ (Rect.block (s := S100000x10) S10000x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x10.size a ≤ S100000x10.size a
  hwx3_3 : ∀ i : grid3.Coords, EltTy.bits .f32 = 32 ∨ (Rect.block (s := S100000x10) S10000x10.size (cc3_transform_3 i) (hinb3_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x767_S767x48_S5000x48_1_0_0_1_n_n : DotDims S5000x767 S767x48 S5000x48 where
  lhsContracting := [1]
  rhsContracting := [0]
  lhsNonContracting := [0]
  rhsNonContracting := [1]
  lhsBatch := []
  rhsBatch := []
  wf := dot_S5000x767_S767x48_S5000x48_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x30_S10000x30_1_0_0_1_n_n : DotDims S10000x16 S16x30 S10000x30 where
  lhsContracting := [1]
  rhsContracting := [0]
  lhsNonContracting := [0]
  rhsNonContracting := [1]
  lhsBatch := []
  rhsBatch := []
  wf := dot_S10000x16_S16x30_S10000x30_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

abbrev win0_0 : Pipeline.Window sig grid0 :=
  Pipeline.Window.ofSpec (Memref.whole main_arg0) S5000x767.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S767x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18_0) S5000x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18_1) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_1) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S16x30.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50_0) S10000x20.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50_1) S10000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S10000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50_1) S10000x10.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S10000x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x767 : Shape := ⟨2, ![100000, 767]⟩
abbrev S2x3200000 : Shape := ⟨2, ![2, 3200000]⟩
abbrev S3200000x1 : Shape := ⟨2, ![3200000, 1]⟩
abbrev S2x767x16 : Shape := ⟨3, ![2, 767, 16]⟩
abbrev S767x16 : Shape := ⟨2, ![767, 16]⟩
abbrev S16 : Shape := ⟨1, ![16]⟩
abbrev S2x16x10 : Shape := ⟨3, ![2, 16, 10]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S1x767x16 : Shape := ⟨3, ![1, 767, 16]⟩
abbrev S100000x16 : Shape := ⟨2, ![100000, 16]⟩
abbrev S_ : Shape := ⟨0, ![]⟩
abbrev S3200000x16 : Shape := ⟨2, ![3200000, 16]⟩
abbrev S100000 : Shape := ⟨1, ![100000]⟩
abbrev S100000x1 : Shape := ⟨2, ![100000, 1]⟩
abbrev S1x16 : Shape := ⟨2, ![1, 16]⟩
abbrev S1x16x10 : Shape := ⟨3, ![1, 16, 10]⟩
abbrev S100000x10 : Shape := ⟨2, ![100000, 10]⟩
abbrev S3200000x10 : Shape := ⟨2, ![3200000, 10]⟩
abbrev S1x10 : Shape := ⟨2, ![1, 10]⟩

abbrev nBuf : Space → Nat
  | .hbm => 147
  | .vmem => 0
  | .smem => 0
  | _ => 0

abbrev hbmTy0_0 (i : Nat) : BufTy := match i % 128 with
  | 0 => ⟨S100000x767, .f32⟩
  | 1 => ⟨S2x3200000, .i32⟩
  | 2 => ⟨S3200000x1, .f32⟩
  | 3 => ⟨S2x767x16, .f32⟩
  | 4 => ⟨S767x16, .f32⟩
  | 5 => ⟨S16, .f32⟩
  | 6 => ⟨S2x16x10, .f32⟩
  | 7 => ⟨S16x10, .f32⟩
  | 8 => ⟨S10, .f32⟩
  | 9 => ⟨S1x3200000, .i32⟩
  | 10 => ⟨S3200000, .i32⟩
  | 11 => ⟨S1x3200000, .i32⟩
  | 12 => ⟨S3200000, .i32⟩
  | 13 => ⟨S1x767x16, .f32⟩
  | 14 => ⟨S767x16, .f32⟩
  | 15 => ⟨S100000x16, .f32⟩
  | 16 => ⟨S1x767x16, .f32⟩
  | 17 => ⟨S767x16, .f32⟩
  | 18 => ⟨S100000x16, .f32⟩
  | 19 => ⟨S3200000, .f32⟩
  | 20 => ⟨S_, .f32⟩
  | 21 => ⟨S3200000, .f32⟩
  | 22 => ⟨S3200000, .f32⟩
  | 23 => ⟨S3200000x1, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x16, .f32⟩
  | 33 => ⟨S3200000x16, .f32⟩
  | 34 => ⟨S3200000x16, .f32⟩
  | 35 => ⟨S3200000x1, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000x16, .f32⟩
  | 45 => ⟨S3200000x16, .f32⟩
  | 46 => ⟨S3200000x16, .f32⟩
  | 47 => ⟨S3200000x16, .f32⟩
  | 48 => ⟨S_, .f32⟩
  | 49 => ⟨S100000x16, .f32⟩
  | 50 => ⟨S3200000x1, .i32⟩
  | 51 => ⟨S100000x16, .f32⟩
  | 52 => ⟨S_, .f32⟩
  | 53 => ⟨S3200000, .f32⟩
  | 54 => ⟨S_, .f32⟩
  | 55 => ⟨S100000, .f32⟩
  | 56 => ⟨S3200000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x16, .f32⟩
  | 63 => ⟨S100000x16, .f32⟩
  | 64 => ⟨S100000x16, .f32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S1x3200000, .i32⟩
  | 73 => ⟨S3200000, .i32⟩
  | 74 => ⟨S1x3200000, .i32⟩
  | 75 => ⟨S3200000, .i32⟩
  | 76 => ⟨S1x16x10, .f32⟩
  | 77 => ⟨S16x10, .f32⟩
  | 78 => ⟨S100000x10, .f32⟩
  | 79 => ⟨S1x16x10, .f32⟩
  | 80 => ⟨S16x10, .f32⟩
  | 81 => ⟨S100000x10, .f32⟩
  | 82 => ⟨S3200000, .f32⟩
  | 83 => ⟨S_, .f32⟩
  | 84 => ⟨S3200000, .f32⟩
  | 85 => ⟨S3200000, .f32⟩
  | 86 => ⟨S3200000x1, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000x10, .f32⟩
  | 96 => ⟨S3200000x10, .f32⟩
  | 97 => ⟨S3200000x10, .f32⟩
  | 98 => ⟨S3200000x1, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x10, .f32⟩
  | 108 => ⟨S3200000x10, .f32⟩
  | 109 => ⟨S3200000x10, .f32⟩
  | 110 => ⟨S3200000x10, .f32⟩
  | 111 => ⟨S_, .f32⟩
  | 112 => ⟨S100000x10, .f32⟩
  | 113 => ⟨S3200000x1, .i32⟩
  | 114 => ⟨S100000x10, .f32⟩
  | 115 => ⟨S_, .f32⟩
  | 116 => ⟨S3200000, .f32⟩
  | 117 => ⟨S_, .f32⟩
  | 118 => ⟨S100000, .f32⟩
  | 119 => ⟨S3200000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x10, .f32⟩
  | 126 => ⟨S100000x10, .f32⟩
  | 127 => ⟨S100000x10, .f32⟩
  | _ => ⟨S100000x767, .f32⟩

abbrev hbmTy0_1 (i : Nat) : BufTy := match i % 128 with
  | 0 => ⟨S100000x10, .f32⟩
  | 1 => ⟨S1x10, .f32⟩
  | 2 => ⟨S100000x10, .f32⟩
  | 3 => ⟨S100000x10, .f32⟩
  | 4 => ⟨S_, .f32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x10, .f32⟩
  | 11 => ⟨S100000x10, .f32⟩
  | 12 => ⟨S100000x10, .f32⟩
  | 13 => ⟨S_, .f32⟩
  | 14 => ⟨S100000, .f32⟩
  | 15 => ⟨S100000x1, .f32⟩
  | 16 => ⟨S100000x1, .f32⟩
  | 17 => ⟨S100000x10, .f32⟩
  | 18 => ⟨S100000x10, .f32⟩
  | _ => ⟨S100000x767, .f32⟩

abbrev hbmTy (i : Nat) : BufTy := match i / 128 with
  | 0 => hbmTy0_0 i
  | 1 => hbmTy0_1 i
  | _ => ⟨S100000x767, .f32⟩

abbrev bufTy : (tb : Table) → Fin (tcTables nBuf tb) → BufTy
  | .hbm, ⟨i, _⟩ => hbmTy i
  | _, _ => ⟨S100000x767, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_8 : Ref sig .tc := ⟨.hbm, 87, rfl⟩
abbrev main_v66 : Ref sig .tc := ⟨.hbm, 88, rfl⟩
abbrev main_v67 : Ref sig .tc := ⟨.hbm, 89, rfl⟩
abbrev main_c_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_10 : Ref sig .tc := ⟨.hbm, 99, rfl⟩
abbrev main_v76 : Ref sig .tc := ⟨.hbm, 100, rfl⟩
abbrev main_v77 : Ref sig .tc := ⟨.hbm, 101, rfl⟩
abbrev main_c_11 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_12 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_13 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_15 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call1_cst : Ref sig .tc := ⟨.hbm, 132, rfl⟩
abbrev main_call1_v0 : Ref sig .tc := ⟨.hbm, 133, rfl⟩
abbrev main_call1_cst_0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_call1_v5 : Ref sig .tc := ⟨.hbm, 139, rfl⟩
abbrev main_call1_v6 : Ref sig .tc := ⟨.hbm, 140, rfl⟩
abbrev main_call1_cst_1 : Ref sig .tc := ⟨.hbm, 141, rfl⟩
abbrev main_call1_v7 : Ref sig .tc := ⟨.hbm, 142, rfl⟩
abbrev main_call1_v8 : Ref sig .tc := ⟨.hbm, 143, rfl⟩
abbrev main_call1_v9 : Ref sig .tc := ⟨.hbm, 144, rfl⟩
abbrev main_call1_v10 : Ref sig .tc := ⟨.hbm, 145, rfl⟩
abbrev main_v103 : Ref sig .tc := ⟨.hbm, 146, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S2x767x16_S1x767x16_0_0_0 : S2x767x16.Slices ![0, 0, 0] S1x767x16
  shapeCasts_S1x767x16_S767x16 : S1x767x16.ShapeCasts S767x16
  slices_S2x767x16_S1x767x16_1_0_0 : S2x767x16.Slices ![1, 0, 0] S1x767x16
  shapeCasts_S3200000x1_S3200000 : S3200000x1.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x16x10_S1x16x10_0_0_0 : S2x16x10.Slices ![0, 0, 0] S1x16x10
  shapeCasts_S1x16x10_S16x10 : S1x16x10.ShapeCasts S16x10
  slices_S2x16x10_S1x16x10_1_0_0 : S2x16x10.Slices ![1, 0, 0] S1x16x10
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  dot_S100000x767_S767x16_S100000x16_1_0_0_1_n_n_wf : DotDims.WF S100000x767 S767x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x16_S16x10_S100000x10_1_0_0_1_n_n_wf : DotDims.WF S100000x16 S16x10 S100000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1

variable [Facts₀]

def dot_S100000x767_S767x16_S100000x16_1_0_0_1_n_n : DotDims S100000x767 S767x16 S100000x16 where
  lhsContracting := [1]
  rhsContracting := [0]
  lhsNonContracting := [0]
  rhsNonContracting := [1]
  lhsBatch := []
  rhsBatch := []
  wf := dot_S100000x767_S767x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

class Facts : Prop extends Facts₀ where

variable [Facts]
-- ==== Proof.KRegion0.lean ====
/-
  STAGE ONE OF LAYER ONE: the node features, 5000 rows at a time, times the three layer-one weight matrices laid side
  by side (767 x 48); columns 0-31 go to the first result array, columns 32-47 to the second. Stated at any float
  instance: what each window's buffer holds around the body, the body's run on whole buffers, and the obligation the
  tiling's launch asks of the body at every grid point.
-/
import proofs.«132475_j59768764891998_2_alg».proof.Proof.Gen.Kernel.Launch
import proofs.«132475_j59768764891998_2_alg».proof.Proof.Gen.Kernel.Skeleton
import proofs.«132475_j59768764891998_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched once; its block index never moves, so the buffer holds that block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body reads and writes whole buffers -/

abbrev r0_x : Rect S5000x767 := Rect.unit (s := S5000x767) ![0, 0] S5000x767.size inb_S5000x767_S5000x767_0_0
abbrev r0_w : Rect S767x48 := Rect.unit (s := S767x48) ![0, 0] S767x48.size inb_S767x48_S767x48_0_0
abbrev r0_a : Rect S5000x32 := Rect.unit (s := S5000x32) ![0, 0] S5000x32.size inb_S5000x32_S5000x32_0_0
abbrev r0_b : Rect S5000x16 := Rect.unit (s := S5000x16) ![0, 0] S5000x16.size inb_S5000x16_S5000x16_0_0

/-- The first result buffer after the body: the left column group of the block product, stored whole. -/
def out0_2 (x0 : Vec F S5000x767 .f32) (x1 : Vec F S767x48 .f32) : Vec F S5000x32 .f32 :=
  View.canon [⟨r0_a, k0_pay2 (View.ld x0 r0_x) (View.ld x1 r0_w)⟩]

/-- The second result buffer after the body: the right column group of the block product, stored whole. -/
def out0_3 (x0 : Vec F S5000x767 .f32) (x1 : Vec F S767x48 .f32) : Vec F S5000x16 .f32 :=
  View.canon [⟨r0_b, k0_pay3 (View.ld x0 r0_x) (View.ld x1 r0_w)⟩]

theorem cover0_2 (p0 : Vec F S5000x32 .f32) (y : S5000x32.Idx) :
    ∃ pc ∈ ([⟨r0_a, p0⟩] : List (View.Piece (Elt F) S5000x32 .f32)), y ∈ pc.1.set :=
  View.cover_of_tiled [⟨r0_a, p0⟩] S5000x32.size (by rfl) y

theorem cover0_3 (p0 : Vec F S5000x16 .f32) (y : S5000x16.Idx) :
    ∃ pc ∈ ([⟨r0_b, p0⟩] : List (View.Piece (Elt F) S5000x16 .f32)), y ∈ pc.1.set :=
  View.cover_of_tiled [⟨r0_b, p0⟩] S5000x16.size (by rfl) y

/-! ## The body's triple -/

set_option maxHeartbeats 1000000 in
/-- On whole staging buffers, the inputs' at `x0`, `x1` and the results' at anything, the body runs to the end with the
    inputs as they were and each result buffer at its column group of the product. -/
theorem sound_kernel0 (c : Dev nD) (E : Set ℕ) (i : grid0.Coords) (arg1 : Memref sig .tc .vmem S5000x767 .f32) (harg1 : arg1.IsWhole) (arg2 : Memref sig .tc .vmem S767x48 .f32) (harg2 : arg2.IsWhole) (arg3 : Memref sig .tc .vmem S5000x32 .f32) (harg3 : arg3.IsWhole) (arg4 : Memref sig .tc .vmem S5000x16 .f32) (harg4 : arg4.IsWhole)
    (x0 : Vec F S5000x767 .f32) (x1 : Vec F S767x48 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The stage's proof data -/

/-- The arrays as the stage finds them; after the body at point `t` each input buffer at its block and each result
    buffer at its column group of the blocks' product; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at any grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  STAGE TWO OF LAYER ONE: 10000 rows at a time, the normalised neighbourhood sum plus the root product plus the bias
  row, rectified. Stated at any float instance: what each window's buffer holds around the body, the body's run on whole
  buffers, and the obligation the tiling's launch asks of the body at every grid point.
-/
import proofs.«132475_j59768764891998_2_alg».proof.Proof.Gen.Kernel.Launch
import proofs.«132475_j59768764891998_2_alg».proof.Proof.Gen.Kernel.Skeleton
import proofs.«132475_j59768764891998_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias row is fetched once; its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body reads and writes whole buffers -/

abbrev r1_a : Rect S10000x16 := Rect.unit (s := S10000x16) ![0, 0] S10000x16.size inb_S10000x16_S10000x16_0_0
abbrev r1_b : Rect S1x16 := Rect.unit (s := S1x16) ![0, 0] S1x16.size inb_S1x16_S1x16_0_0

/-- The result buffer after the body: the pointwise stage of the three input blocks, stored whole. -/
def out1_3 (x0 : Vec F S10000x16 .f32) (x1 : Vec F S10000x16 .f32) (x2 : Vec F S1x16 .f32) : Vec F S10000x16 .f32 :=
  View.canon [⟨r1_a, k1_pay1 (View.ld x0 r1_a) (View.ld x1 r1_a) (View.ld x2 r1_b)⟩]

theorem cover1_3 (p0 : Vec F S10000x16 .f32) (y : S10000x16.Idx) :
    ∃ pc ∈ ([⟨r1_a, p0⟩] : List (View.Piece (Elt F) S10000x16 .f32)), y ∈ pc.1.set :=
  View.cover_of_tiled [⟨r1_a, p0⟩] S10000x16.size (by rfl) y

/-! ## The body's triple -/

set_option maxHeartbeats 1000000 in
/-- On whole staging buffers, the inputs' at `x0`, `x1`, `x2` and the result's at anything, the body runs to the end with
    the inputs as they were and the result buffer at the pointwise stage of them. -/
theorem sound_kernel1 (c : Dev nD) (E : Set ℕ) (i : grid1.Coords) (arg1 : Memref sig .tc .vmem S10000x16 .f32) (harg1 : arg1.IsWhole) (arg2 : Memref sig .tc .vmem S10000x16 .f32) (harg2 : arg2.IsWhole) (arg3 : Memref sig .tc .vmem S1x16 .f32) (harg3 : arg3.IsWhole) (arg4 : Memref sig .tc .vmem S10000x16 .f32) (harg4 : arg4.IsWhole)
    (x0 : Vec F S10000x16 .f32) (x1 : Vec F S10000x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__finalize_kernel i arg1 harg1 arg2 harg2 arg3 harg3 arg4 harg4) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The stage's proof data -/

/-- The arrays as the stage finds them; after the body at point `t` each input buffer at its block and the result
    buffer at the pointwise stage of the blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at any grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  STAGE ONE OF LAYER TWO: the hidden features, 10000 rows at a time, times the three layer-two weight matrices laid side
  by side (16 x 30); columns 0-19 go to the first result array, columns 20-29 to the second. Stated at any float
  instance: what each window's buffer holds around the body, the body's run on whole buffers, and the obligation the
  tiling's launch asks of the body at every grid point.
-/
import proofs.«132475_j59768764891998_2_alg».proof.Proof.Gen.Kernel.Launch
import proofs.«132475_j59768764891998_2_alg».proof.Proof.Gen.Kernel.Skeleton
import proofs.«132475_j59768764891998_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window's staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window is fetched once; its block index never moves, so the buffer holds that block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body reads and writes whole buffers -/

abbrev r2_x : Rect S10000x16 := Rect.unit (s := S10000x16) ![0, 0] S10000x16.size inb_S10000x16_S10000x16_0_0
abbrev r2_w : Rect S16x30 := Rect.unit (s := S16x30) ![0, 0] S16x30.size inb_S16x30_S16x30_0_0
abbrev r2_a : Rect S10000x20 := Rect.unit (s := S10000x20) ![0, 0] S10000x20.size inb_S10000x20_S10000x20_0_0
abbrev r2_b : Rect S10000x10 := Rect.unit (s := S10000x10) ![0, 0] S10000x10.size inb_S10000x10_S10000x10_0_0

/-- The first result buffer after the body: the left column group of the block product, stored whole. -/
def out2_2 (x0 : Vec F S10000x16 .f32) (x1 : Vec F S16x30 .f32) : Vec F S10000x20 .f32 :=
  View.canon [⟨r2_a, k2_pay2 (View.ld x0 r2_x) (View.ld x1 r2_w)⟩]

/-- The second result buffer after the body: the right column group of the block product, stored whole. -/
def out2_3 (x0 : Vec F S10000x16 .f32) (x1 : Vec F S16x30 .f32) : Vec F S10000x10 .f32 :=
  View.canon [⟨r2_b, k2_pay3 (View.ld x0 r2_x) (View.ld x1 r2_w)⟩]

theorem cover2_2 (p0 : Vec F S10000x20 .f32) (y : S10000x20.Idx) :
    ∃ pc ∈ ([⟨r2_a, p0⟩] : List (View.Piece (Elt F) S10000x20 .f32)), y ∈ pc.1.set :=
  View.cover_of_tiled [⟨r2_a, p0⟩] S10000x20.size (by rfl) y

theorem cover2_3 (p0 : Vec F S10000x10 .f32) (y : S10000x10.Idx) :
    ∃ pc ∈ ([⟨r2_b, p0⟩] : List (View.Piece (Elt F) S10000x10 .f32)), y ∈ pc.1.set :=
  View.cover_of_tiled [⟨r2_b, p0⟩] S10000x10.size (by rfl) y

/-! ## The body's triple -/

set_option maxHeartbeats 1000000 in
/-- On whole staging buffers, the inputs' at `x0`, `x1` and the results' at anything, the body runs to the end with the
    inputs as they were and each result buffer at its column group of the product. -/
theorem sound_kernel2 (c : Dev nD) (E : Set ℕ) (i : grid2.Coords) (arg1 : Memref sig .tc .vmem S10000x16 .f32) (harg1 : arg1.IsWhole) (arg2 : Memref sig .tc .vmem S16x30 .f32) (harg2 : arg2.IsWhole) (arg3 : Memref sig .tc .vmem S10000x20 .f32) (harg3 : arg3.IsWhole) (arg4 : Memref sig .tc .vmem S10000x10 .f32) (harg4 : arg4.IsWhole)
    (x0 : Vec F S10000x16 .f32) (x1 : Vec F S16x30 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__matmul_kernel i arg1 harg1 arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-! ## The stage's proof data -/

/-- The arrays as the stage finds them; after the body at point `t` each input buffer at its block and each result
    buffer at its column group of the blocks' product; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at any grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
/-
  STAGE TWO OF LAYER TWO: 10000 rows at a time, the normalised neighbourhood sum plus the root product plus the bias
  row, then the row-wise log-softmax. Stated at any float instance: what each window's buffer holds around the body, the
  body's run on whole buffers, and the obligation the tiling's launch asks of the body at every grid point.
-/
import proofs.«132475_j59768764891998_2_alg».proof.Proof.Gen.Kernel.Launch
import proofs.«132475_j59768764891998_2_alg».proof.Proof.Gen.Kernel.Skeleton
import proofs.«132475_j59768764891998_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, whether or not it was fetched there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The bias row is fetched once; its block index never moves. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body reads and writes whole buffers -/

abbrev r3_a : Rect S10000x10 := Rect.unit (s := S10000x10) ![0, 0] S10000x10.size inb_S10000x10_S10000x10_0_0
abbrev r3_b : Rect S1x10 := Rect.unit (s := S1x10) ![0, 0] S1x10.size inb_S1x10_S1x10_0_0

/-- The result buffer after the body: the pointwise stage of the three input blocks, stored whole. -/
def out3_3 (x0 : Vec F S10000x10 .f32) (x1 : Vec F S10000x10 .f32) (x2 : Vec F S1x10 .f32) : Vec F S10000x10 .f32 :=
  View.canon [⟨r3_a, k3_pay1 (View.ld x0 r3_a) (View.ld x1 r3_a) (View.ld x2 r3_b)⟩]

theorem cover3_3 (p0 : Vec F S10000x10 .f32) (y : S10000x10.Idx) :
    ∃ pc ∈ ([⟨r3_a, p0⟩] : List (View.Piece (Elt F) S10000x10 .f32)), y ∈ pc.1.set :=
  View.cover_of_tiled [⟨r3_a, p0⟩] S10000x10.size (by rfl) y

/-! ## The body's triple -/

set_option maxHeartbeats 1000000 in
/-- On whole staging buffers, the inputs' at `x0`, `x1`, `x2` and the result's at anything, the body runs to the end with
    the inputs as they were and the result buffer at the pointwise stage of them. -/
theorem sound_kernel3 (c : Dev nD) (E : Set ℕ) (i : grid3.Coords) (arg1 : Memref sig .tc .vmem S10000x10 .f32) (harg1 : arg1.IsWhole) (arg2 : Memref sig .tc .vmem S10000x10 .f32) (harg2 : arg2.IsWhole) (arg3 : Memref sig .tc .vmem S1x10 .f32) (harg3 : arg3.IsWhole) (arg4 : Memref sig .tc .vmem S10000x10 .f32) (harg4 : arg4.IsWhole)
    (x0 : Vec F S10000x10 .f32) (x1 : Vec F S10000x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__finalize_kernel i arg1 harg1 arg2 harg2 arg3 harg3 arg4 harg4) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The stage's proof data -/

/-- The arrays as the stage finds them; after the body at point `t` each input buffer at its block and the result
    buffer at the pointwise stage of the blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at any grid point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
/-
  THE WHOLE PROGRAM'S RUN, at any float instance: four stretches of host operations, each followed by a tiled stage.
  The buffers' contents at each boundary are a fold from the launch memory: a host stretch applies its operations; a stage
  leaves its arrays at what its tiling writes back (`W0 … W8`). Each stage is a segment over the thread state "every
  unscoped buffer at the boundary's contents, the generator register at some state, nothing owed"; the segments chain,
  the launch makes the first state, and at the end every unscoped buffer is read back at `W8` (`run_all`). From that:
  every argument array ends as launched (`frame`), because no host operation and no stage writes one.
-/
import proofs.«132475_j59768764891998_2_alg».proof.Proof.KRegion0
import proofs.«132475_j59768764891998_2_alg».proof.Proof.KRegion1
import proofs.«132475_j59768764891998_2_alg».proof.Proof.KRegion2
import proofs.«132475_j59768764891998_2_alg».proof.Proof.KRegion3
import proofs.«132475_j59768764891998_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- Before stage 0: the host stretch `hostOps0` applied to the buffers. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After stage 0: its arrays at what the tiling leaves (inputs as entered, each result array with its blocks written
    back), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The host stretch before stage 0 leaves alone every buffer it does not write. -/
theorem W1_of (c : Dev nD) (r : Ref sig .tc) (h : r ∉ hostOps0_W) : W1 m c r = W0 m c r :=
  StableHlo.after_of_writes_sub hostOps0 _ hostOps0_writes h

/-- Before stage 1: the host stretch `hostOps1` applied to the buffers. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After stage 1: its arrays at what the tiling leaves (inputs as entered, each result array with its blocks written
    back), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- The host stretch before stage 1 leaves alone every buffer it does not write. -/
theorem W3_of (c : Dev nD) (r : Ref sig .tc) (h : r ∉ hostOps1_W) : W3 m c r = W2 m c r :=
  StableHlo.after_of_writes_sub hostOps1 _ hostOps1_writes h

/-- Before stage 2: the host stretch `hostOps2` applied to the buffers. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After stage 2: its arrays at what the tiling leaves (inputs as entered, each result array with its blocks written
    back), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- The host stretch before stage 2 leaves alone every buffer it does not write. -/
theorem W5_of (c : Dev nD) (r : Ref sig .tc) (h : r ∉ hostOps2_W) : W5 m c r = W4 m c r :=
  StableHlo.after_of_writes_sub hostOps2 _ hostOps2_writes h

/-- Before stage 3: the host stretch `hostOps3` applied to the buffers. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- After stage 3: its arrays at what the tiling leaves (inputs as entered, each result array with its blocks written
    back), every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- The host stretch before stage 3 leaves alone every buffer it does not write. -/
theorem W7_of (c : Dev nD) (r : Ref sig .tc) (h : r ∉ hostOps3_W) : W7 m c r = W6 m c r :=
  StableHlo.after_of_writes_sub hostOps3 _ hostOps3_writes h

/-! ## No host operation and no stage writes an argument -/

theorem W8_main_arg0 (c : Dev nD) : W8 m c (Proc.devRef .tc main_arg0) = m ((c : Thread nD τ).loc main_arg0) :=
  (W8_of_ne m c main_arg0 (by decide)).trans <| (W7_of m c main_arg0 (by decide)).trans <| (W6_of_ne m c main_arg0 (by decide)).trans <|
  (W5_of m c main_arg0 (by decide)).trans <| (W4_of_ne m c main_arg0 (by decide)).trans <| (W3_of m c main_arg0 (by decide)).trans <|
  ((W2_arr m c 0).trans (((dat0 (V1 m) c).arrAt_in 0 rfl _).trans (A_eq0 (V1 m) c 0))).trans <| (W1_of m c main_arg0 (by decide)).trans rfl
theorem W8_main_arg1 (c : Dev nD) : W8 m c (Proc.devRef .tc main_arg1) = m ((c : Thread nD τ).loc main_arg1) :=
  (W8_of_ne m c main_arg1 (by decide)).trans <| (W7_of m c main_arg1 (by decide)).trans <| (W6_of_ne m c main_arg1 (by decide)).trans <|
  (W5_of m c main_arg1 (by decide)).trans <| (W4_of_ne m c main_arg1 (by decide)).trans <| (W3_of m c main_arg1 (by decide)).trans <|
  (W2_of_ne m c main_arg1 (by decide)).trans <| (W1_of m c main_arg1 (by decide)).trans rfl
theorem W8_main_arg2 (c : Dev nD) : W8 m c (Proc.devRef .tc main_arg2) = m ((c : Thread nD τ).loc main_arg2) :=
  (W8_of_ne m c main_arg2 (by decide)).trans <| (W7_of m c main_arg2 (by decide)).trans <| (W6_of_ne m c main_arg2 (by decide)).trans <|
  (W5_of m c main_arg2 (by decide)).trans <| (W4_of_ne m c main_arg2 (by decide)).trans <| (W3_of m c main_arg2 (by decide)).trans <|
  (W2_of_ne m c main_arg2 (by decide)).trans <| (W1_of m c main_arg2 (by decide)).trans rfl
theorem W8_main_arg3 (c : Dev nD) : W8 m c (Proc.devRef .tc main_arg3) = m ((c : Thread nD τ).loc main_arg3) :=
  (W8_of_ne m c main_arg3 (by decide)).trans <| (W7_of m c main_arg3 (by decide)).trans <| (W6_of_ne m c main_arg3 (by decide)).trans <|
  (W5_of m c main_arg3 (by decide)).trans <| (W4_of_ne m c main_arg3 (by decide)).trans <| (W3_of m c main_arg3 (by decide)).trans <|
  (W2_of_ne m c main_arg3 (by decide)).trans <| (W1_of m c main_arg3 (by decide)).trans rfl
theorem W8_main_arg4 (c : Dev nD) : W8 m c (Proc.devRef .tc main_arg4) = m ((c : Thread nD τ).loc main_arg4) :=
  (W8_of_ne m c main_arg4 (by decide)).trans <| (W7_of m c main_arg4 (by decide)).trans <| (W6_of_ne m c main_arg4 (by decide)).trans <|
  (W5_of m c main_arg4 (by decide)).trans <| (W4_of_ne m c main_arg4 (by decide)).trans <| (W3_of m c main_arg4 (by decide)).trans <|
  (W2_of_ne m c main_arg4 (by decide)).trans <| (W1_of m c main_arg4 (by decide)).trans rfl
theorem W8_main_arg5 (c : Dev nD) : W8 m c (Proc.devRef .tc main_arg5) = m ((c : Thread nD τ).loc main_arg5) :=
  (W8_of_ne m c main_arg5 (by decide)).trans <| (W7_of m c main_arg5 (by decide)).trans <| (W6_of_ne m c main_arg5 (by decide)).trans <|
  (W5_of m c main_arg5 (by decide)).trans <| (W4_of_ne m c main_arg5 (by decide)).trans <| (W3_of m c main_arg5 (by decide)).trans <|
  (W2_of_ne m c main_arg5 (by decide)).trans <| (W1_of m c main_arg5 (by decide)).trans rfl
theorem W8_main_arg6 (c : Dev nD) : W8 m c (Proc.devRef .tc main_arg6) = m ((c : Thread nD τ).loc main_arg6) :=
  (W8_of_ne m c main_arg6 (by decide)).trans <| (W7_of m c main_arg6 (by decide)).trans <| (W6_of_ne m c main_arg6 (by decide)).trans <|
  (W5_of m c main_arg6 (by decide)).trans <| (W4_of_ne m c main_arg6 (by decide)).trans <| (W3_of m c main_arg6 (by decide)).trans <|
  (W2_of_ne m c main_arg6 (by decide)).trans <| (W1_of m c main_arg6 (by decide)).trans rfl
theorem W8_main_arg7 (c : Dev nD) : W8 m c (Proc.devRef .tc main_arg7) = m ((c : Thread nD τ).loc main_arg7) :=
  (W8_of_ne m c main_arg7 (by decide)).trans <| (W7_of m c main_arg7 (by decide)).trans <| (W6_of_ne m c main_arg7 (by decide)).trans <|
  (W5_of m c main_arg7 (by decide)).trans <| (W4_of_ne m c main_arg7 (by decide)).trans <| (W3_of m c main_arg7 (by decide)).trans <|
  (W2_of_ne m c main_arg7 (by decide)).trans <| (W1_of m c main_arg7 (by decide)).trans rfl
theorem W8_main_arg8 (c : Dev nD) : W8 m c (Proc.devRef .tc main_arg8) = m ((c : Thread nD τ).loc main_arg8) :=
  (W8_of_ne m c main_arg8 (by decide)).trans <| (W7_of m c main_arg8 (by decide)).trans <| (W6_of_ne m c main_arg8 (by decide)).trans <|
  (W5_of m c main_arg8 (by decide)).trans <| (W4_of_ne m c main_arg8 (by decide)).trans <| (W3_of m c main_arg8 (by decide)).trans <|
  (W2_of_ne m c main_arg8 (by decide)).trans <| (W1_of m c main_arg8 (by decide)).trans rfl

/-! ## The proof data of the four stages and the thread state -/

abbrev adm : (p : Fin 4) → (pcfgs (F := F) p).Adm := fun p => (cfgs p).toPCfg_adm
/-- Each stage's proof data at its entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m c) ∗ ∃ r, prngReg c r)

/-! ## The stages as segments -/

set_option backward.isDefEq.respectTransparency.types false in
/-- Stage 0 as a segment over the thread state: entered with every unscoped buffer at `W1`, left with them at `W2`. Its
    arrays are split out of the unscoped buffers on entry and put back at what the tiling leaves on exit; the generator
    register goes into the stage's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 as a segment over the thread state: entered with every unscoped buffer at `W3`, left with them at `W4`. Its
    arrays are split out of the unscoped buffers on entry and put back at what the tiling leaves on exit; the generator
    register goes into the stage's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 as a segment over the thread state: entered with every unscoped buffer at `W5`, left with them at `W6`. Its
    arrays are split out of the unscoped buffers on entry and put back at what the tiling leaves on exit; the generator
    register goes into the stage's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 3 as a segment over the thread state: entered with every unscoped buffer at `W7`, left with them at `W8`. Its
    arrays are split out of the unscoped buffers on entry and put back at what the tiling leaves on exit; the generator
    register goes into the stage's invariant and comes back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
theorem main_run (c : Dev nD) : main (F := F) c = Pipeline.Seg.run (segs m) := (main_chain c).trans (by chain_rfl)

set_option backward.isDefEq.respectTransparency.types false in
/-- Every weakly fair execution from memory `m` with zero counters terminates, nothing faulting, and in every final state
    each unscoped buffer of each core holds the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c)⟩) (run_all m ρ)

end Cert.Kernel.Hand

end
-- ==== Proof.KIRegion0.lean ====
/-
  STAGE ONE OF LAYER ONE: the node features, 5000 rows at a time, times the three layer-one weight matrices laid side
  by side (767 x 48); columns 0-31 go to the first result array, columns 32-47 to the second. Stated at any float
  instance: what each window's buffer holds around the body, the body's run on whole buffers, and the obligation the
  tiling's launch asks of the body at every grid point.
-/
import proofs.«132475_j59768764891998_2_alg».proof.Proof.Gen.KernelIdeal.Launch
import proofs.«132475_j59768764891998_2_alg».proof.Proof.Gen.KernelIdeal.Skeleton
import proofs.«132475_j59768764891998_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched once; its block index never moves, so the buffer holds that block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body reads and writes whole buffers -/

abbrev r0_x : Rect S5000x767 := Rect.unit (s := S5000x767) ![0, 0] S5000x767.size inb_S5000x767_S5000x767_0_0
abbrev r0_w : Rect S767x48 := Rect.unit (s := S767x48) ![0, 0] S767x48.size inb_S767x48_S767x48_0_0
abbrev r0_a : Rect S5000x32 := Rect.unit (s := S5000x32) ![0, 0] S5000x32.size inb_S5000x32_S5000x32_0_0
abbrev r0_b : Rect S5000x16 := Rect.unit (s := S5000x16) ![0, 0] S5000x16.size inb_S5000x16_S5000x16_0_0

/-- The first result buffer after the body: the left column group of the block product, stored whole. -/
def out0_2 (x0 : Vec F S5000x767 .f32) (x1 : Vec F S767x48 .f32) : Vec F S5000x32 .f32 :=
  View.canon [⟨r0_a, k0_pay2 (View.ld x0 r0_x) (View.ld x1 r0_w)⟩]

/-- The second result buffer after the body: the right column group of the block product, stored whole. -/
def out0_3 (x0 : Vec F S5000x767 .f32) (x1 : Vec F S767x48 .f32) : Vec F S5000x16 .f32 :=
  View.canon [⟨r0_b, k0_pay3 (View.ld x0 r0_x) (View.ld x1 r0_w)⟩]

theorem cover0_2 (p0 : Vec F S5000x32 .f32) (y : S5000x32.Idx) :
    ∃ pc ∈ ([⟨r0_a, p0⟩] : List (View.Piece (Elt F) S5000x32 .f32)), y ∈ pc.1.set :=
  View.cover_of_tiled [⟨r0_a, p0⟩] S5000x32.size (by rfl) y

theorem cover0_3 (p0 : Vec F S5000x16 .f32) (y : S5000x16.Idx) :
    ∃ pc ∈ ([⟨r0_b, p0⟩] : List (View.Piece (Elt F) S5000x16 .f32)), y ∈ pc.1.set :=
  View.cover_of_tiled [⟨r0_b, p0⟩] S5000x16.size (by rfl) y

/-! ## The body's triple -/

set_option maxHeartbeats 1000000 in
/-- On whole staging buffers, the inputs' at `x0`, `x1` and the results' at anything, the body runs to the end with the
    inputs as they were and each result buffer at its column group of the product. -/
theorem sound_kernel0 (c : Dev nD) (E : Set ℕ) (i : grid0.Coords) (arg1 : Memref sig .tc .vmem S5000x767 .f32) (harg1 : arg1.IsWhole) (arg2 : Memref sig .tc .vmem S767x48 .f32) (harg2 : arg2.IsWhole) (arg3 : Memref sig .tc .vmem S5000x32 .f32) (harg3 : arg3.IsWhole) (arg4 : Memref sig .tc .vmem S5000x16 .f32) (harg4 : arg4.IsWhole)
    (x0 : Vec F S5000x767 .f32) (x1 : Vec F S767x48 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The stage's proof data -/

/-- The arrays as the stage finds them; after the body at point `t` each input buffer at its block and each result
    buffer at its column group of the blocks' product; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at any grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  STAGE TWO OF LAYER ONE: 10000 rows at a time, the normalised neighbourhood sum plus the root product plus the bias
  row, rectified. Stated at any float instance: what each window's buffer holds around the body, the body's run on whole
  buffers, and the obligation the tiling's launch asks of the body at every grid point.
-/
import proofs.«132475_j59768764891998_2_alg».proof.Proof.Gen.KernelIdeal.Launch
import proofs.«132475_j59768764891998_2_alg».proof.Proof.Gen.KernelIdeal.Skeleton
import proofs.«132475_j59768764891998_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias row is fetched once; its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body reads and writes whole buffers -/

abbrev r1_a : Rect S10000x16 := Rect.unit (s := S10000x16) ![0, 0] S10000x16.size inb_S10000x16_S10000x16_0_0
abbrev r1_b : Rect S1x16 := Rect.unit (s := S1x16) ![0, 0] S1x16.size inb_S1x16_S1x16_0_0

/-- The result buffer after the body: the pointwise stage of the three input blocks, stored whole. -/
def out1_3 (x0 : Vec F S10000x16 .f32) (x1 : Vec F S10000x16 .f32) (x2 : Vec F S1x16 .f32) : Vec F S10000x16 .f32 :=
  View.canon [⟨r1_a, k1_pay1 (View.ld x0 r1_a) (View.ld x1 r1_a) (View.ld x2 r1_b)⟩]

theorem cover1_3 (p0 : Vec F S10000x16 .f32) (y : S10000x16.Idx) :
    ∃ pc ∈ ([⟨r1_a, p0⟩] : List (View.Piece (Elt F) S10000x16 .f32)), y ∈ pc.1.set :=
  View.cover_of_tiled [⟨r1_a, p0⟩] S10000x16.size (by rfl) y

/-! ## The body's triple -/

set_option maxHeartbeats 1000000 in
/-- On whole staging buffers, the inputs' at `x0`, `x1`, `x2` and the result's at anything, the body runs to the end with
    the inputs as they were and the result buffer at the pointwise stage of them. -/
theorem sound_kernel1 (c : Dev nD) (E : Set ℕ) (i : grid1.Coords) (arg1 : Memref sig .tc .vmem S10000x16 .f32) (harg1 : arg1.IsWhole) (arg2 : Memref sig .tc .vmem S10000x16 .f32) (harg2 : arg2.IsWhole) (arg3 : Memref sig .tc .vmem S1x16 .f32) (harg3 : arg3.IsWhole) (arg4 : Memref sig .tc .vmem S10000x16 .f32) (harg4 : arg4.IsWhole)
    (x0 : Vec F S10000x16 .f32) (x1 : Vec F S10000x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__finalize_kernel i arg1 harg1 arg2 harg2 arg3 harg3 arg4 harg4) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The stage's proof data -/

/-- The arrays as the stage finds them; after the body at point `t` each input buffer at its block and the result
    buffer at the pointwise stage of the blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at any grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
/-
  STAGE ONE OF LAYER TWO: the hidden features, 10000 rows at a time, times the three layer-two weight matrices laid side
  by side (16 x 30); columns 0-19 go to the first result array, columns 20-29 to the second. Stated at any float
  instance: what each window's buffer holds around the body, the body's run on whole buffers, and the obligation the
  tiling's launch asks of the body at every grid point.
-/
import proofs.«132475_j59768764891998_2_alg».proof.Proof.Gen.KernelIdeal.Launch
import proofs.«132475_j59768764891998_2_alg».proof.Proof.Gen.KernelIdeal.Skeleton
import proofs.«132475_j59768764891998_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window's staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window is fetched once; its block index never moves, so the buffer holds that block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body reads and writes whole buffers -/

abbrev r2_x : Rect S10000x16 := Rect.unit (s := S10000x16) ![0, 0] S10000x16.size inb_S10000x16_S10000x16_0_0
abbrev r2_w : Rect S16x30 := Rect.unit (s := S16x30) ![0, 0] S16x30.size inb_S16x30_S16x30_0_0
abbrev r2_a : Rect S10000x20 := Rect.unit (s := S10000x20) ![0, 0] S10000x20.size inb_S10000x20_S10000x20_0_0
abbrev r2_b : Rect S10000x10 := Rect.unit (s := S10000x10) ![0, 0] S10000x10.size inb_S10000x10_S10000x10_0_0

/-- The first result buffer after the body: the left column group of the block product, stored whole. -/
def out2_2 (x0 : Vec F S10000x16 .f32) (x1 : Vec F S16x30 .f32) : Vec F S10000x20 .f32 :=
  View.canon [⟨r2_a, k2_pay2 (View.ld x0 r2_x) (View.ld x1 r2_w)⟩]

/-- The second result buffer after the body: the right column group of the block product, stored whole. -/
def out2_3 (x0 : Vec F S10000x16 .f32) (x1 : Vec F S16x30 .f32) : Vec F S10000x10 .f32 :=
  View.canon [⟨r2_b, k2_pay3 (View.ld x0 r2_x) (View.ld x1 r2_w)⟩]

theorem cover2_2 (p0 : Vec F S10000x20 .f32) (y : S10000x20.Idx) :
    ∃ pc ∈ ([⟨r2_a, p0⟩] : List (View.Piece (Elt F) S10000x20 .f32)), y ∈ pc.1.set :=
  View.cover_of_tiled [⟨r2_a, p0⟩] S10000x20.size (by rfl) y

theorem cover2_3 (p0 : Vec F S10000x10 .f32) (y : S10000x10.Idx) :
    ∃ pc ∈ ([⟨r2_b, p0⟩] : List (View.Piece (Elt F) S10000x10 .f32)), y ∈ pc.1.set :=
  View.cover_of_tiled [⟨r2_b, p0⟩] S10000x10.size (by rfl) y

/-! ## The body's triple -/

set_option maxHeartbeats 1000000 in
/-- On whole staging buffers, the inputs' at `x0`, `x1` and the results' at anything, the body runs to the end with the
    inputs as they were and each result buffer at its column group of the product. -/
theorem sound_kernel2 (c : Dev nD) (E : Set ℕ) (i : grid2.Coords) (arg1 : Memref sig .tc .vmem S10000x16 .f32) (harg1 : arg1.IsWhole) (arg2 : Memref sig .tc .vmem S16x30 .f32) (harg2 : arg2.IsWhole) (arg3 : Memref sig .tc .vmem S10000x20 .f32) (harg3 : arg3.IsWhole) (arg4 : Memref sig .tc .vmem S10000x10 .f32) (harg4 : arg4.IsWhole)
    (x0 : Vec F S10000x16 .f32) (x1 : Vec F S16x30 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__matmul_kernel i arg1 harg1 arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-! ## The stage's proof data -/

/-- The arrays as the stage finds them; after the body at point `t` each input buffer at its block and each result
    buffer at its column group of the blocks' product; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at any grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRegion3.lean ====
/-
  STAGE TWO OF LAYER TWO: 10000 rows at a time, the normalised neighbourhood sum plus the root product plus the bias
  row, then the row-wise log-softmax. Stated at any float instance: what each window's buffer holds around the body, the
  body's run on whole buffers, and the obligation the tiling's launch asks of the body at every grid point.
-/
import proofs.«132475_j59768764891998_2_alg».proof.Proof.Gen.KernelIdeal.Launch
import proofs.«132475_j59768764891998_2_alg».proof.Proof.Gen.KernelIdeal.Skeleton
import proofs.«132475_j59768764891998_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, whether or not it was fetched there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The bias row is fetched once; its block index never moves. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body reads and writes whole buffers -/

abbrev r3_a : Rect S10000x10 := Rect.unit (s := S10000x10) ![0, 0] S10000x10.size inb_S10000x10_S10000x10_0_0
abbrev r3_b : Rect S1x10 := Rect.unit (s := S1x10) ![0, 0] S1x10.size inb_S1x10_S1x10_0_0

/-- The result buffer after the body: the pointwise stage of the three input blocks, stored whole. -/
def out3_3 (x0 : Vec F S10000x10 .f32) (x1 : Vec F S10000x10 .f32) (x2 : Vec F S1x10 .f32) : Vec F S10000x10 .f32 :=
  View.canon [⟨r3_a, k3_pay1 (View.ld x0 r3_a) (View.ld x1 r3_a) (View.ld x2 r3_b)⟩]

theorem cover3_3 (p0 : Vec F S10000x10 .f32) (y : S10000x10.Idx) :
    ∃ pc ∈ ([⟨r3_a, p0⟩] : List (View.Piece (Elt F) S10000x10 .f32)), y ∈ pc.1.set :=
  View.cover_of_tiled [⟨r3_a, p0⟩] S10000x10.size (by rfl) y

/-! ## The body's triple -/

set_option maxHeartbeats 1000000 in
/-- On whole staging buffers, the inputs' at `x0`, `x1`, `x2` and the result's at anything, the body runs to the end with
    the inputs as they were and the result buffer at the pointwise stage of them. -/
theorem sound_kernel3 (c : Dev nD) (E : Set ℕ) (i : grid3.Coords) (arg1 : Memref sig .tc .vmem S10000x10 .f32) (harg1 : arg1.IsWhole) (arg2 : Memref sig .tc .vmem S10000x10 .f32) (harg2 : arg2.IsWhole) (arg3 : Memref sig .tc .vmem S1x10 .f32) (harg3 : arg3.IsWhole) (arg4 : Memref sig .tc .vmem S10000x10 .f32) (harg4 : arg4.IsWhole)
    (x0 : Vec F S10000x10 .f32) (x1 : Vec F S10000x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__finalize_kernel i arg1 harg1 arg2 harg2 arg3 harg3 arg4 harg4) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The stage's proof data -/

/-- The arrays as the stage finds them; after the body at point `t` each input buffer at its block and the result
    buffer at the pointwise stage of the blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at any grid point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRun.lean ====
/-
  THE WHOLE PROGRAM'S RUN, at any float instance: four stretches of host operations, each followed by a tiled stage.
  The buffers' contents at each boundary are a fold from the launch memory: a host stretch applies its operations; a stage
  leaves its arrays at what its tiling writes back (`W0 … W8`). Each stage is a segment over the thread state "every
  unscoped buffer at the boundary's contents, the generator register at some state, nothing owed"; the segments chain,
  the launch makes the first state, and at the end every unscoped buffer is read back at `W8` (`run_all`). From that:
  every argument array ends as launched (`frame`), because no host operation and no stage writes one.
-/
import proofs.«132475_j59768764891998_2_alg».proof.Proof.KIRegion0
import proofs.«132475_j59768764891998_2_alg».proof.Proof.KIRegion1
import proofs.«132475_j59768764891998_2_alg».proof.Proof.KIRegion2
import proofs.«132475_j59768764891998_2_alg».proof.Proof.KIRegion3
import proofs.«132475_j59768764891998_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- Before stage 0: the host stretch `hostOps0` applied to the buffers. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After stage 0: its arrays at what the tiling leaves (inputs as entered, each result array with its blocks written
    back), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The host stretch before stage 0 leaves alone every buffer it does not write. -/
theorem W1_of (c : Dev nD) (r : Ref sig .tc) (h : r ∉ hostOps0_W) : W1 m c r = W0 m c r :=
  StableHlo.after_of_writes_sub hostOps0 _ hostOps0_writes h

/-- Before stage 1: the host stretch `hostOps1` applied to the buffers. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After stage 1: its arrays at what the tiling leaves (inputs as entered, each result array with its blocks written
    back), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- The host stretch before stage 1 leaves alone every buffer it does not write. -/
theorem W3_of (c : Dev nD) (r : Ref sig .tc) (h : r ∉ hostOps1_W) : W3 m c r = W2 m c r :=
  StableHlo.after_of_writes_sub hostOps1 _ hostOps1_writes h

/-- Before stage 2: the host stretch `hostOps2` applied to the buffers. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After stage 2: its arrays at what the tiling leaves (inputs as entered, each result array with its blocks written
    back), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- The host stretch before stage 2 leaves alone every buffer it does not write. -/
theorem W5_of (c : Dev nD) (r : Ref sig .tc) (h : r ∉ hostOps2_W) : W5 m c r = W4 m c r :=
  StableHlo.after_of_writes_sub hostOps2 _ hostOps2_writes h

/-- Before stage 3: the host stretch `hostOps3` applied to the buffers. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- After stage 3: its arrays at what the tiling leaves (inputs as entered, each result array with its blocks written
    back), every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- The host stretch before stage 3 leaves alone every buffer it does not write. -/
theorem W7_of (c : Dev nD) (r : Ref sig .tc) (h : r ∉ hostOps3_W) : W7 m c r = W6 m c r :=
  StableHlo.after_of_writes_sub hostOps3 _ hostOps3_writes h

/-! ## No host operation and no stage writes an argument -/

theorem W8_main_arg0 (c : Dev nD) : W8 m c (Proc.devRef .tc main_arg0) = m ((c : Thread nD τ).loc main_arg0) :=
  (W8_of_ne m c main_arg0 (by decide)).trans <| (W7_of m c main_arg0 (by decide)).trans <| (W6_of_ne m c main_arg0 (by decide)).trans <|
  (W5_of m c main_arg0 (by decide)).trans <| (W4_of_ne m c main_arg0 (by decide)).trans <| (W3_of m c main_arg0 (by decide)).trans <|
  ((W2_arr m c 0).trans (((dat0 (V1 m) c).arrAt_in 0 rfl _).trans (A_eq0 (V1 m) c 0))).trans <| (W1_of m c main_arg0 (by decide)).trans rfl
theorem W8_main_arg1 (c : Dev nD) : W8 m c (Proc.devRef .tc main_arg1) = m ((c : Thread nD τ).loc main_arg1) :=
  (W8_of_ne m c main_arg1 (by decide)).trans <| (W7_of m c main_arg1 (by decide)).trans <| (W6_of_ne m c main_arg1 (by decide)).trans <|
  (W5_of m c main_arg1 (by decide)).trans <| (W4_of_ne m c main_arg1 (by decide)).trans <| (W3_of m c main_arg1 (by decide)).trans <|
  (W2_of_ne m c main_arg1 (by decide)).trans <| (W1_of m c main_arg1 (by decide)).trans rfl
theorem W8_main_arg2 (c : Dev nD) : W8 m c (Proc.devRef .tc main_arg2) = m ((c : Thread nD τ).loc main_arg2) :=
  (W8_of_ne m c main_arg2 (by decide)).trans <| (W7_of m c main_arg2 (by decide)).trans <| (W6_of_ne m c main_arg2 (by decide)).trans <|
  (W5_of m c main_arg2 (by decide)).trans <| (W4_of_ne m c main_arg2 (by decide)).trans <| (W3_of m c main_arg2 (by decide)).trans <|
  (W2_of_ne m c main_arg2 (by decide)).trans <| (W1_of m c main_arg2 (by decide)).trans rfl
theorem W8_main_arg3 (c : Dev nD) : W8 m c (Proc.devRef .tc main_arg3) = m ((c : Thread nD τ).loc main_arg3) :=
  (W8_of_ne m c main_arg3 (by decide)).trans <| (W7_of m c main_arg3 (by decide)).trans <| (W6_of_ne m c main_arg3 (by decide)).trans <|
  (W5_of m c main_arg3 (by decide)).trans <| (W4_of_ne m c main_arg3 (by decide)).trans <| (W3_of m c main_arg3 (by decide)).trans <|
  (W2_of_ne m c main_arg3 (by decide)).trans <| (W1_of m c main_arg3 (by decide)).trans rfl
theorem W8_main_arg4 (c : Dev nD) : W8 m c (Proc.devRef .tc main_arg4) = m ((c : Thread nD τ).loc main_arg4) :=
  (W8_of_ne m c main_arg4 (by decide)).trans <| (W7_of m c main_arg4 (by decide)).trans <| (W6_of_ne m c main_arg4 (by decide)).trans <|
  (W5_of m c main_arg4 (by decide)).trans <| (W4_of_ne m c main_arg4 (by decide)).trans <| (W3_of m c main_arg4 (by decide)).trans <|
  (W2_of_ne m c main_arg4 (by decide)).trans <| (W1_of m c main_arg4 (by decide)).trans rfl
theorem W8_main_arg5 (c : Dev nD) : W8 m c (Proc.devRef .tc main_arg5) = m ((c : Thread nD τ).loc main_arg5) :=
  (W8_of_ne m c main_arg5 (by decide)).trans <| (W7_of m c main_arg5 (by decide)).trans <| (W6_of_ne m c main_arg5 (by decide)).trans <|
  (W5_of m c main_arg5 (by decide)).trans <| (W4_of_ne m c main_arg5 (by decide)).trans <| (W3_of m c main_arg5 (by decide)).trans <|
  (W2_of_ne m c main_arg5 (by decide)).trans <| (W1_of m c main_arg5 (by decide)).trans rfl
theorem W8_main_arg6 (c : Dev nD) : W8 m c (Proc.devRef .tc main_arg6) = m ((c : Thread nD τ).loc main_arg6) :=
  (W8_of_ne m c main_arg6 (by decide)).trans <| (W7_of m c main_arg6 (by decide)).trans <| (W6_of_ne m c main_arg6 (by decide)).trans <|
  (W5_of m c main_arg6 (by decide)).trans <| (W4_of_ne m c main_arg6 (by decide)).trans <| (W3_of m c main_arg6 (by decide)).trans <|
  (W2_of_ne m c main_arg6 (by decide)).trans <| (W1_of m c main_arg6 (by decide)).trans rfl
theorem W8_main_arg7 (c : Dev nD) : W8 m c (Proc.devRef .tc main_arg7) = m ((c : Thread nD τ).loc main_arg7) :=
  (W8_of_ne m c main_arg7 (by decide)).trans <| (W7_of m c main_arg7 (by decide)).trans <| (W6_of_ne m c main_arg7 (by decide)).trans <|
  (W5_of m c main_arg7 (by decide)).trans <| (W4_of_ne m c main_arg7 (by decide)).trans <| (W3_of m c main_arg7 (by decide)).trans <|
  (W2_of_ne m c main_arg7 (by decide)).trans <| (W1_of m c main_arg7 (by decide)).trans rfl
theorem W8_main_arg8 (c : Dev nD) : W8 m c (Proc.devRef .tc main_arg8) = m ((c : Thread nD τ).loc main_arg8) :=
  (W8_of_ne m c main_arg8 (by decide)).trans <| (W7_of m c main_arg8 (by decide)).trans <| (W6_of_ne m c main_arg8 (by decide)).trans <|
  (W5_of m c main_arg8 (by decide)).trans <| (W4_of_ne m c main_arg8 (by decide)).trans <| (W3_of m c main_arg8 (by decide)).trans <|
  (W2_of_ne m c main_arg8 (by decide)).trans <| (W1_of m c main_arg8 (by decide)).trans rfl

/-! ## The proof data of the four stages and the thread state -/

abbrev adm : (p : Fin 4) → (pcfgs (F := F) p).Adm := fun p => (cfgs p).toPCfg_adm
/-- Each stage's proof data at its entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m c) ∗ ∃ r, prngReg c r)

/-! ## The stages as segments -/

set_option backward.isDefEq.respectTransparency.types false in
/-- Stage 0 as a segment over the thread state: entered with every unscoped buffer at `W1`, left with them at `W2`. Its
    arrays are split out of the unscoped buffers on entry and put back at what the tiling leaves on exit; the generator
    register goes into the stage's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 as a segment over the thread state: entered with every unscoped buffer at `W3`, left with them at `W4`. Its
    arrays are split out of the unscoped buffers on entry and put back at what the tiling leaves on exit; the generator
    register goes into the stage's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 as a segment over the thread state: entered with every unscoped buffer at `W5`, left with them at `W6`. Its
    arrays are split out of the unscoped buffers on entry and put back at what the tiling leaves on exit; the generator
    register goes into the stage's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 3 as a segment over the thread state: entered with every unscoped buffer at `W7`, left with them at `W8`. Its
    arrays are split out of the unscoped buffers on entry and put back at what the tiling leaves on exit; the generator
    register goes into the stage's invariant and comes back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
theorem main_run (c : Dev nD) : main (F := F) c = Pipeline.Seg.run (segs m) := (main_chain c).trans (by chain_rfl)

set_option backward.isDefEq.respectTransparency.types false in
/-- Every weakly fair execution from memory `m` with zero counters terminates, nothing faulting, and in every final state
    each unscoped buffer of each core holds the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c)⟩) (run_all m ρ)

end Cert.KernelIdeal.Hand

end
-- ==== Proof.Spec.lean ====
/-
  WHAT THE FOUR TILED STAGES COMPUTE, ENTRY BY ENTRY, ON THE EXTENDED REALS.

  The network is two layers of the same shape. In each, a tiled matrix product of the node features with three weight
  matrices laid side by side is cut into two column groups; a tiled pointwise stage then adds the normalised
  neighbourhood sum, the root product and the bias, and ends in a rectifier (layer one) or in a row-wise
  log-softmax (layer two). This file states each stage's result as one function of whole arrays:
    • `mmCols C off`: columns `off … off + C − 1` of `X · W`, entry `(p, q)` the sum over `k` of `X(p,k) · W(k, off+q)`;
    • `finRelu`: `max (A + R + b, 0)` with the bias row `b` spread down the rows;
    • `finLsm`: with `v = A + R + b`, `z = v − max_row v`, the entry `z − log (Σ_row exp z)`.
  The zero and the minus infinity are kept as the words the programs carry (`0x00000000`, `0xFF800000`).
-/
import Idealize.ShloMosaic.PureOps.Ideal
import Idealize.ShloMosaic.Lib.ValueIdx

noncomputable section

open scoped BigOperators

namespace Cert.Spec

open Idealize.ShloMosaic Idealize.ShloMosaic.ValueIdx

/-- Entry `(p, q)` of columns `off … off + C − 1` of the product `X · W`: the sum over `k` of `X(p,k) · W(k, off + q)`. -/
def mmEntry {N K CT : Nat} (off : Nat) (X : FVec Ideal ⟨2, ![N, K]⟩ .f32) (W : FVec Ideal ⟨2, ![K, CT]⟩ .f32)
    (p : Fin N) (q : Nat) (hq : off + q < CT) : Ideal .f32 :=
  ∑ k : Fin K, X (ix2 p k) * W (ix2 k (⟨off + q, hq⟩ : Fin CT))

/-- Columns `off … off + C − 1` of `X · W` as an array. -/
def mmCols {N K CT : Nat} (C off : Nat) (h : off + C ≤ CT)
    (X : FVec Ideal ⟨2, ![N, K]⟩ .f32) (W : FVec Ideal ⟨2, ![K, CT]⟩ .f32) : FVec Ideal ⟨2, ![N, C]⟩ .f32 :=
  fun j => mmEntry off X W (⟨(j 0).val, (j 0).isLt⟩ : Fin N) (j 1).val
    (by have h1 : (j 1).val < C := (j 1).isLt; omega)

theorem mmCols_apply {N K CT : Nat} (C off : Nat) (h : off + C ≤ CT)
    (X : FVec Ideal ⟨2, ![N, K]⟩ .f32) (W : FVec Ideal ⟨2, ![K, CT]⟩ .f32) (p : Fin N) (q : Fin C) :
    mmCols C off h X W (ix2 p q)
      = ∑ k : Fin K, X (ix2 p k) * W (ix2 k (⟨off + q.val, by have := q.isLt; omega⟩ : Fin CT)) := rfl

/-- The pre-activation of the pointwise stage at `(p, q)`: aggregate plus root product plus the bias of column `q`. -/
def preAct {N C : Nat} (A R : FVec Ideal ⟨2, ![N, C]⟩ .f32) (b : FVec Ideal ⟨2, ![1, C]⟩ .f32) (p : Fin N) (q : Fin C) :
    Ideal .f32 :=
  A (ix2 p q) + R (ix2 p q) + b (ix2 (0 : Fin 1) q)

/-- Layer one's pointwise stage: the rectified pre-activation. -/
def finRelu {N C : Nat} (A R : FVec Ideal ⟨2, ![N, C]⟩ .f32) (b : FVec Ideal ⟨2, ![1, C]⟩ .f32) :
    FVec Ideal ⟨2, ![N, C]⟩ .f32 :=
  fun j => max (preAct A R b (⟨(j 0).val, (j 0).isLt⟩ : Fin N) (⟨(j 1).val, (j 1).isLt⟩ : Fin C))
    (Ideal.ofBits .f32 0x00000000#32)

theorem finRelu_apply {N C : Nat} (A R : FVec Ideal ⟨2, ![N, C]⟩ .f32) (b : FVec Ideal ⟨2, ![1, C]⟩ .f32)
    (p : Fin N) (q : Fin C) :
    finRelu A R b (ix2 p q) = max (A (ix2 p q) + R (ix2 p q) + b (ix2 (0 : Fin 1) q)) (Ideal.ofBits .f32 0x00000000#32) := rfl

/-- The largest pre-activation of row `p`, folded from the word of minus infinity. -/
def rowTop {N C : Nat} (A R : FVec Ideal ⟨2, ![N, C]⟩ .f32) (b : FVec Ideal ⟨2, ![1, C]⟩ .f32) (p : Fin N) : Ideal .f32 :=
  (Finset.univ : Finset (Fin C)).fold max (Ideal.ofBits .f32 0xFF800000#32) (fun k => preAct A R b p k)

/-- The pre-activation of `(p, q)` shifted by its row's largest. -/
def shifted {N C : Nat} (A R : FVec Ideal ⟨2, ![N, C]⟩ .f32) (b : FVec Ideal ⟨2, ![1, C]⟩ .f32) (p : Fin N) (q : Fin C) :
    Ideal .f32 :=
  preAct A R b p q - rowTop A R b p

/-- Layer two's pointwise stage: the row-wise log-softmax of the pre-activation. -/
def finLsm {N C : Nat} (A R : FVec Ideal ⟨2, ![N, C]⟩ .f32) (b : FVec Ideal ⟨2, ![1, C]⟩ .f32) :
    FVec Ideal ⟨2, ![N, C]⟩ .f32 :=
  fun j => shifted A R b (⟨(j 0).val, (j 0).isLt⟩ : Fin N) (⟨(j 1).val, (j 1).isLt⟩ : Fin C)
    - Ideal.log (∑ k : Fin C, Ideal.exp (shifted A R b (⟨(j 0).val, (j 0).isLt⟩ : Fin N) k))

theorem finLsm_apply {N C : Nat} (A R : FVec Ideal ⟨2, ![N, C]⟩ .f32) (b : FVec Ideal ⟨2, ![1, C]⟩ .f32)
    (p : Fin N) (q : Fin C) :
    finLsm A R b (ix2 p q) = shifted A R b p q - Ideal.log (∑ k : Fin C, Ideal.exp (shifted A R b p k)) := rfl

end Cert.Spec

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KIClosed0.lean ====
/-
  STAGE ONE OF LAYER ONE, READ: at the extended reals the two result arrays of the tiled product are the column groups
  0-31 and 32-47 of (features) x (the three weight matrices side by side), entry by entry. The body's stored values at an
  entry are sums over the 767 contracted positions; block t of each window is rows 5000 t ... 5000 t + 4999 of its array;
  the twenty blocks cover each result array, so the array after the stage is one function of the two arrays read.
-/
import proofs.«132475_j59768764891998_2_alg».proof.Proof.KIRegion0
import proofs.«132475_j59768764891998_2_alg».proof.Proof.Spec
import proofs.«132475_j59768764891998_2_alg».proof.Proof.LibMatmulPlain
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-! ## The body's two stored values at an entry -/

/-- The left column group of the block product at `(p, q)`: the sum over `k` of `x(p,k) · w(k,q)`. -/
theorem pay0_2_apply (x0 : Vec Ideal S5000x767 .f32) (x1 : Vec Ideal S767x48 .f32) (p : Fin 5000) (q : Fin 32) :
    k0_pay2 x0 x1 (ix2 p q) = ∑ j : Fin 767, x0 (ix2 p j) * x1 (ix2 j (⟨0 + q.val, by have := q.isLt; omega⟩ : Fin 48)) := by
  unfold k0_pay2 k0_pay1
  refine (extractStridedSlice_apply ![0, 0] _ slices_S5000x48_o0_0_S5000x32 (ix2 p q) (ix2 p (⟨0 + q.val, by have := q.isLt; omega⟩ : Fin 48)) (fun a => ?_)).trans ?_
  · match a with
    | ⟨0, _⟩ => show p.val = 0 + p.val; omega
    | ⟨1, _⟩ => show 0 + q.val = 0 + q.val; rfl
  · simp only [shapeCast_self]
    exact Cert.LibMatmulPlain.matmul_zero_apply dot_S5000x767_S767x48_S5000x48_1_0_0_1_n_n rfl rfl rfl rfl rfl rfl none _ _ p _

/-- The right column group of the block product at `(p, q)`: the sum over `k` of `x(p,k) · w(k, 32 + q)`. -/
theorem pay0_3_apply (x0 : Vec Ideal S5000x767 .f32) (x1 : Vec Ideal S767x48 .f32) (p : Fin 5000) (q : Fin 16) :
    k0_pay3 x0 x1 (ix2 p q) = ∑ j : Fin 767, x0 (ix2 p j) * x1 (ix2 j (⟨32 + q.val, by have := q.isLt; omega⟩ : Fin 48)) := by
  unfold k0_pay3 k0_pay1
  refine (extractStridedSlice_apply ![0, 32] _ slices_S5000x48_o0_32_S5000x16 (ix2 p q) (ix2 p (⟨32 + q.val, by have := q.isLt; omega⟩ : Fin 48)) (fun a => ?_)).trans ?_
  · match a with
    | ⟨0, _⟩ => show p.val = 0 + p.val; omega
    | ⟨1, _⟩ => show 32 + q.val = 32 + q.val; rfl
  · simp only [shapeCast_self]
    exact Cert.LibMatmulPlain.matmul_zero_apply dot_S5000x767_S767x48_S5000x48_1_0_0_1_n_n rfl rfl rfl rfl rfl rfl none _ _ p _

/-! ## Where the blocks sit in their arrays -/

/-- At grid point `t` the feature window and both result windows are at row block `t`, the weight window at its only block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem tlt0 (t : Fin cfg0.N) : t.val < 20 := lt_of_lt_of_eq t.isLt (show cfg0.N = 20 from N_0)

/-- The feature window's block at point `t` is rows `5000·t … 5000·t + 4999` of the feature array. -/
theorem iblk0_0_apply (c : Dev nD) (t : Fin cfg0.N) (p : Fin 5000) (j : Fin 767) :
    (iblk0 V c 0 t : Vec Ideal S5000x767 .f32) (ix2 p j)
      = (V c main_arg0 : S100000x767.Idx → Ideal .f32) (ix2 (⟨t.val * 5000 + p.val, by have := tlt0 t; have := p.isLt; omega⟩ : Fin 100000) j) := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t 0 * 5000 + 1 * p.val = t.val * 5000 + p.val; rw [e0]; omega
  | ⟨1, _⟩ => show win0_0.index t 1 * 767 + 1 * j.val = j.val; rw [e1]; omega

/-- The weight window's block at every point is the whole weight array. -/
theorem iblk0_1_apply (c : Dev nD) (t : Fin cfg0.N) (j : Fin 767) (q : Fin 48) :
    (iblk0 V c 1 t : Vec Ideal S767x48 .f32) (ix2 j q) = (V c main_v17 : S767x48.Idx → Ideal .f32) (ix2 j q) := by
  obtain ⟨-, -, e2, e3, -⟩ := idx_facts0 t
  unfold iblk0
  rw [View.read_apply]
  show V c main_v17 _ = V c main_v17 _
  refine congrArg _ (funext fun a => Fin.ext ?_)
  match a with
  | ⟨0, _⟩ => show win0_1.index t 0 * 767 + 1 * j.val = j.val; rw [e2]; omega
  | ⟨1, _⟩ => show win0_1.index t 1 * 48 + 1 * q.val = q.val; rw [e3]; omega

/-! ## What each point writes back, and the arrays after the stage -/

/-- What point `t` writes back to the first result array is block `t` of the product's left column group. -/
theorem flushed0_2_eq (c : Dev nD) (t : Fin cfg0.N) :
    (dat0 V c).flushed 2 t = ((cfg0.win 2).blk t).view.read (Elt Ideal)
      (Spec.mmCols (N := 100000) (K := 767) (CT := 48) 32 0 (by decide) (V c main_arg0 : FVec Ideal S100000x767 .f32) (V c main_v17 : FVec Ideal S767x48 .f32) : FVec Ideal S100000x32 .f32) := by
  show (cfg0.win 2).cut (grid0.coords t) ((dat0 V c).after 2 t) = _
  rw [after0_2]
  unfold out0_2
  rw [View.canon_unit_zero hz0]
  simp only [View.ld_unit_zero (S := S5000x767) hz0, View.ld_unit_zero (S := S767x48) hz0]
  obtain ⟨-, -, -, -, e4, e5, -⟩ := idx_facts0 t
  funext y
  obtain ⟨p, q, rfl⟩ : ∃ (p : Fin 5000) (q : Fin 32), y = ix2 p q := ⟨y 0, y 1, eq_ix2 y⟩
  refine (pay0_2_apply _ _ p q).trans ?_
  rw [View.read_apply]
  have hemb : ((cfg0.win 2).blk t).view.emb (ix2 p q)
      = (ix2 (⟨t.val * 5000 + p.val, by have := tlt0 t; have := p.isLt; omega⟩ : Fin 100000) q : S100000x32.Idx) := by
    funext a; apply Fin.ext
    match a with
    | ⟨0, _⟩ => show win0_2.index t 0 * 5000 + 1 * p.val = t.val * 5000 + p.val; rw [e4]; omega
    | ⟨1, _⟩ => show win0_2.index t 1 * 32 + 1 * q.val = q.val; rw [e5]; omega
  rw [hemb, Spec.mmCols_apply]
  refine Finset.sum_congr rfl fun j _ => ?_
  rw [iblk0_0_apply V c t p j, iblk0_1_apply V c t j]

/-- What point `t` writes back to the second result array is block `t` of the product's right column group. -/
theorem flushed0_3_eq (c : Dev nD) (t : Fin cfg0.N) :
    (dat0 V c).flushed 3 t = ((cfg0.win 3).blk t).view.read (Elt Ideal)
      (Spec.mmCols (N := 100000) (K := 767) (CT := 48) 16 32 (by decide) (V c main_arg0 : FVec Ideal S100000x767 .f32) (V c main_v17 : FVec Ideal S767x48 .f32) : FVec Ideal S100000x16 .f32) := by
  show (cfg0.win 3).cut (grid0.coords t) ((dat0 V c).after 3 t) = _
  rw [after0_3]
  unfold out0_3
  rw [View.canon_unit_zero hz0]
  simp only [View.ld_unit_zero (S := S5000x767) hz0, View.ld_unit_zero (S := S767x48) hz0]
  obtain ⟨-, -, -, -, -, -, e6, e7⟩ := idx_facts0 t
  funext y
  obtain ⟨p, q, rfl⟩ : ∃ (p : Fin 5000) (q : Fin 16), y = ix2 p q := ⟨y 0, y 1, eq_ix2 y⟩
  refine (pay0_3_apply _ _ p q).trans ?_
  rw [View.read_apply]
  have hemb : ((cfg0.win 3).blk t).view.emb (ix2 p q)
      = (ix2 (⟨t.val * 5000 + p.val, by have := tlt0 t; have := p.isLt; omega⟩ : Fin 100000) q : S100000x16.Idx) := by
    funext a; apply Fin.ext
    match a with
    | ⟨0, _⟩ => show win0_3.index t 0 * 5000 + 1 * p.val = t.val * 5000 + p.val; rw [e6]; omega
    | ⟨1, _⟩ => show win0_3.index t 1 * 16 + 1 * q.val = q.val; rw [e7]; omega
  rw [hemb, Spec.mmCols_apply]
  refine Finset.sum_congr rfl fun j _ => ?_
  rw [iblk0_0_apply V c t p j, iblk0_1_apply V c t j]

/-- Every entry of the first result array lies in the block of the point its row falls in. -/
theorem cover0_2_all (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  let t : Fin cfg0.N := ⟨(i 0).val / 5000, by rw [show cfg0.N = 20 from N_0]; omega⟩
  obtain ⟨-, -, -, -, e4, e5, -⟩ := idx_facts0 t
  refine ⟨t, flush0_2 t, ?_⟩
  show i ∈ ((View.whole main_v18_0).slice (win0_2.rect t)).set
  rw [View.set_slice_whole, Rect.mem_set_unit]
  intro a
  match a with
  | ⟨0, _⟩ => show win0_2.index t 0 * 5000 ≤ (i 0).val ∧ (i 0).val < win0_2.index t 0 * 5000 + 5000; rw [e4]; show (i 0).val / 5000 * 5000 ≤ (i 0).val ∧ (i 0).val < (i 0).val / 5000 * 5000 + 5000; omega
  | ⟨1, _⟩ => show win0_2.index t 1 * 32 ≤ (i 1).val ∧ (i 1).val < win0_2.index t 1 * 32 + 32; rw [e5]; omega

theorem cover0_3_all (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  let t : Fin cfg0.N := ⟨(i 0).val / 5000, by rw [show cfg0.N = 20 from N_0]; omega⟩
  obtain ⟨-, -, -, -, -, -, e6, e7⟩ := idx_facts0 t
  refine ⟨t, flush0_3 t, ?_⟩
  show i ∈ ((View.whole main_v18_1).slice (win0_3.rect t)).set
  rw [View.set_slice_whole, Rect.mem_set_unit]
  intro a
  match a with
  | ⟨0, _⟩ => show win0_3.index t 0 * 5000 ≤ (i 0).val ∧ (i 0).val < win0_3.index t 0 * 5000 + 5000; rw [e6]; show (i 0).val / 5000 * 5000 ≤ (i 0).val ∧ (i 0).val < (i 0).val / 5000 * 5000 + 5000; omega
  | ⟨1, _⟩ => show win0_3.index t 1 * 16 ≤ (i 1).val ∧ (i 1).val < win0_3.index t 1 * 16 + 16; rw [e7]; omega

/-- After the stage the first result array is the product's left column group, -/
theorem final0_2 (c : Dev nD) : (dat0 V c).arrAt 2 cfg0.N
    = (Spec.mmCols (N := 100000) (K := 767) (CT := 48) 32 0 (by decide) (V c main_arg0 : FVec Ideal S100000x767 .f32) (V c main_v17 : FVec Ideal S767x48 .f32) : FVec Ideal S100000x32 .f32) :=
  (dat0 V c).arrAt_eq_of_cover 2 _ (fun t _ => flushed0_2_eq V c t) (cover0_2_all)

/-- and the second the right column group. -/
theorem final0_3 (c : Dev nD) : (dat0 V c).arrAt 3 cfg0.N
    = (Spec.mmCols (N := 100000) (K := 767) (CT := 48) 16 32 (by decide) (V c main_arg0 : FVec Ideal S100000x767 .f32) (V c main_v17 : FVec Ideal S767x48 .f32) : FVec Ideal S100000x16 .f32) :=
  (dat0 V c).arrAt_eq_of_cover 3 _ (fun t _ => flushed0_3_eq V c t) (cover0_3_all)

end Cert.KernelIdeal.Hand

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibRowOps.lean ====
/-
  Rows of a matrix and slabs of a rank-3 array, read at an entry.

  * The largest entry of each row of an `[m, n]` array, taken from a starting word: at row `p` it is the fold of
    `max` over the `n` entries of that row; the same for the host's reduction with a maximum body from an initial
    value.
  * An `[a, b]` array cast to `[a, b, 1]` reads, at `(p, k, u)`, the entry `(p, k)`; spread over `[a, b, c]`
    it reads, at `(p, k, j)`, the entry `(p, k, 0)`: a per-row, per-column scalar laid along the last axis.
  * A sum of an `[a, b, c]` array along its middle axis reads, at `(p, j)`, the sum over `k` of the entries
    `(p, k, j)`.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- Putting the dropped column coordinate `k` back into the row index `p` gives the entry `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float maximum along the second axis from the word `acc`, read at row `p`: the fold of `max` over that
    row's entries, from the word's value. -/
theorem rowMax_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] (⟨1, ![m]⟩ : Shape) src acc h hφ hacc (ix1 p)
      = (Finset.univ : Finset (Fin n)).fold max (Ideal.ofBits .f32 acc) (fun k => src (ix2 p k)) := by
  refine (Ideal.multiReduction_maximumf_single src acc h hφ hacc (ix1 p)).trans ?_
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduction with a maximum body along the second axis, read at row `p`: the fold of `max` over that
    row's entries, from the initial value. -/
theorem hostRowMax_apply {m n : ℕ} {u : Shape} (x : (⟨2, ![m, n]⟩ : Shape).Idx → Ideal .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (p : Fin m) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- An `[a, b]` array cast to `[a, b, 1]` reads, at `(p, k, u)`, the array at `(p, k)`: both positions are the
    same one in row-major order. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_three, Shape.rowMajor_val_two]
    show p.val * b + k.val = (p.val * b + k.val) * 1 + u.val
    rw [hu, Nat.mul_one, Nat.add_zero])

/-- An `[a, b, 1]` array spread over `[a, b, c]` reads, at `(p, k, j)`, the array at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (j : Fin c) :
    broadcastTo ⟨3, ![a, b, c]⟩ v h (ix3 p k j) = v (ix3 p k (0 : Fin 1)) := by
  refine broadcastTo_apply v h (ix3 p k j) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- Putting the dropped middle coordinate `k` back into `(p, j)` gives the entry `(p, k, j)`. -/
theorem lift_mid {a b c : ℕ} (h : (⟨3, ![a, b, c]⟩ : Shape).Reduces [1] (⟨2, ![a, c]⟩ : Shape)) (p : Fin a) (j : Fin c)
    (k : Fin ((⟨3, ![a, b, c]⟩ : Shape).size 1)) : h.lift (ix2 p j) k = ix3 p (⟨k.val, k.isLt⟩ : Fin b) j := by
  funext d; apply Fin.ext
  fin_cases d <;> rfl

/-- A float sum along the middle axis from the zero word, read at `(p, j)`: the sum over `k` of the entries
    `(p, k, j)`, on the extended reals. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (j : Fin c) :
    multiReduction .add [1] (⟨2, ![a, c]⟩ : Shape) src acc h hφ hacc (ix2 p j) = ∑ k : Fin b, src (ix3 p k j) := by
  refine (Ideal.multiReduction_add_single src acc h hφ hacc (ix2 p j)).trans ?_
  exact Finset.sum_congr rfl fun k _ => congrArg src (lift_mid h p j k)

end Cert.LibRowOps

end
-- ==== Proof.KIClosed1.lean ====
/-
  STAGE TWO OF LAYER ONE, READ: at the extended reals the result array of the tiled pointwise stage is, entry by entry,
  the larger of (aggregate + root product + bias of the column) and zero. Block t of each 10000-row window is rows
  10000 t ... 10000 t + 9999 of its array, the bias row is one block; the ten blocks cover the result array.
-/
import proofs.«132475_j59768764891998_2_alg».proof.Proof.KIRegion1
import proofs.«132475_j59768764891998_2_alg».proof.Proof.Spec
import proofs.«132475_j59768764891998_2_alg».proof.Proof.LibKeepdims
import proofs.«132475_j59768764891998_2_alg».proof.Proof.LibRowOps
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-! ## The body's stored value at an entry -/

theorem pay1_apply (v0 v2 : Vec Ideal S10000x16 .f32) (v5 : Vec Ideal S1x16 .f32) (p : Fin 10000) (q : Fin 16) :
    k1_pay1 v0 v2 v5 (ix2 p q) = max (v0 (ix2 p q) + v2 (ix2 p q) + v5 (ix2 (0 : Fin 1) q)) (Ideal.ofBits .f32 0x00000000#32) := by
  unfold k1_pay1
  simp only [shapeCast_self]
  show max (v0 (ix2 p q) + v2 (ix2 p q) + broadcastTo S10000x16 v5 broadcasts_S1x16_S10000x16 (ix2 p q)) _ = _
  rw [broadcastTo_1b_ab_apply]
  rfl

/-! ## Where the blocks sit in their arrays -/

/-- At grid point `t` the two input windows and the result window are at row block `t`, the bias window at its only block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem tlt1 (t : Fin cfg1.N) : t.val < 10 := lt_of_lt_of_eq t.isLt (show cfg1.N = 10 from N_1)

theorem iblk1_0_apply (c : Dev nD) (t : Fin cfg1.N) (p : Fin 10000) (j : Fin 16) :
    (iblk1 V c 0 t : Vec Ideal S10000x16 .f32) (ix2 p j)
      = (V c main_v42 : S100000x16.Idx → Ideal .f32) (ix2 (⟨t.val * 10000 + p.val, by have := tlt1 t; have := p.isLt; omega⟩ : Fin 100000) j) := by
  obtain ⟨e0, e1, -⟩ := idx_facts1 t
  unfold iblk1
  rw [View.read_apply]
  show V c main_v42 _ = V c main_v42 _
  refine congrArg _ (funext fun a => Fin.ext ?_)
  match a with
  | ⟨0, _⟩ => show win1_0.index t 0 * 10000 + 1 * p.val = t.val * 10000 + p.val; rw [e0]; omega
  | ⟨1, _⟩ => show win1_0.index t 1 * 16 + 1 * j.val = j.val; rw [e1]; omega

theorem iblk1_1_apply (c : Dev nD) (t : Fin cfg1.N) (p : Fin 10000) (j : Fin 16) :
    (iblk1 V c 1 t : Vec Ideal S10000x16 .f32) (ix2 p j)
      = (V c main_v18_1 : S100000x16.Idx → Ideal .f32) (ix2 (⟨t.val * 10000 + p.val, by have := tlt1 t; have := p.isLt; omega⟩ : Fin 100000) j) := by
  obtain ⟨-, -, e2, e3, -⟩ := idx_facts1 t
  unfold iblk1
  rw [View.read_apply]
  show V c main_v18_1 _ = V c main_v18_1 _
  refine congrArg _ (funext fun a => Fin.ext ?_)
  match a with
  | ⟨0, _⟩ => show win1_1.index t 0 * 10000 + 1 * p.val = t.val * 10000 + p.val; rw [e2]; omega
  | ⟨1, _⟩ => show win1_1.index t 1 * 16 + 1 * j.val = j.val; rw [e3]; omega

theorem iblk1_2_apply (c : Dev nD) (t : Fin cfg1.N) (j : Fin 16) :
    (iblk1 V c 2 t : Vec Ideal S1x16 .f32) (ix2 (0 : Fin 1) j) = (V c main_v43 : S1x16.Idx → Ideal .f32) (ix2 (0 : Fin 1) j) := by
  obtain ⟨-, -, -, -, e4, e5, -⟩ := idx_facts1 t
  unfold iblk1
  rw [View.read_apply]
  show V c main_v43 _ = V c main_v43 _
  refine congrArg _ (funext fun a => Fin.ext ?_)
  match a with
  | ⟨0, _⟩ => show win1_2.index t 0 * 1 + 1 * 0 = 0; rw [e4]
  | ⟨1, _⟩ => show win1_2.index t 1 * 16 + 1 * j.val = j.val; rw [e5]; omega

/-! ## What each point writes back, and the array after the stage -/

theorem flushed1_3_eq (c : Dev nD) (t : Fin cfg1.N) :
    (dat1 V c).flushed 3 t = ((cfg1.win 3).blk t).view.read (Elt Ideal)
      (Spec.finRelu (N := 100000) (C := 16) (V c main_v42 : FVec Ideal S100000x16 .f32) (V c main_v18_1 : FVec Ideal S100000x16 .f32) (V c main_v43 : FVec Ideal S1x16 .f32) : FVec Ideal S100000x16 .f32) := by
  show (cfg1.win 3).cut (grid1.coords t) ((dat1 V c).after 3 t) = _
  rw [after1_3]
  unfold out1_3
  rw [View.canon_unit_zero hz1]
  simp only [View.ld_unit_zero (S := S10000x16) hz1, View.ld_unit_zero (S := S1x16) hz1]
  obtain ⟨-, -, -, -, -, -, e6, e7⟩ := idx_facts1 t
  funext y
  obtain ⟨p, q, rfl⟩ : ∃ (p : Fin 10000) (q : Fin 16), y = ix2 p q := ⟨y 0, y 1, eq_ix2 y⟩
  refine (pay1_apply _ _ _ p q).trans ?_
  rw [View.read_apply]
  have hemb : ((cfg1.win 3).blk t).view.emb (ix2 p q)
      = (ix2 (⟨t.val * 10000 + p.val, by have := tlt1 t; have := p.isLt; omega⟩ : Fin 100000) q : S100000x16.Idx) := by
    funext a; apply Fin.ext
    match a with
    | ⟨0, _⟩ => show win1_3.index t 0 * 10000 + 1 * p.val = t.val * 10000 + p.val; rw [e6]; omega
    | ⟨1, _⟩ => show win1_3.index t 1 * 16 + 1 * q.val = q.val; rw [e7]; omega
  rw [hemb, Spec.finRelu_apply, iblk1_0_apply V c t p q, iblk1_1_apply V c t p q, iblk1_2_apply V c t q]
  rfl

theorem cover1_3_all (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  let t : Fin cfg1.N := ⟨(i 0).val / 10000, by rw [show cfg1.N = 10 from N_1]; omega⟩
  obtain ⟨-, -, -, -, -, -, e6, e7⟩ := idx_facts1 t
  refine ⟨t, flush1_3 t, ?_⟩
  show i ∈ ((View.whole main_v44).slice (win1_3.rect t)).set
  rw [View.set_slice_whole, Rect.mem_set_unit]
  intro a
  match a with
  | ⟨0, _⟩ => show win1_3.index t 0 * 10000 ≤ (i 0).val ∧ (i 0).val < win1_3.index t 0 * 10000 + 10000; rw [e6]; show (i 0).val / 10000 * 10000 ≤ (i 0).val ∧ (i 0).val < (i 0).val / 10000 * 10000 + 10000; omega
  | ⟨1, _⟩ => show win1_3.index t 1 * 16 ≤ (i 1).val ∧ (i 1).val < win1_3.index t 1 * 16 + 16; rw [e7]; omega

/-- After the stage the result array is the pointwise stage of the three arrays read. -/
theorem final1_3 (c : Dev nD) : (dat1 V c).arrAt 3 cfg1.N
    = (Spec.finRelu (N := 100000) (C := 16) (V c main_v42 : FVec Ideal S100000x16 .f32) (V c main_v18_1 : FVec Ideal S100000x16 .f32) (V c main_v43 : FVec Ideal S1x16 .f32) : FVec Ideal S100000x16 .f32) :=
  (dat1 V c).arrAt_eq_of_cover 3 _ (fun t _ => flushed1_3_eq V c t) (cover1_3_all)

end Cert.KernelIdeal.Hand

end
-- ==== Proof.KIClosed2.lean ====
/-
  STAGE ONE OF LAYER TWO, READ: at the extended reals the two result arrays of the tiled product are the column groups
  0-19 and 20-29 of (hidden features) x (the three layer-two weight matrices side by side), entry by entry. The body's
  stored values at an entry are sums over the 16 contracted positions; block t of each window is rows 10000 t ... 10000 t + 9999
  of its array; the ten blocks cover each result array.
-/
import proofs.«132475_j59768764891998_2_alg».proof.Proof.KIRegion2
import proofs.«132475_j59768764891998_2_alg».proof.Proof.Spec
import proofs.«132475_j59768764891998_2_alg».proof.Proof.LibMatmulPlain
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-! ## The body's two stored values at an entry -/

/-- The left column group of the block product at `(p, q)`: the sum over `k` of `x(p,k) · w(k,q)`. -/
theorem pay2_2_apply (x0 : Vec Ideal S10000x16 .f32) (x1 : Vec Ideal S16x30 .f32) (p : Fin 10000) (q : Fin 20) :
    k2_pay2 x0 x1 (ix2 p q) = ∑ j : Fin 16, x0 (ix2 p j) * x1 (ix2 j (⟨0 + q.val, by have := q.isLt; omega⟩ : Fin 30)) := by
  unfold k2_pay2 k2_pay1
  refine (extractStridedSlice_apply ![0, 0] _ slices_S10000x30_o0_0_S10000x20 (ix2 p q) (ix2 p (⟨0 + q.val, by have := q.isLt; omega⟩ : Fin 30)) (fun a => ?_)).trans ?_
  · match a with
    | ⟨0, _⟩ => show p.val = 0 + p.val; omega
    | ⟨1, _⟩ => show 0 + q.val = 0 + q.val; rfl
  · simp only [shapeCast_self]
    exact Cert.LibMatmulPlain.matmul_zero_apply dot_S10000x16_S16x30_S10000x30_1_0_0_1_n_n rfl rfl rfl rfl rfl rfl none _ _ p _

/-- The right column group of the block product at `(p, q)`: the sum over `k` of `x(p,k) · w(k, 20 + q)`. -/
theorem pay2_3_apply (x0 : Vec Ideal S10000x16 .f32) (x1 : Vec Ideal S16x30 .f32) (p : Fin 10000) (q : Fin 10) :
    k2_pay3 x0 x1 (ix2 p q) = ∑ j : Fin 16, x0 (ix2 p j) * x1 (ix2 j (⟨20 + q.val, by have := q.isLt; omega⟩ : Fin 30)) := by
  unfold k2_pay3 k2_pay1
  refine (extractStridedSlice_apply ![0, 20] _ slices_S10000x30_o0_20_S10000x10 (ix2 p q) (ix2 p (⟨20 + q.val, by have := q.isLt; omega⟩ : Fin 30)) (fun a => ?_)).trans ?_
  · match a with
    | ⟨0, _⟩ => show p.val = 0 + p.val; omega
    | ⟨1, _⟩ => show 20 + q.val = 20 + q.val; rfl
  · simp only [shapeCast_self]
    exact Cert.LibMatmulPlain.matmul_zero_apply dot_S10000x16_S16x30_S10000x30_1_0_0_1_n_n rfl rfl rfl rfl rfl rfl none _ _ p _

/-! ## Where the blocks sit in their arrays -/

/-- At grid point `t` the feature window and both result windows are at row block `t`, the weight window at its only block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem tlt2 (t : Fin cfg2.N) : t.val < 10 := lt_of_lt_of_eq t.isLt (show cfg2.N = 10 from N_2)

/-- The feature window's block at point `t` is rows `10000·t … 10000·t + 9999` of the feature array. -/
theorem iblk2_0_apply (c : Dev nD) (t : Fin cfg2.N) (p : Fin 10000) (j : Fin 16) :
    (iblk2 V c 0 t : Vec Ideal S10000x16 .f32) (ix2 p j)
      = (V c main_v44 : S100000x16.Idx → Ideal .f32) (ix2 (⟨t.val * 10000 + p.val, by have := tlt2 t; have := p.isLt; omega⟩ : Fin 100000) j) := by
  obtain ⟨e0, e1, -⟩ := idx_facts2 t
  unfold iblk2
  rw [View.read_apply]
  show V c main_v44 _ = V c main_v44 _
  refine congrArg _ (funext fun a => Fin.ext ?_)
  match a with
  | ⟨0, _⟩ => show win2_0.index t 0 * 10000 + 1 * p.val = t.val * 10000 + p.val; rw [e0]; omega
  | ⟨1, _⟩ => show win2_0.index t 1 * 16 + 1 * j.val = j.val; rw [e1]; omega

/-- The weight window's block at every point is the whole weight array. -/
theorem iblk2_1_apply (c : Dev nD) (t : Fin cfg2.N) (j : Fin 16) (q : Fin 30) :
    (iblk2 V c 1 t : Vec Ideal S16x30 .f32) (ix2 j q) = (V c main_v49 : S16x30.Idx → Ideal .f32) (ix2 j q) := by
  obtain ⟨-, -, e2, e3, -⟩ := idx_facts2 t
  unfold iblk2
  rw [View.read_apply]
  show V c main_v49 _ = V c main_v49 _
  refine congrArg _ (funext fun a => Fin.ext ?_)
  match a with
  | ⟨0, _⟩ => show win2_1.index t 0 * 16 + 1 * j.val = j.val; rw [e2]; omega
  | ⟨1, _⟩ => show win2_1.index t 1 * 30 + 1 * q.val = q.val; rw [e3]; omega

/-! ## What each point writes back, and the arrays after the stage -/

/-- What point `t` writes back to the first result array is block `t` of the product's left column group. -/
theorem flushed2_2_eq (c : Dev nD) (t : Fin cfg2.N) :
    (dat2 V c).flushed 2 t = ((cfg2.win 2).blk t).view.read (Elt Ideal)
      (Spec.mmCols (N := 100000) (K := 16) (CT := 30) 20 0 (by decide) (V c main_v44 : FVec Ideal S100000x16 .f32) (V c main_v49 : FVec Ideal S16x30 .f32) : FVec Ideal S100000x20 .f32) := by
  show (cfg2.win 2).cut (grid2.coords t) ((dat2 V c).after 2 t) = _
  rw [after2_2]
  unfold out2_2
  rw [View.canon_unit_zero hz2]
  simp only [View.ld_unit_zero (S := S10000x16) hz2, View.ld_unit_zero (S := S16x30) hz2]
  obtain ⟨-, -, -, -, e4, e5, -⟩ := idx_facts2 t
  funext y
  obtain ⟨p, q, rfl⟩ : ∃ (p : Fin 10000) (q : Fin 20), y = ix2 p q := ⟨y 0, y 1, eq_ix2 y⟩
  refine (pay2_2_apply _ _ p q).trans ?_
  rw [View.read_apply]
  have hemb : ((cfg2.win 2).blk t).view.emb (ix2 p q)
      = (ix2 (⟨t.val * 10000 + p.val, by have := tlt2 t; have := p.isLt; omega⟩ : Fin 100000) q : S100000x20.Idx) := by
    funext a; apply Fin.ext
    match a with
    | ⟨0, _⟩ => show win2_2.index t 0 * 10000 + 1 * p.val = t.val * 10000 + p.val; rw [e4]; omega
    | ⟨1, _⟩ => show win2_2.index t 1 * 20 + 1 * q.val = q.val; rw [e5]; omega
  rw [hemb, Spec.mmCols_apply]
  refine Finset.sum_congr rfl fun j _ => ?_
  rw [iblk2_0_apply V c t p j, iblk2_1_apply V c t j]

/-- What point `t` writes back to the second result array is block `t` of the product's right column group. -/
theorem flushed2_3_eq (c : Dev nD) (t : Fin cfg2.N) :
    (dat2 V c).flushed 3 t = ((cfg2.win 3).blk t).view.read (Elt Ideal)
      (Spec.mmCols (N := 100000) (K := 16) (CT := 30) 10 20 (by decide) (V c main_v44 : FVec Ideal S100000x16 .f32) (V c main_v49 : FVec Ideal S16x30 .f32) : FVec Ideal S100000x10 .f32) := by
  show (cfg2.win 3).cut (grid2.coords t) ((dat2 V c).after 3 t) = _
  rw [after2_3]
  unfold out2_3
  rw [View.canon_unit_zero hz2]
  simp only [View.ld_unit_zero (S := S10000x16) hz2, View.ld_unit_zero (S := S16x30) hz2]
  obtain ⟨-, -, -, -, -, -, e6, e7⟩ := idx_facts2 t
  funext y
  obtain ⟨p, q, rfl⟩ : ∃ (p : Fin 10000) (q : Fin 10), y = ix2 p q := ⟨y 0, y 1, eq_ix2 y⟩
  refine (pay2_3_apply _ _ p q).trans ?_
  rw [View.read_apply]
  have hemb : ((cfg2.win 3).blk t).view.emb (ix2 p q)
      = (ix2 (⟨t.val * 10000 + p.val, by have := tlt2 t; have := p.isLt; omega⟩ : Fin 100000) q : S100000x10.Idx) := by
    funext a; apply Fin.ext
    match a with
    | ⟨0, _⟩ => show win2_3.index t 0 * 10000 + 1 * p.val = t.val * 10000 + p.val; rw [e6]; omega
    | ⟨1, _⟩ => show win2_3.index t 1 * 10 + 1 * q.val = q.val; rw [e7]; omega
  rw [hemb, Spec.mmCols_apply]
  refine Finset.sum_congr rfl fun j _ => ?_
  rw [iblk2_0_apply V c t p j, iblk2_1_apply V c t j]

/-- Every entry of the first result array lies in the block of the point its row falls in. -/
theorem cover2_2_all (i : S100000x20.Idx) : ∃ t : Fin cfg2.N, (cfg2.win 2).flush t = true ∧ i ∈ ((cfg2.win 2).blk t).view.set := by
  have hi0 : (i 0).val < 100000 := (i 0).isLt
  have hi1 : (i 1).val < 20 := (i 1).isLt
  let t : Fin cfg2.N := ⟨(i 0).val / 10000, by rw [show cfg2.N = 10 from N_2]; omega⟩
  obtain ⟨-, -, -, -, e4, e5, -⟩ := idx_facts2 t
  refine ⟨t, flush2_2 t, ?_⟩
  show i ∈ ((View.whole main_v50_0).slice (win2_2.rect t)).set
  rw [View.set_slice_whole, Rect.mem_set_unit]
  intro a
  match a with
  | ⟨0, _⟩ => show win2_2.index t 0 * 10000 ≤ (i 0).val ∧ (i 0).val < win2_2.index t 0 * 10000 + 10000; rw [e4]; show (i 0).val / 10000 * 10000 ≤ (i 0).val ∧ (i 0).val < (i 0).val / 10000 * 10000 + 10000; omega
  | ⟨1, _⟩ => show win2_2.index t 1 * 20 ≤ (i 1).val ∧ (i 1).val < win2_2.index t 1 * 20 + 20; rw [e5]; omega

theorem cover2_3_all (i : S100000x10.Idx) : ∃ t : Fin cfg2.N, (cfg2.win 3).flush t = true ∧ i ∈ ((cfg2.win 3).blk t).view.set := by
  have hi0 : (i 0).val < 100000 := (i 0).isLt
  have hi1 : (i 1).val < 10 := (i 1).isLt
  let t : Fin cfg2.N := ⟨(i 0).val / 10000, by rw [show cfg2.N = 10 from N_2]; omega⟩
  obtain ⟨-, -, -, -, -, -, e6, e7⟩ := idx_facts2 t
  refine ⟨t, flush2_3 t, ?_⟩
  show i ∈ ((View.whole main_v50_1).slice (win2_3.rect t)).set
  rw [View.set_slice_whole, Rect.mem_set_unit]
  intro a
  match a with
  | ⟨0, _⟩ => show win2_3.index t 0 * 10000 ≤ (i 0).val ∧ (i 0).val < win2_3.index t 0 * 10000 + 10000; rw [e6]; show (i 0).val / 10000 * 10000 ≤ (i 0).val ∧ (i 0).val < (i 0).val / 10000 * 10000 + 10000; omega
  | ⟨1, _⟩ => show win2_3.index t 1 * 10 ≤ (i 1).val ∧ (i 1).val < win2_3.index t 1 * 10 + 10; rw [e7]; omega

/-- After the stage the first result array is the product's left column group, -/
theorem final2_2 (c : Dev nD) : (dat2 V c).arrAt 2 cfg2.N
    = (Spec.mmCols (N := 100000) (K := 16) (CT := 30) 20 0 (by decide) (V c main_v44 : FVec Ideal S100000x16 .f32) (V c main_v49 : FVec Ideal S16x30 .f32) : FVec Ideal S100000x20 .f32) :=
  (dat2 V c).arrAt_eq_of_cover 2 _ (fun t _ => flushed2_2_eq V c t) (cover2_2_all)

/-- and the second the right column group. -/
theorem final2_3 (c : Dev nD) : (dat2 V c).arrAt 3 cfg2.N
    = (Spec.mmCols (N := 100000) (K := 16) (CT := 30) 10 20 (by decide) (V c main_v44 : FVec Ideal S100000x16 .f32) (V c main_v49 : FVec Ideal S16x30 .f32) : FVec Ideal S100000x10 .f32) :=
  (dat2 V c).arrAt_eq_of_cover 3 _ (fun t _ => flushed2_3_eq V c t) (cover2_3_all)

end Cert.KernelIdeal.Hand

end
-- ==== Proof.SpecCongr.lean ====
/-
  The row-wise log-softmax stage depends on its three arrays only through one row's pre-activations: if row `p` of one
  triple of arrays and row `p'` of another have the same pre-activations, they have the same largest entry, the same
  shifted entries and the same log-softmax entries. (A tile's row is a row of the whole array.)
-/
import proofs.«132475_j59768764891998_2_alg».proof.Proof.Spec

noncomputable section

open scoped BigOperators

namespace Cert.Spec

open Idealize.ShloMosaic Idealize.ShloMosaic.ValueIdx

variable {N N' C : Nat} {A R : FVec Ideal ⟨2, ![N, C]⟩ .f32} {b : FVec Ideal ⟨2, ![1, C]⟩ .f32}
  {A' R' : FVec Ideal ⟨2, ![N', C]⟩ .f32} {b' : FVec Ideal ⟨2, ![1, C]⟩ .f32} {p : Fin N} {p' : Fin N'}

theorem preAct_eq (A R : FVec Ideal ⟨2, ![N, C]⟩ .f32) (b : FVec Ideal ⟨2, ![1, C]⟩ .f32) (p : Fin N) (q : Fin C) :
    preAct A R b p q = A (ix2 p q) + R (ix2 p q) + b (ix2 (0 : Fin 1) q) := rfl

theorem rowTop_congr (h : ∀ j : Fin C, preAct A R b p j = preAct A' R' b' p' j) : rowTop A R b p = rowTop A' R' b' p' := by
  unfold rowTop
  rw [show (fun k => preAct A R b p k) = fun k => preAct A' R' b' p' k from funext h]

theorem shifted_congr (h : ∀ j : Fin C, preAct A R b p j = preAct A' R' b' p' j) (j : Fin C) :
    shifted A R b p j = shifted A' R' b' p' j := by
  unfold shifted
  rw [h j, rowTop_congr h]

theorem lsm_congr (h : ∀ j : Fin C, preAct A R b p j = preAct A' R' b' p' j) (q : Fin C) :
    shifted A R b p q - Ideal.log (∑ j : Fin C, Ideal.exp (shifted A R b p j))
      = shifted A' R' b' p' q - Ideal.log (∑ j : Fin C, Ideal.exp (shifted A' R' b' p' j)) := by
  rw [shifted_congr h q]
  refine congrArg _ (congrArg Ideal.log (Finset.sum_congr rfl fun j _ => ?_))
  rw [shifted_congr h j]

end Cert.Spec

end
-- ==== Proof.KIClosed3.lean ====
/-
  STAGE TWO OF LAYER TWO, READ: at the extended reals the result array of the tiled stage is, entry by entry, the row-wise
  log-softmax of (aggregate + root product + bias of the column): the entry less its row's largest, less the logarithm of
  the row's sum of exponentials of such differences. A row lies inside one block, so the row's largest and the row's sum
  computed on a block are those of the array's row. Block t is rows 10000 t ... 10000 t + 9999; the ten blocks cover the array.
-/
import proofs.«132475_j59768764891998_2_alg».proof.Proof.KIRegion3
import proofs.«132475_j59768764891998_2_alg».proof.Proof.Spec
import proofs.«132475_j59768764891998_2_alg».proof.Proof.SpecCongr
import proofs.«132475_j59768764891998_2_alg».proof.Proof.LibKeepdims
import proofs.«132475_j59768764891998_2_alg».proof.Proof.LibRowOps
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-! ## The body's stored value at an entry -/

theorem pay3_apply (v0 v2 : Vec Ideal S10000x10 .f32) (v5 : Vec Ideal S1x10 .f32) (p : Fin 10000) (q : Fin 10) :
    k3_pay1 v0 v2 v5 (ix2 p q)
      = Spec.shifted (N := 10000) (C := 10) v0 v2 v5 p q - Ideal.log (∑ j : Fin 10, Ideal.exp (Spec.shifted (N := 10000) (C := 10) v0 v2 v5 p j)) := by
  unfold k3_pay1
  simp only [shapeCast_self]
  generalize hv : (addf (addf v0 v2) (broadcastTo S10000x10 v5 broadcasts_S1x10_S10000x10) : FVec Ideal S10000x10 .f32) = v
  have h8 : ∀ j : Fin 10, v (ix2 p j) = Spec.preAct (N := 10000) (C := 10) v0 v2 v5 p j := fun j => by
    rw [← hv]
    show v0 (ix2 p j) + v2 (ix2 p j) + broadcastTo S10000x10 v5 broadcasts_S1x10_S10000x10 (ix2 p j) = _
    rw [broadcastTo_1b_ab_apply]; rfl
  have htop : (Finset.univ : Finset (Fin 10)).fold max (Ideal.ofBits .f32 0xFF800000#32) (fun j => v (ix2 p j))
      = Spec.rowTop (N := 10000) (C := 10) v0 v2 v5 p := by
    unfold Spec.rowTop; exact congrArg (fun f => (Finset.univ : Finset (Fin 10)).fold max (Ideal.ofBits .f32 0xFF800000#32) f) (funext h8)
  have hM : ∀ j : Fin 10, (broadcastTo S10000x10 (shapeCast S10000x1 (multiReduction .maximumf [1] S10000 v 0xFF800000#32 reduces_S10000x10_S10000 (.inl rfl) rfl) shapeCasts_S10000_S10000x1) broadcasts_S10000x1_S10000x10 : FVec Ideal S10000x10 .f32) (ix2 p j)
      = Spec.rowTop (N := 10000) (C := 10) v0 v2 v5 p := fun j =>
    ((Cert.LibKeepdims.broadcastTo_a1_ab_apply _ broadcasts_S10000x1_S10000x10 p j).trans
      ((Cert.LibKeepdims.shapeCast_a_a1_apply _ shapeCasts_S10000_S10000x1 p 0).trans
        (Cert.LibRowOps.rowMax_apply v 0xFF800000#32 reduces_S10000x10_S10000 (.inl rfl) rfl p))).trans htop
  have hsh : ∀ j : Fin 10, (subf v (broadcastTo S10000x10 (shapeCast S10000x1 (multiReduction .maximumf [1] S10000 v 0xFF800000#32 reduces_S10000x10_S10000 (.inl rfl) rfl) shapeCasts_S10000_S10000x1) broadcasts_S10000x1_S10000x10) : FVec Ideal S10000x10 .f32) (ix2 p j)
      = Spec.shifted (N := 10000) (C := 10) v0 v2 v5 p j := fun j => by
    show v (ix2 p j) - _ = _
    rw [hM j, h8 j]; rfl
  generalize hz : (subf v (broadcastTo S10000x10 (shapeCast S10000x1 (multiReduction .maximumf [1] S10000 v 0xFF800000#32 reduces_S10000x10_S10000 (.inl rfl) rfl) shapeCasts_S10000_S10000x1) broadcasts_S10000x1_S10000x10) : FVec Ideal S10000x10 .f32) = z at hsh
  show z (ix2 p q) - (broadcastTo S10000x10 (log (shapeCast S10000x1 (multiReduction .add [1] S10000 (exp z) 0x00000000#32 reduces_S10000x10_S10000 (.inl rfl) rfl) shapeCasts_S10000_S10000x1)) broadcasts_S10000x1_S10000x10 : FVec Ideal S10000x10 .f32) (ix2 p q) = _
  rw [hsh q]
  refine congrArg _ ?_
  refine (Cert.LibKeepdims.broadcastTo_a1_ab_apply _ broadcasts_S10000x1_S10000x10 p q).trans ?_
  show Ideal.log ((shapeCast S10000x1 (multiReduction .add [1] S10000 (exp z) 0x00000000#32 reduces_S10000x10_S10000 (.inl rfl) rfl) shapeCasts_S10000_S10000x1 : FVec Ideal S10000x1 .f32) (ix2 p (0 : Fin 1))) = _
  refine congrArg Ideal.log ?_
  refine (Cert.LibKeepdims.shapeCast_a_a1_apply _ shapeCasts_S10000_S10000x1 p 0).trans ?_
  refine (Cert.LibKeepdims.rowSum_apply (exp z) reduces_S10000x10_S10000 (.inl rfl) rfl p).trans ?_
  refine Finset.sum_congr rfl fun j _ => ?_
  show Ideal.exp (z (ix2 p j)) = _
  rw [hsh j]

/-! ## Where the blocks sit in their arrays -/

/-- At grid point `t` the two input windows and the result window are at row block `t`, the bias window at its only block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem tlt3 (t : Fin cfg3.N) : t.val < 10 := lt_of_lt_of_eq t.isLt (show cfg3.N = 10 from N_3)

theorem iblk3_0_apply (c : Dev nD) (t : Fin cfg3.N) (p : Fin 10000) (j : Fin 10) :
    (iblk3 V c 0 t : Vec Ideal S10000x10 .f32) (ix2 p j)
      = (V c main_v74 : S100000x10.Idx → Ideal .f32) (ix2 (⟨t.val * 10000 + p.val, by have := tlt3 t; have := p.isLt; omega⟩ : Fin 100000) j) := by
  obtain ⟨e0, e1, -⟩ := idx_facts3 t
  unfold iblk3
  rw [View.read_apply]
  show V c main_v74 _ = V c main_v74 _
  refine congrArg _ (funext fun a => Fin.ext ?_)
  match a with
  | ⟨0, _⟩ => show win3_0.index t 0 * 10000 + 1 * p.val = t.val * 10000 + p.val; rw [e0]; omega
  | ⟨1, _⟩ => show win3_0.index t 1 * 10 + 1 * j.val = j.val; rw [e1]; omega

theorem iblk3_1_apply (c : Dev nD) (t : Fin cfg3.N) (p : Fin 10000) (j : Fin 10) :
    (iblk3 V c 1 t : Vec Ideal S10000x10 .f32) (ix2 p j)
      = (V c main_v50_1 : S100000x10.Idx → Ideal .f32) (ix2 (⟨t.val * 10000 + p.val, by have := tlt3 t; have := p.isLt; omega⟩ : Fin 100000) j) := by
  obtain ⟨-, -, e2, e3, -⟩ := idx_facts3 t
  unfold iblk3
  rw [View.read_apply]
  show V c main_v50_1 _ = V c main_v50_1 _
  refine congrArg _ (funext fun a => Fin.ext ?_)
  match a with
  | ⟨0, _⟩ => show win3_1.index t 0 * 10000 + 1 * p.val = t.val * 10000 + p.val; rw [e2]; omega
  | ⟨1, _⟩ => show win3_1.index t 1 * 10 + 1 * j.val = j.val; rw [e3]; omega

theorem iblk3_2_apply (c : Dev nD) (t : Fin cfg3.N) (j : Fin 10) :
    (iblk3 V c 2 t : Vec Ideal S1x10 .f32) (ix2 (0 : Fin 1) j) = (V c main_v75 : S1x10.Idx → Ideal .f32) (ix2 (0 : Fin 1) j) := by
  obtain ⟨-, -, -, -, e4, e5, -⟩ := idx_facts3 t
  unfold iblk3
  rw [View.read_apply]
  show V c main_v75 _ = V c main_v75 _
  refine congrArg _ (funext fun a => Fin.ext ?_)
  match a with
  | ⟨0, _⟩ => show win3_2.index t 0 * 1 + 1 * 0 = 0; rw [e4]
  | ⟨1, _⟩ => show win3_2.index t 1 * 10 + 1 * j.val = j.val; rw [e5]; omega

/-! ## What each point writes back, and the array after the stage -/

theorem flushed3_3_eq (c : Dev nD) (t : Fin cfg3.N) :
    (dat3 V c).flushed 3 t = ((cfg3.win 3).blk t).view.read (Elt Ideal)
      (Spec.finLsm (N := 100000) (C := 10) (V c main_v74 : FVec Ideal S100000x10 .f32) (V c main_v50_1 : FVec Ideal S100000x10 .f32) (V c main_v75 : FVec Ideal S1x10 .f32) : FVec Ideal S100000x10 .f32) := by
  show (cfg3.win 3).cut (grid3.coords t) ((dat3 V c).after 3 t) = _
  rw [after3_3]
  unfold out3_3
  rw [View.canon_unit_zero hz3]
  simp only [View.ld_unit_zero (S := S10000x10) hz3, View.ld_unit_zero (S := S1x10) hz3]
  obtain ⟨-, -, -, -, -, -, e6, e7⟩ := idx_facts3 t
  funext y
  obtain ⟨p, q, rfl⟩ : ∃ (p : Fin 10000) (q : Fin 10), y = ix2 p q := ⟨y 0, y 1, eq_ix2 y⟩
  refine (pay3_apply _ _ _ p q).trans ?_
  rw [View.read_apply]
  have hemb : ((cfg3.win 3).blk t).view.emb (ix2 p q)
      = (ix2 (⟨t.val * 10000 + p.val, by have := tlt3 t; have := p.isLt; omega⟩ : Fin 100000) q : S100000x10.Idx) := by
    funext a; apply Fin.ext
    match a with
    | ⟨0, _⟩ => show win3_3.index t 0 * 10000 + 1 * p.val = t.val * 10000 + p.val; rw [e6]; omega
    | ⟨1, _⟩ => show win3_3.index t 1 * 10 + 1 * q.val = q.val; rw [e7]; omega
  have hpre : ∀ j : Fin 10, Spec.preAct (N := 10000) (C := 10) (iblk3 V c 0 t : Vec Ideal S10000x10 .f32) (iblk3 V c 1 t : Vec Ideal S10000x10 .f32) (iblk3 V c 2 t : Vec Ideal S1x10 .f32) p j
      = Spec.preAct (N := 100000) (C := 10) (V c main_v74 : FVec Ideal S100000x10 .f32) (V c main_v50_1 : FVec Ideal S100000x10 .f32) (V c main_v75 : FVec Ideal S1x10 .f32) (⟨t.val * 10000 + p.val, by have := tlt3 t; have := p.isLt; omega⟩ : Fin 100000) j := fun j => by
    rw [Spec.preAct_eq, Spec.preAct_eq, iblk3_0_apply V c t p j, iblk3_1_apply V c t p j, iblk3_2_apply V c t j]
  rw [hemb]
  exact ((Spec.lsm_congr hpre q).trans (Spec.finLsm_apply _ _ _ (⟨t.val * 10000 + p.val, by have := tlt3 t; have := p.isLt; omega⟩ : Fin 100000) q).symm).trans rfl

theorem cover3_3_all (i : S100000x10.Idx) : ∃ t : Fin cfg3.N, (cfg3.win 3).flush t = true ∧ i ∈ ((cfg3.win 3).blk t).view.set := by
  have hi0 : (i 0).val < 100000 := (i 0).isLt
  have hi1 : (i 1).val < 10 := (i 1).isLt
  let t : Fin cfg3.N := ⟨(i 0).val / 10000, by rw [show cfg3.N = 10 from N_3]; omega⟩
  obtain ⟨-, -, -, -, -, -, e6, e7⟩ := idx_facts3 t
  refine ⟨t, flush3_3 t, ?_⟩
  show i ∈ ((View.whole main_v76).slice (win3_3.rect t)).set
  rw [View.set_slice_whole, Rect.mem_set_unit]
  intro a
  match a with
  | ⟨0, _⟩ => show win3_3.index t 0 * 10000 ≤ (i 0).val ∧ (i 0).val < win3_3.index t 0 * 10000 + 10000; rw [e6]; show (i 0).val / 10000 * 10000 ≤ (i 0).val ∧ (i 0).val < (i 0).val / 10000 * 10000 + 10000; omega
  | ⟨1, _⟩ => show win3_3.index t 1 * 10 ≤ (i 1).val ∧ (i 1).val < win3_3.index t 1 * 10 + 10; rw [e7]; omega

/-- After the stage the result array is the pointwise stage of the three arrays read. -/
theorem final3_3 (c : Dev nD) : (dat3 V c).arrAt 3 cfg3.N
    = (Spec.finLsm (N := 100000) (C := 10) (V c main_v74 : FVec Ideal S100000x10 .f32) (V c main_v50_1 : FVec Ideal S100000x10 .f32) (V c main_v75 : FVec Ideal S1x10 .f32) : FVec Ideal S100000x10 .f32) :=
  (dat3 V c).arrAt_eq_of_cover 3 _ (fun t _ => flushed3_3_eq V c t) (cover3_3_all)

end Cert.KernelIdeal.Hand

end
-- ==== Proof.KPure.lean ====
/-
  THE IDEALIZED PROGRAM'S BUFFERS BETWEEN ITS STAGES, AS ONE PURE FOLD.

  The program is four stretches of host operations with a tiled stage after each. Starting from the buffers' launch
  contents `V0`, each host stretch acts as the fold of its operations (`StableHlo.after`), and each tiled stage replaces
  its result arrays by the whole-array function it computes (Proof/Spec.lean): the two column groups of a matrix product
  (stage one of each layer), the rectified sum (stage two of layer one), the row-wise log-softmax of the sum (stage two of
  layer two). `U1 … U4` are the buffers through layer one, from the launch contents; `U5 … U8` those through layer two,
  from any contents `V4` the first layer may have left. Nothing here mentions the memory or the tiling.
-/
import proofs.«132475_j59768764891998_2_alg».proof.Proof.Gen.KernelIdeal.Launch
import proofs.«132475_j59768764891998_2_alg».proof.Proof.Spec
import Idealize.ShloMosaic.Lib.StableHlo.Run

noncomputable section

namespace Cert.KernelIdeal.Pure

open Idealize.ShloMosaic Idealize.ShloMosaic.TcCoe Idealize.ShloMosaic.StableHlo Cert.KernelIdeal Cert.KernelIdeal.Gen

/-- The contents of every buffer of the program, at the extended reals. -/
abbrev Val : Type := Valuation τ sig (Elt Ideal)

/-- After the first host stretch: the edge columns, the degrees' reciprocals, the layer-one weights side by side. -/
def U1 (V0 : Val) : Val := StableHlo.after (hostOps0 (F := Ideal)) V0

/-- After stage one of layer one: the two column groups of features times weights. -/
def U2 (V0 : Val) : Val :=
  Function.update (Function.update (U1 V0) main_v18_0
      (Spec.mmCols (N := 100000) (K := 767) (CT := 48) 32 0 (by decide)
        (U1 V0 main_arg0 : FVec Ideal S100000x767 .f32) (U1 V0 main_v17 : FVec Ideal S767x48 .f32) : FVec Ideal S100000x32 .f32))
    main_v18_1
      (Spec.mmCols (N := 100000) (K := 767) (CT := 48) 16 32 (by decide)
        (U1 V0 main_arg0 : FVec Ideal S100000x767 .f32) (U1 V0 main_v17 : FVec Ideal S767x48 .f32) : FVec Ideal S100000x16 .f32)

/-- After the second host stretch: messages gathered, weighted, summed per target node and normalised. -/
def U3 (V0 : Val) : Val := StableHlo.after (hostOps1 (F := Ideal)) (U2 V0)

/-- After stage two of layer one: the hidden features. -/
def U4 (V0 : Val) : Val :=
  Function.update (U3 V0) main_v44
    (Spec.finRelu (N := 100000) (C := 16) (U3 V0 main_v42 : FVec Ideal S100000x16 .f32) (U3 V0 main_v18_1 : FVec Ideal S100000x16 .f32)
      (U3 V0 main_v43 : FVec Ideal S1x16 .f32) : FVec Ideal S100000x16 .f32)

/-- After the third host stretch: the layer-two weights side by side. -/
def U5 (V4 : Val) : Val := StableHlo.after (hostOps2 (F := Ideal)) V4

/-- After stage one of layer two: the two column groups of hidden features times weights. -/
def U6 (V4 : Val) : Val :=
  Function.update (Function.update (U5 V4) main_v50_0
      (Spec.mmCols (N := 100000) (K := 16) (CT := 30) 20 0 (by decide)
        (U5 V4 main_v44 : FVec Ideal S100000x16 .f32) (U5 V4 main_v49 : FVec Ideal S16x30 .f32) : FVec Ideal S100000x20 .f32))
    main_v50_1
      (Spec.mmCols (N := 100000) (K := 16) (CT := 30) 10 20 (by decide)
        (U5 V4 main_v44 : FVec Ideal S100000x16 .f32) (U5 V4 main_v49 : FVec Ideal S16x30 .f32) : FVec Ideal S100000x10 .f32)

/-- After the fourth host stretch. -/
def U7 (V4 : Val) : Val := StableHlo.after (hostOps3 (F := Ideal)) (U6 V4)

/-- After stage two of layer two: the log-probabilities. -/
def U8 (V4 : Val) : Val :=
  Function.update (U7 V4) main_v76
    (Spec.finLsm (N := 100000) (C := 10) (U7 V4 main_v74 : FVec Ideal S100000x10 .f32) (U7 V4 main_v50_1 : FVec Ideal S100000x10 .f32)
      (U7 V4 main_v75 : FVec Ideal S1x10 .f32) : FVec Ideal S100000x10 .f32)

/-! ## What the first host stretch computes from the arguments, as terms

The four arrays both layers share: the source and target node numbers of the edges, the edges' spline coordinate, and
the reciprocal of each node's in-degree (at least one). Later stretches read these buffers; no later operation writes them. -/

/-- The edges' source node numbers: row 0 of the edge array. -/
def srcT (ei : IVec S2x3200000 32) : IVec S3200000 32 :=
  shapeCast S3200000 (extractStridedSlice S1x3200000 ![0, 0] ei slices_S2x3200000_S1x3200000_0_0) shapeCasts_S1x3200000_S3200000

/-- The edges' target node numbers: row 1 of the edge array. -/
def dstT (ei : IVec S2x3200000 32) : IVec S3200000 32 :=
  shapeCast S3200000 (extractStridedSlice S1x3200000 ![1, 0] ei slices_S2x3200000_S1x3200000_1_0) shapeCasts_S1x3200000_S3200000

/-- The edges' spline coordinate as a vector. -/
def uT (ea : FVec Ideal S3200000x1 .f32) : FVec Ideal S3200000 .f32 :=
  shapeCast S3200000 ea shapeCasts_S3200000x1_S3200000

/-- One over the larger of a node's in-degree and one; the in-degree is a one scattered onto zero per incoming edge. -/
def invdT (ei : IVec S2x3200000 32) : FVec Ideal S100000 .f32 :=
  Host.divf (F := Ideal) (broadcastInDim S100000 ![] bcast_S_S100000 (constant (F := Ideal) S_ .f32 0x3F800000#32))
    (maximumf
      (Host.scatterAdd (F := Ideal) scatter_S100000_S3200000x1_S3200000_n_0_0_1
        (broadcastInDim S100000 ![] bcast_S_S100000 (constant (F := Ideal) S_ .f32 0x00000000#32))
        (broadcastInDim S3200000x1 ![0] bcast_S3200000_S3200000x1_0 (dstT ei))
        (broadcastInDim S3200000 ![] bcast_S_S3200000 (constant (F := Ideal) S_ .f32 0x3F800000#32)))
      (broadcastInDim S100000 ![] bcast_S_S100000 (constant (F := Ideal) S_ .f32 0x3F800000#32)))

theorem U1_v1 (V0 : Val) : (U1 V0 main_v1 : IVec S3200000 32) = srcT (V0 main_arg1) := by
  unfold U1 srcT; dsimp only [hostOps0]; after_results; rfl
theorem U1_v3 (V0 : Val) : (U1 V0 main_v3 : IVec S3200000 32) = dstT (V0 main_arg1) := by
  unfold U1 dstT; dsimp only [hostOps0]; after_results; rfl
theorem U1_v4 (V0 : Val) : (U1 V0 main_v4 : FVec Ideal S3200000 .f32) = uT (V0 main_arg2) := by
  unfold U1 uT; dsimp only [hostOps0]; after_results; rfl
theorem U1_v12 (V0 : Val) : (U1 V0 main_v12 : FVec Ideal S100000 .f32) = invdT (V0 main_arg1) := by
  unfold U1 invdT dstT; dsimp only [hostOps0]; after_results; rfl

end Cert.KernelIdeal.Pure

end
-- ==== Proof.KIFold.lean ====
/-
  THE RUN'S BUFFERS ARE THE PURE FOLD'S, at the extended reals. The run leaves, at each boundary, every stage's arrays
  at what its tiling wrote back; the stages' result arrays are the whole-array functions of Proof/Spec.lean
  (Proof/KIClosed0 … 3), so boundary by boundary the buffers are those of Proof/KPure.lean's fold. At the end: the
  log-probabilities and the hidden features are the fold's.
-/
import proofs.«132475_j59768764891998_2_alg».proof.Proof.KIRun
import proofs.«132475_j59768764891998_2_alg».proof.Proof.KIClosed0
import proofs.«132475_j59768764891998_2_alg».proof.Proof.KIClosed1
import proofs.«132475_j59768764891998_2_alg».proof.Proof.KIClosed2
import proofs.«132475_j59768764891998_2_alg».proof.Proof.KIClosed3
import proofs.«132475_j59768764891998_2_alg».proof.Proof.KPure

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem fold1 (c : Dev nD) : W1 m c = Pure.U1 (W0 m c) := rfl

/-- After stage 0 the buffers are the pure fold's: the two result arrays at the product's column groups, the rest as entered. -/
theorem fold2 (c : Dev nD) : W2 m c = Pure.U2 (W0 m c) := by
  have hp : W1 m c = Pure.U1 (W0 m c) := fold1 m c
  funext x
  by_cases h : ∃ w, Proc.devRef .tc (Pipeline.arrRef spec0 w) = x
  · obtain ⟨w, rfl⟩ := h
    rw [W2_arr]
    rcases (by decide : ∀ w : Fin 4, w = 0 ∨ w = 1 ∨ w = 2 ∨ w = 3) w with rfl | rfl | rfl | rfl
    · refine (((dat0 (V1 m) c).arrAt_in 0 rfl _).trans (A_eq0 (V1 m) c 0)).trans ?_
      show W1 m c main_arg0 = _
      unfold Pure.U2
      rw [Function.update_of_ne (StableHlo.devRef_ne_of_ne (by decide)), Function.update_of_ne (StableHlo.devRef_ne_of_ne (by decide)), hp]
    · refine (((dat0 (V1 m) c).arrAt_in 1 rfl _).trans (A_eq0 (V1 m) c 1)).trans ?_
      show W1 m c main_v17 = _
      unfold Pure.U2
      rw [Function.update_of_ne (StableHlo.devRef_ne_of_ne (by decide)), Function.update_of_ne (StableHlo.devRef_ne_of_ne (by decide)), hp]
    · refine (final0_2 (V1 m) c).trans ?_
      show _ = Pure.U2 _ main_v18_0
      unfold Pure.U2
      rw [Function.update_of_ne (StableHlo.devRef_ne_of_ne (by decide)), Function.update_self]
      show Spec.mmCols _ _ _ (W1 m c main_arg0) (W1 m c main_v17) = _
      rw [hp]
    · refine (final0_3 (V1 m) c).trans ?_
      show _ = Pure.U2 _ main_v18_1
      unfold Pure.U2
      rw [Function.update_self]
      show Spec.mmCols _ _ _ (W1 m c main_arg0) (W1 m c main_v17) = _
      rw [hp]
  · have hw : W2 m c x = W1 m c x := by unfold W2 Pipeline.withArrays; rw [dif_neg h]
    rw [hw, hp]
    unfold Pure.U2
    rw [Function.update_of_ne (fun e => h ⟨3, e.symm⟩), Function.update_of_ne (fun e => h ⟨2, e.symm⟩)]

theorem fold3 (c : Dev nD) : W3 m c = Pure.U3 (W0 m c) := by
  show StableHlo.after hostOps1 (W2 m c) = StableHlo.after hostOps1 (Pure.U2 (W0 m c))
  rw [fold2 m c]

/-- After stage 1 the buffers are the pure fold's: the result array at the pointwise stage, the rest as entered. -/
theorem fold4 (c : Dev nD) : W4 m c = Pure.U4 (W0 m c) := by
  have hp : W3 m c = Pure.U3 (W0 m c) := fold3 m c
  funext x
  by_cases h : ∃ w, Proc.devRef .tc (Pipeline.arrRef spec1 w) = x
  · obtain ⟨w, rfl⟩ := h
    rw [W4_arr]
    rcases (by decide : ∀ w : Fin 4, w = 0 ∨ w = 1 ∨ w = 2 ∨ w = 3) w with rfl | rfl | rfl | rfl
    · refine (((dat1 (V3 m) c).arrAt_in 0 rfl _).trans (A_eq1 (V3 m) c 0)).trans ?_
      show W3 m c main_v42 = _
      unfold Pure.U4
      rw [Function.update_of_ne (StableHlo.devRef_ne_of_ne (by decide)), hp]
    · refine (((dat1 (V3 m) c).arrAt_in 1 rfl _).trans (A_eq1 (V3 m) c 1)).trans ?_
      show W3 m c main_v18_1 = _
      unfold Pure.U4
      rw [Function.update_of_ne (StableHlo.devRef_ne_of_ne (by decide)), hp]
    · refine (((dat1 (V3 m) c).arrAt_in 2 rfl _).trans (A_eq1 (V3 m) c 2)).trans ?_
      show W3 m c main_v43 = _
      unfold Pure.U4
      rw [Function.update_of_ne (StableHlo.devRef_ne_of_ne (by decide)), hp]
    · refine (final1_3 (V3 m) c).trans ?_
      show _ = Pure.U4 _ main_v44
      unfold Pure.U4
      rw [Function.update_self]
      show Spec.finRelu (W3 m c main_v42) (W3 m c main_v18_1) (W3 m c main_v43) = _
      rw [hp]
  · have hw : W4 m c x = W3 m c x := by unfold W4 Pipeline.withArrays; rw [dif_neg h]
    rw [hw, hp]
    unfold Pure.U4
    rw [Function.update_of_ne (fun e => h ⟨3, e.symm⟩)]

theorem fold5 (c : Dev nD) : W5 m c = Pure.U5 (Pure.U4 (W0 m c)) := by
  show StableHlo.after hostOps2 (W4 m c) = StableHlo.after hostOps2 (Pure.U4 (W0 m c))
  rw [fold4 m c]

/-- After stage 2 the buffers are the pure fold's: the two result arrays at the product's column groups, the rest as entered. -/
theorem fold6 (c : Dev nD) : W6 m c = Pure.U6 (Pure.U4 (W0 m c)) := by
  have hp : W5 m c = Pure.U5 (Pure.U4 (W0 m c)) := fold5 m c
  funext x
  by_cases h : ∃ w, Proc.devRef .tc (Pipeline.arrRef spec2 w) = x
  · obtain ⟨w, rfl⟩ := h
    rw [W6_arr]
    rcases (by decide : ∀ w : Fin 4, w = 0 ∨ w = 1 ∨ w = 2 ∨ w = 3) w with rfl | rfl | rfl | rfl
    · refine (((dat2 (V5 m) c).arrAt_in 0 rfl _).trans (A_eq2 (V5 m) c 0)).trans ?_
      show W5 m c main_v44 = _
      unfold Pure.U6
      rw [Function.update_of_ne (StableHlo.devRef_ne_of_ne (by decide)), Function.update_of_ne (StableHlo.devRef_ne_of_ne (by decide)), hp]
    · refine (((dat2 (V5 m) c).arrAt_in 1 rfl _).trans (A_eq2 (V5 m) c 1)).trans ?_
      show W5 m c main_v49 = _
      unfold Pure.U6
      rw [Function.update_of_ne (StableHlo.devRef_ne_of_ne (by decide)), Function.update_of_ne (StableHlo.devRef_ne_of_ne (by decide)), hp]
    · refine (final2_2 (V5 m) c).trans ?_
      show _ = Pure.U6 _ main_v50_0
      unfold Pure.U6
      rw [Function.update_of_ne (StableHlo.devRef_ne_of_ne (by decide)), Function.update_self]
      show Spec.mmCols _ _ _ (W5 m c main_v44) (W5 m c main_v49) = _
      rw [hp]
    · refine (final2_3 (V5 m) c).trans ?_
      show _ = Pure.U6 _ main_v50_1
      unfold Pure.U6
      rw [Function.update_self]
      show Spec.mmCols _ _ _ (W5 m c main_v44) (W5 m c main_v49) = _
      rw [hp]
  · have hw : W6 m c x = W5 m c x := by unfold W6 Pipeline.withArrays; rw [dif_neg h]
    rw [hw, hp]
    unfold Pure.U6
    rw [Function.update_of_ne (fun e => h ⟨3, e.symm⟩), Function.update_of_ne (fun e => h ⟨2, e.symm⟩)]

theorem fold7 (c : Dev nD) : W7 m c = Pure.U7 (Pure.U4 (W0 m c)) := by
  show StableHlo.after hostOps3 (W6 m c) = StableHlo.after hostOps3 (Pure.U6 (Pure.U4 (W0 m c)))
  rw [fold6 m c]

/-- After stage 3 the buffers are the pure fold's: the result array at the pointwise stage, the rest as entered. -/
theorem fold8 (c : Dev nD) : W8 m c = Pure.U8 (Pure.U4 (W0 m c)) := by
  have hp : W7 m c = Pure.U7 (Pure.U4 (W0 m c)) := fold7 m c
  funext x
  by_cases h : ∃ w, Proc.devRef .tc (Pipeline.arrRef spec3 w) = x
  · obtain ⟨w, rfl⟩ := h
    rw [W8_arr]
    rcases (by decide : ∀ w : Fin 4, w = 0 ∨ w = 1 ∨ w = 2 ∨ w = 3) w with rfl | rfl | rfl | rfl
    · refine (((dat3 (V7 m) c).arrAt_in 0 rfl _).trans (A_eq3 (V7 m) c 0)).trans ?_
      show W7 m c main_v74 = _
      unfold Pure.U8
      rw [Function.update_of_ne (StableHlo.devRef_ne_of_ne (by decide)), hp]
    · refine (((dat3 (V7 m) c).arrAt_in 1 rfl _).trans (A_eq3 (V7 m) c 1)).trans ?_
      show W7 m c main_v50_1 = _
      unfold Pure.U8
      rw [Function.update_of_ne (StableHlo.devRef_ne_of_ne (by decide)), hp]
    · refine (((dat3 (V7 m) c).arrAt_in 2 rfl _).trans (A_eq3 (V7 m) c 2)).trans ?_
      show W7 m c main_v75 = _
      unfold Pure.U8
      rw [Function.update_of_ne (StableHlo.devRef_ne_of_ne (by decide)), hp]
    · refine (final3_3 (V7 m) c).trans ?_
      show _ = Pure.U8 _ main_v76
      unfold Pure.U8
      rw [Function.update_self]
      show Spec.finLsm (W7 m c main_v74) (W7 m c main_v50_1) (W7 m c main_v75) = _
      rw [hp]
  · have hw : W8 m c x = W7 m c x := by unfold W8 Pipeline.withArrays; rw [dif_neg h]
    rw [hw, hp]
    unfold Pure.U8
    rw [Function.update_of_ne (fun e => h ⟨3, e.symm⟩)]

end Cert.KernelIdeal.Hand

end
-- ==== Proof.RefFold.lean ====
/-
  THE REFERENCE PROGRAM'S BUFFERS AS A FOLD IN TWO PARTS.

  The reference program is one straight line of 138 host operations; its buffers after the line are the fold of the
  operations over the launch contents. The first 63 operations are layer one and end with the hidden features
  (`main_v51`); the remaining 75 are layer two and end with the log-probabilities (`main_v103`). Folding a list that is two
  lists joined is folding the first and then the second, so the final buffers are layer two's fold (`R2`) over layer
  one's (`R1`): layer two can be read with the hidden features as ONE array, not as their whole history.
-/
import proofs.«132475_j59768764891998_2_alg».proof.Proof.RefRun
import Idealize.ShloMosaic.PureOps.Ideal

noncomputable section

namespace Cert.ReferenceIdeal.Fold

open Idealize.ShloMosaic Idealize.ShloMosaic.TcCoe Idealize.ShloMosaic.StableHlo Idealize.SL.Sem
open Cert.ReferenceIdeal Cert.ReferenceIdeal.Gen Cert.ReferenceIdeal.Value

/-- The contents of every buffer of the reference program, at the extended reals. -/
abbrev RVal : Type := Valuation τ sig (Elt Ideal)

/-- Folding two joined lines of operations is folding the first, then the second. -/
theorem after_append (l₁ l₂ : List (HloOp τ sig (Elt Ideal))) (V : RVal) : after (l₁ ++ l₂) V = after l₂ (after l₁ V) := by
  induction l₁ generalizing V with
  | nil => rfl
  | cons op l ih => simp only [List.cons_append, after_cons, ih]

/-- Layer one: the first 63 operations, through the rectifier. -/
abbrev opsL1 : List (HloOp τ sig (Elt Ideal)) := (ops (F := Ideal)).take 63
/-- Layer two: the remaining 75 operations. -/
abbrev opsL2 : List (HloOp τ sig (Elt Ideal)) := (ops (F := Ideal)).drop 63

/-- The buffers after layer one. -/
def R1 (V0 : RVal) : RVal := after opsL1 V0
/-- The buffers after layer two, from any contents layer one may have left. -/
def R2 (V1 : RVal) : RVal := after opsL2 V1

theorem after_ops (V0 : RVal) : after (ops (F := Ideal)) V0 = R2 (R1 V0) := by
  unfold R1 R2
  rw [← after_append, List.take_append_drop]

variable (m : (ℓ : Loc nD τ sig) → Buf (Elt Ideal) ℓ) (ρ : Dev nD → PrngReg)

/-- Every weakly fair execution of the reference program terminates, nothing faulting, and in every final state each
    buffer of each device holds layer two's fold over layer one's fold of the launch contents. -/
theorem run_fold : θ_run defs (onTc (τ := τ) (main (F := Ideal))) ⟨m, fun _ => 0, ρ⟩ fun r =>
      ∀ (d : Dev nD) (b : Ref sig .tc), r.2.mem ((d.tc : Thread nD τ).loc b) = R2 (R1 (launchContents m d)) (Proc.devRef .tc b) :=
  (θ_run defs _ _).mono (fun _ h d b => (h d b).trans (congrFun (after_ops (launchContents m d)) _))
    (run_seq scopedRefs_eq scopedSems_eq defs main (fun _ => ops) main_eq (fun _ => ops_sub) m ρ)

end Cert.ReferenceIdeal.Fold

end
-- ==== Proof.Glue.lean ====
/-
  BOOKKEEPING BETWEEN THE FOLDS AND THE ARGUMENTS. No operation of either program writes an argument array, and in the
  kernel program nothing after the first host stretch writes the four arrays that stretch derives from the edges (source
  and target node numbers, spline coordinate, reciprocal degrees): so after layer one the kernel's buffers still hold the
  arguments and those four arrays as terms of the arguments, and the reference's folds hold the arguments throughout.
  Layer two of the reference does not write the hidden features.
-/
import proofs.«132475_j59768764891998_2_alg».proof.Proof.KPure
import proofs.«132475_j59768764891998_2_alg».proof.Proof.RefFold
import proofs.«132475_j59768764891998_2_alg».proof.Proof.Gen.KernelIdeal.Regions

set_option maxRecDepth 16384

noncomputable section

namespace Cert.KernelIdeal.Pure

open Idealize.ShloMosaic Idealize.ShloMosaic.TcCoe Idealize.ShloMosaic.StableHlo Cert.KernelIdeal Cert.KernelIdeal.Gen

/-- A buffer the first host stretch does not write keeps its launch contents through it. -/
theorem U1_of (V0 : Val) (r : Ref sig .tc) (h : r ∉ hostOps0_W) : U1 V0 r = V0 r :=
  StableHlo.after_of_writes_sub hostOps0 _ hostOps0_writes h

/-- A buffer that neither the second host stretch nor a layer-one stage writes is, after layer one, what the first host
    stretch left. -/
theorem U4_of_U1 (V0 : Val) (r : Ref sig .tc) (h1 : r ∉ hostOps1_W) (ha : r ≠ main_v18_0) (hb : r ≠ main_v18_1)
    (hc : r ≠ main_v44) : U4 V0 r = U1 V0 r := by
  unfold U4
  rw [Function.update_of_ne (StableHlo.devRef_ne_of_ne hc)]
  unfold U3
  rw [StableHlo.after_of_writes_sub hostOps1 _ hostOps1_writes h1]
  unfold U2
  rw [Function.update_of_ne (StableHlo.devRef_ne_of_ne hb), Function.update_of_ne (StableHlo.devRef_ne_of_ne ha)]

theorem U4_arg1 (V0 : Val) : U4 V0 main_arg1 = V0 main_arg1 :=
  (U4_of_U1 V0 main_arg1 (by decide) (by decide) (by decide) (by decide)).trans (U1_of V0 main_arg1 (by decide))
theorem U4_arg2 (V0 : Val) : U4 V0 main_arg2 = V0 main_arg2 :=
  (U4_of_U1 V0 main_arg2 (by decide) (by decide) (by decide) (by decide)).trans (U1_of V0 main_arg2 (by decide))
theorem U4_arg6 (V0 : Val) : U4 V0 main_arg6 = V0 main_arg6 :=
  (U4_of_U1 V0 main_arg6 (by decide) (by decide) (by decide) (by decide)).trans (U1_of V0 main_arg6 (by decide))
theorem U4_arg7 (V0 : Val) : U4 V0 main_arg7 = V0 main_arg7 :=
  (U4_of_U1 V0 main_arg7 (by decide) (by decide) (by decide) (by decide)).trans (U1_of V0 main_arg7 (by decide))
theorem U4_arg8 (V0 : Val) : U4 V0 main_arg8 = V0 main_arg8 :=
  (U4_of_U1 V0 main_arg8 (by decide) (by decide) (by decide) (by decide)).trans (U1_of V0 main_arg8 (by decide))

/-- After layer one the source node numbers are still the first row of the edge array, -/
theorem U4_v1 (V0 : Val) : (U4 V0 main_v1 : IVec S3200000 32) = srcT (U4 V0 main_arg1) := by
  rw [U4_arg1]; exact (U4_of_U1 V0 main_v1 (by decide) (by decide) (by decide) (by decide)).trans (U1_v1 V0)
/-- the target node numbers its second row, -/
theorem U4_v3 (V0 : Val) : (U4 V0 main_v3 : IVec S3200000 32) = dstT (U4 V0 main_arg1) := by
  rw [U4_arg1]; exact (U4_of_U1 V0 main_v3 (by decide) (by decide) (by decide) (by decide)).trans (U1_v3 V0)
/-- the spline coordinate the edge attribute as a vector, -/
theorem U4_v4 (V0 : Val) : (U4 V0 main_v4 : FVec Ideal S3200000 .f32) = uT (U4 V0 main_arg2) := by
  rw [U4_arg2]; exact (U4_of_U1 V0 main_v4 (by decide) (by decide) (by decide) (by decide)).trans (U1_v4 V0)
/-- and the reciprocal degrees what the first stretch computed from the edge array. -/
theorem U4_v12 (V0 : Val) : (U4 V0 main_v12 : FVec Ideal S100000 .f32) = invdT (U4 V0 main_arg1) := by
  rw [U4_arg1]; exact (U4_of_U1 V0 main_v12 (by decide) (by decide) (by decide) (by decide)).trans (U1_v12 V0)

/-- Layer two does not write the hidden features. -/
theorem U8_v44 (V4 : Val) : U8 V4 main_v44 = V4 main_v44 := by
  unfold U8
  rw [Function.update_of_ne (StableHlo.devRef_ne_of_ne (show main_v44 ≠ main_v76 by decide))]
  unfold U7
  rw [StableHlo.after_of_writes_sub hostOps3 _ hostOps3_writes (show main_v44 ∉ hostOps3_W by decide)]
  unfold U6
  rw [Function.update_of_ne (StableHlo.devRef_ne_of_ne (show main_v44 ≠ main_v50_1 by decide)),
    Function.update_of_ne (StableHlo.devRef_ne_of_ne (show main_v44 ≠ main_v50_0 by decide))]
  unfold U5
  exact StableHlo.after_of_writes_sub hostOps2 _ hostOps2_writes (show main_v44 ∉ hostOps2_W by decide)

end Cert.KernelIdeal.Pure

namespace Cert.ReferenceIdeal.Fold

open Idealize.ShloMosaic Idealize.ShloMosaic.TcCoe Idealize.ShloMosaic.StableHlo Idealize.SL.Sem
open Cert.ReferenceIdeal Cert.ReferenceIdeal.Gen Cert.ReferenceIdeal.Value

theorem R1_arg0 (V : RVal) : R1 V main_arg0 = V main_arg0 := by
  unfold R1; simp only [opsL1, ops, List.take_succ_cons, List.take_zero]; after_results_simp <;> rfl
theorem R2_arg0 (V : RVal) : R2 V main_arg0 = V main_arg0 := by
  unfold R2; simp only [opsL2, ops, List.drop_succ_cons, List.drop_zero]; after_results_simp <;> rfl
theorem R1_arg1 (V : RVal) : R1 V main_arg1 = V main_arg1 := by
  unfold R1; simp only [opsL1, ops, List.take_succ_cons, List.take_zero]; after_results_simp <;> rfl
theorem R2_arg1 (V : RVal) : R2 V main_arg1 = V main_arg1 := by
  unfold R2; simp only [opsL2, ops, List.drop_succ_cons, List.drop_zero]; after_results_simp <;> rfl
theorem R1_arg2 (V : RVal) : R1 V main_arg2 = V main_arg2 := by
  unfold R1; simp only [opsL1, ops, List.take_succ_cons, List.take_zero]; after_results_simp <;> rfl
theorem R2_arg2 (V : RVal) : R2 V main_arg2 = V main_arg2 := by
  unfold R2; simp only [opsL2, ops, List.drop_succ_cons, List.drop_zero]; after_results_simp <;> rfl
theorem R1_arg3 (V : RVal) : R1 V main_arg3 = V main_arg3 := by
  unfold R1; simp only [opsL1, ops, List.take_succ_cons, List.take_zero]; after_results_simp <;> rfl
theorem R2_arg3 (V : RVal) : R2 V main_arg3 = V main_arg3 := by
  unfold R2; simp only [opsL2, ops, List.drop_succ_cons, List.drop_zero]; after_results_simp <;> rfl
theorem R1_arg4 (V : RVal) : R1 V main_arg4 = V main_arg4 := by
  unfold R1; simp only [opsL1, ops, List.take_succ_cons, List.take_zero]; after_results_simp <;> rfl
theorem R2_arg4 (V : RVal) : R2 V main_arg4 = V main_arg4 := by
  unfold R2; simp only [opsL2, ops, List.drop_succ_cons, List.drop_zero]; after_results_simp <;> rfl
theorem R1_arg5 (V : RVal) : R1 V main_arg5 = V main_arg5 := by
  unfold R1; simp only [opsL1, ops, List.take_succ_cons, List.take_zero]; after_results_simp <;> rfl
theorem R2_arg5 (V : RVal) : R2 V main_arg5 = V main_arg5 := by
  unfold R2; simp only [opsL2, ops, List.drop_succ_cons, List.drop_zero]; after_results_simp <;> rfl
theorem R1_arg6 (V : RVal) : R1 V main_arg6 = V main_arg6 := by
  unfold R1; simp only [opsL1, ops, List.take_succ_cons, List.take_zero]; after_results_simp <;> rfl
theorem R2_arg6 (V : RVal) : R2 V main_arg6 = V main_arg6 := by
  unfold R2; simp only [opsL2, ops, List.drop_succ_cons, List.drop_zero]; after_results_simp <;> rfl
theorem R1_arg7 (V : RVal) : R1 V main_arg7 = V main_arg7 := by
  unfold R1; simp only [opsL1, ops, List.take_succ_cons, List.take_zero]; after_results_simp <;> rfl
theorem R2_arg7 (V : RVal) : R2 V main_arg7 = V main_arg7 := by
  unfold R2; simp only [opsL2, ops, List.drop_succ_cons, List.drop_zero]; after_results_simp <;> rfl
theorem R1_arg8 (V : RVal) : R1 V main_arg8 = V main_arg8 := by
  unfold R1; simp only [opsL1, ops, List.take_succ_cons, List.take_zero]; after_results_simp <;> rfl
theorem R2_arg8 (V : RVal) : R2 V main_arg8 = V main_arg8 := by
  unfold R2; simp only [opsL2, ops, List.drop_succ_cons, List.drop_zero]; after_results_simp <;> rfl
/-- Layer two does not write the hidden features. -/
theorem R2_v51 (V : RVal) : R2 V main_v51 = V main_v51 := by
  unfold R2; simp only [opsL2, ops, List.drop_succ_cons, List.drop_zero]; after_results_simp <;> rfl

end Cert.ReferenceIdeal.Fold

end
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.BridgeL1.lean ====
/-
  LAYER ONE OF THE TWO PROGRAMS IS THE SAME FUNCTION OF THE SIX ARRAYS IT READS.

  Each layer of the network is  out(i, c) = (Σ over the edges e into node i of ((1 − u e) · h₀(src e, c) + u e · h₁(src e, c)))
  · (1 / max(deg i, 1)) + (x · root)(i, c) + b(c),  with h₀ = x · W₀ and h₁ = x · W₁; layer one ends in max(·, 0).
  One program forms x · [W₀ | W₁ | root] as a single product with the three matrices laid side by side, gathers rows of
  the 32-column table [h₀ | h₁] and cuts them in two, and multiplies the neighbourhood sum by 1 / max(deg, 1); the other
  forms the three products separately, gathers rows of the two 16-column tables, and divides by max(deg, 1). On the
  extended reals the two are equal with no finiteness assumption:
    • a column of the joined matrix is a column of one piece, so a column group of the joint product is one of the
      three products, entry by entry, as the same sum of the same terms;
    • a row gathered from the wide table and then cut is the row gathered from the narrow table, through the same index
      column, so the two message arrays are equal and so are their sums per target node;
    • max(d, 1) ≥ 1 is never zero, so s · (1 / max(d, 1)) = s / max(d, 1);
    • the bias reaches entry (p, q) as b(q) either way, and the zero of the rectifier is the same word.
-/
import proofs.«132475_j59768764891998_2_alg».proof.Proof.KPure
import proofs.«132475_j59768764891998_2_alg».proof.Proof.RefFold
import proofs.«132475_j59768764891998_2_alg».proof.Proof.LibAggRows
import proofs.«132475_j59768764891998_2_alg».proof.Proof.LibDotsNT
import Idealize.ShloMosaic.Lib.ValueLayout
import Idealize.ShloMosaic.Lib.IdealHost

noncomputable section

open scoped BigOperators

namespace Cert.Bridge.L1

open Idealize.ShloMosaic Idealize.ShloMosaic.TcCoe Idealize.ShloMosaic.StableHlo Idealize.ShloMosaic.ValueIdx

/-! ## Spread arrays read at an entry -/

section Spread
variable {α : Type}

/-- A scalar spread over any shape reads the scalar everywhere. -/
theorem bcast_scalar_apply {s : Shape} (h : (⟨0, ![]⟩ : Shape).BroadcastsInDim s (![] : Fin 0 → Fin s.rank))
    (v : (⟨0, ![]⟩ : Shape).Idx → α) (j : s.Idx) : broadcastInDim s ![] h v j = v ix0 :=
  broadcastInDim_apply ![] h v j ix0 fun a => a.elim0

/-- A vector laid as a column reads, at `(p, u)`, the vector at `p`. -/
theorem bcast_vec_col_apply {N : Nat} (h : (⟨1, ![N]⟩ : Shape).BroadcastsInDim ⟨2, ![N, 1]⟩ (![0] : Fin 1 → Fin 2))
    (v : (⟨1, ![N]⟩ : Shape).Idx → α) (p : Fin N) (u : Fin 1) :
    broadcastInDim ⟨2, ![N, 1]⟩ ![0] h v (ix2 p u) = v (ix1 p) :=
  broadcastInDim_apply ![0] h v (ix2 p u) (ix1 p) fun a => by
    match a with
    | ⟨0, _⟩ =>
      show p.val = if N = 1 then 0 else p.val
      split
      · have := p.isLt; omega
      · rfl

/-- A column spread over the columns reads, at `(p, q)`, the column at `p`. -/
theorem bcast_col_apply {N C : Nat} (h : (⟨2, ![N, 1]⟩ : Shape).BroadcastsInDim ⟨2, ![N, C]⟩ (![0, 1] : Fin 2 → Fin 2))
    (v : (⟨2, ![N, 1]⟩ : Shape).Idx → α) (p : Fin N) (q : Fin C) :
    broadcastInDim ⟨2, ![N, C]⟩ ![0, 1] h v (ix2 p q) = v (ix2 p (0 : Fin 1)) :=
  broadcastInDim_apply ![0, 1] h v (ix2 p q) (ix2 p (0 : Fin 1)) fun a => by
    match a with
    | ⟨0, _⟩ =>
      show p.val = if N = 1 then 0 else p.val
      split
      · have := p.isLt; omega
      · rfl
    | ⟨1, _⟩ => rfl

/-- A vector laid as a row reads, at `(u, q)`, the vector at `q`. -/
theorem bcast_vec_row_apply {C : Nat} (h : (⟨1, ![C]⟩ : Shape).BroadcastsInDim ⟨2, ![1, C]⟩ (![1] : Fin 1 → Fin 2))
    (v : (⟨1, ![C]⟩ : Shape).Idx → α) (u : Fin 1) (q : Fin C) :
    broadcastInDim ⟨2, ![1, C]⟩ ![1] h v (ix2 u q) = v (ix1 q) :=
  broadcastInDim_apply ![1] h v (ix2 u q) (ix1 q) fun a => by
    match a with
    | ⟨0, _⟩ =>
      show q.val = if C = 1 then 0 else q.val
      split
      · have := q.isLt; omega
      · rfl

/-- A row spread over the rows reads, at `(p, q)`, the row at `q`. -/
theorem bcast_row_apply {N C : Nat} (h : (⟨2, ![1, C]⟩ : Shape).BroadcastsInDim ⟨2, ![N, C]⟩ (![0, 1] : Fin 2 → Fin 2))
    (v : (⟨2, ![1, C]⟩ : Shape).Idx → α) (p : Fin N) (q : Fin C) :
    broadcastInDim ⟨2, ![N, C]⟩ ![0, 1] h v (ix2 p q) = v (ix2 (0 : Fin 1) q) :=
  broadcastInDim_apply ![0, 1] h v (ix2 p q) (ix2 (0 : Fin 1) q) fun a => by
    match a with
    | ⟨0, _⟩ => rfl
    | ⟨1, _⟩ =>
      show q.val = if C = 1 then 0 else q.val
      split
      · have := q.isLt; omega
      · rfl

end Spread

/-! ## Three matrices side by side -/

section Cols3
variable {α : Type} {K : Nat}

/-- Three `[K, 16]` matrices joined along the columns into a `[K, 48]` matrix: column `c` of the joined matrix is
    column `c mod 16` of piece `c div 16`. -/
theorem cols3 (a b c : (⟨2, ![K, 16]⟩ : Shape).Idx → α)
    (h : Shape.Concatenates [(⟨2, ![K, 16]⟩ : Shape), ⟨2, ![K, 16]⟩, ⟨2, ![K, 16]⟩] ⟨2, ![K, 48]⟩ 1)
    (k : Fin K) (col : Fin 48) (q : Fin 16) :
    (col.val = q.val →
      concatenate ⟨2, ![K, 48]⟩ 1 [⟨⟨2, ![K, 16]⟩, a⟩, ⟨⟨2, ![K, 16]⟩, b⟩, ⟨⟨2, ![K, 16]⟩, c⟩] h (ix2 k col) = a (ix2 k q))
    ∧ (col.val = 16 + q.val →
      concatenate ⟨2, ![K, 48]⟩ 1 [⟨⟨2, ![K, 16]⟩, a⟩, ⟨⟨2, ![K, 16]⟩, b⟩, ⟨⟨2, ![K, 16]⟩, c⟩] h (ix2 k col) = b (ix2 k q))
    ∧ (col.val = 32 + q.val →
      concatenate ⟨2, ![K, 48]⟩ 1 [⟨⟨2, ![K, 16]⟩, a⟩, ⟨⟨2, ![K, 16]⟩, b⟩, ⟨⟨2, ![K, 16]⟩, c⟩] h (ix2 k col) = c (ix2 k q)) := by
  have hi : ∀ d : Fin 2, d.cast (rfl : (2 : Nat) = 2) ≠ (1 : Fin 2) → ((ix2 k q) d).val = ((ix2 k col) (d.cast rfl)).val := fun d hd => by
    match d with
    | ⟨0, _⟩ => rfl
    | ⟨1, _⟩ => exact absurd rfl hd
  refine ⟨fun hc => ?_, fun hc => ?_, fun hc => ?_⟩
  · exact concatenate_apply_piece (t := ⟨2, ![K, 48]⟩) 1 [⟨⟨2, ![K, 16]⟩, a⟩, ⟨⟨2, ![K, 16]⟩, b⟩, ⟨⟨2, ![K, 16]⟩, c⟩] h (ix2 k col) 0 (by show 0 < 3; omega) ⟨2, ![K, 16]⟩ a rfl rfl 0 rfl (ix2 k q) hi
      (by show 0 + q.val = col.val; omega)
  · exact concatenate_apply_piece (t := ⟨2, ![K, 48]⟩) 1 [⟨⟨2, ![K, 16]⟩, a⟩, ⟨⟨2, ![K, 16]⟩, b⟩, ⟨⟨2, ![K, 16]⟩, c⟩] h (ix2 k col) 1 (by show 1 < 3; omega) ⟨2, ![K, 16]⟩ b rfl rfl 16 rfl (ix2 k q) hi
      (by show 16 + q.val = col.val; omega)
  · exact concatenate_apply_piece (t := ⟨2, ![K, 48]⟩) 1 [⟨⟨2, ![K, 16]⟩, a⟩, ⟨⟨2, ![K, 16]⟩, b⟩, ⟨⟨2, ![K, 16]⟩, c⟩] h (ix2 k col) 2 (by show 2 < 3; omega) ⟨2, ![K, 16]⟩ c rfl rfl 32 rfl (ix2 k q) hi
      (by show 32 + q.val = col.val; omega)

end Cols3

/-! ## A column group of a product with the joined matrix is the product with one piece -/

section Tables
variable {N K CT : Nat}

/-- Columns `off … off + C − 1` of `X · W`, read at column `c = off' + q`, are column `q` of `X · W'` when
    column `off + off' + q` of `W` is column `q` of `W'`. -/
theorem mmCols_eq_dot (C off : Nat) (h : off + C ≤ CT) (X : FVec Ideal ⟨2, ![N, K]⟩ .f32) (W : FVec Ideal ⟨2, ![K, CT]⟩ .f32)
    (off' : Nat) (W' : FVec Ideal ⟨2, ![K, 16]⟩ .f32)
    (hW : ∀ (k : Fin K) (c : Fin CT) (q : Fin 16), c.val = off + off' + q.val → W (ix2 k c) = W' (ix2 k q))
    (d : DotDims ⟨2, ![N, K]⟩ ⟨2, ![K, 16]⟩ ⟨2, ![N, 16]⟩)
    (hlc : d.lhsContracting = [1]) (hrc : d.rhsContracting = [0]) (hln : d.lhsNonContracting = [0])
    (hrn : d.rhsNonContracting = [1]) (hlb : d.lhsBatch = []) (hrb : d.rhsBatch = [])
    (p : Fin N) (c : Fin C) (q : Fin 16) (hc : c.val = off' + q.val) :
    Spec.mmCols C off h X W (ix2 p c) = Host.dotGeneral (F := Ideal) d none X W' (ix2 p q) := by
  rw [Spec.mmCols_apply]
  refine Eq.trans ?_ (Cert.LibDotsNT.plain_dotGeneral_apply d hlc hrc hln hrn hlb hrb none .single X W' p q).symm
  exact Finset.sum_congr rfl fun k _ => by rw [hW k _ q (by show off + c.val = off + off' + q.val; omega)]

end Tables

/-! ## The gathered wide table cut in two is the two gathered tables -/

section Gathered
open Cert.LibAggRows
variable {N E : Nat}

/-- Rows of a 32-column table gathered through an index column and cut into columns 0–15 and 16–31 are the rows
    of the two 16-column tables the wide table's column groups are, gathered through the same index column. -/
theorem gather_cut (hN : 0 < N) (T : FVec Ideal ⟨2, ![N, 32]⟩ .f32) (T0 T1 : FVec Ideal ⟨2, ![N, 16]⟩ .f32)
    (hT0 : ∀ (p : Fin N) (c : Fin 32) (q : Fin 16), c.val = q.val → T (ix2 p c) = T0 (ix2 p q))
    (hT1 : ∀ (p : Fin N) (c : Fin 32) (q : Fin 16), c.val = 16 + q.val → T (ix2 p c) = T1 (ix2 p q))
    (idx : IVec ⟨2, ![E, 1]⟩ 32)
    (g32 : GatherDims ⟨2, ![N, 32]⟩ ⟨2, ![E, 1]⟩ ⟨2, ![E, 32]⟩)
    (wf32 : GatherDims.WF ⟨2, ![N, 32]⟩ ⟨2, ![E, 1]⟩ ⟨2, ![E, 32]⟩ [1] [0] [] [0] [] 1 ![1, 32])
    (hg32 : g32 = rowGatherDims N E 32 wf32)
    (g16 : GatherDims ⟨2, ![N, 16]⟩ ⟨2, ![E, 1]⟩ ⟨2, ![E, 16]⟩)
    (wf16 : GatherDims.WF ⟨2, ![N, 16]⟩ ⟨2, ![E, 1]⟩ ⟨2, ![E, 16]⟩ [1] [0] [] [0] [] 1 ![1, 16])
    (hg16 : g16 = rowGatherDims N E 16 wf16)
    (hs0 : (⟨2, ![E, 32]⟩ : Shape).Slices ![0, 0] ⟨2, ![E, 16]⟩)
    (hs16 : (⟨2, ![E, 32]⟩ : Shape).Slices ![0, 16] ⟨2, ![E, 16]⟩) :
    extractStridedSlice ⟨2, ![E, 16]⟩ ![0, 0] (Host.gather g32 T idx) hs0 = Host.gather g16 T0 idx
    ∧ extractStridedSlice ⟨2, ![E, 16]⟩ ![0, 16] (Host.gather g32 T idx) hs16 = Host.gather g16 T1 idx := by
  subst hg32 hg16
  constructor
  · funext j
    obtain ⟨e, q, rfl⟩ : ∃ (e : Fin E) (q : Fin 16), j = ix2 e q := ⟨j 0, j 1, eq_ix2 j⟩
    refine (slice2_axis1_apply 0 _ hs0 e q ⟨q.val, by have := q.isLt; omega⟩ (by simp)).trans ?_
    rw [rowGather_apply hN wf32, rowGather_apply hN wf16]
    exact hT0 _ _ q rfl
  · funext j
    obtain ⟨e, q, rfl⟩ : ∃ (e : Fin E) (q : Fin 16), j = ix2 e q := ⟨j 0, j 1, eq_ix2 j⟩
    refine (slice2_axis1_apply 16 _ hs16 e q ⟨16 + q.val, by have := q.isLt; omega⟩ rfl).trans ?_
    rw [rowGather_apply hN wf32, rowGather_apply hN wf16]
    exact hT1 _ _ q rfl

end Gathered

/-! ## Dividing by a number at least one -/

/-- The host's quotient read at an index is the extended reals' division of the entries. -/
theorem hostDivf_apply {s : Shape} (a b : FVec Ideal s .f32) (i : s.Idx) :
    Host.divf (F := Ideal) a b i = Ideal.div (a i) (b i) := rfl

/-- A number at least one is not zero, so dividing by it is multiplying by one divided by it. -/
theorem mul_div_one_max (s d : EReal) : s * Ideal.div 1 (max d 1) = Ideal.div s (max d 1) := by
  have hm : max d 1 ≠ 0 := (lt_of_lt_of_le zero_lt_one (le_max_right d 1)).ne'
  unfold Ideal.div
  rw [if_neg hm, if_neg hm, one_mul]

/-! ## The two programs' layer one as functions of the six arrays they read -/

section Programs

open Cert.KernelIdeal Cert.KernelIdeal.Gen Cert.KernelIdeal.Pure

/-- The first spline weight matrix. -/
def w0 (w : FVec Ideal S2x767x16 .f32) : FVec Ideal S767x16 .f32 :=
  shapeCast S767x16 (extractStridedSlice S1x767x16 ![0, 0, 0] w slices_S2x767x16_S1x767x16_0_0_0) shapeCasts_S1x767x16_S767x16
/-- The second spline weight matrix. -/
def w1 (w : FVec Ideal S2x767x16 .f32) : FVec Ideal S767x16 .f32 :=
  shapeCast S767x16 (extractStridedSlice S1x767x16 ![1, 0, 0] w slices_S2x767x16_S1x767x16_1_0_0) shapeCasts_S1x767x16_S767x16

/-- Layer one's three weight matrices laid side by side: the two spline weights, then the root weight. -/
def w48 (w : FVec Ideal S2x767x16 .f32) (root : FVec Ideal S767x16 .f32) : FVec Ideal S767x48 .f32 :=
  concatenate S767x48 1 [⟨S767x16, w0 w⟩, ⟨S767x16, w1 w⟩, ⟨S767x16, root⟩] concatenates_S767x16_S767x16_S767x16_S767x48_d1

/-- The gather's index column: the edges' source node numbers `s`, a negative one moved up by the number of nodes. -/
def srcCol (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The scatter's index column: the edges' target node numbers `d`. -/
def dstCol (d : IVec S3200000 32) : IVec S3200000x1 32 :=
  broadcastInDim S3200000x1 ![0] bcast_S3200000_S3200000x1_0 d

/-- One minus the spline coordinate `u`, spread over the sixteen columns. -/
def coefA (u : FVec Ideal S3200000 .f32) : FVec Ideal S3200000x16 .f32 :=
  broadcastInDim S3200000x16 ![0, 1] bcast_S3200000x1_S3200000x16_0_1
    (broadcastInDim S3200000x1 ![0] bcast_S3200000_S3200000x1_0
      (subf (broadcastInDim S3200000 ![] bcast_S_S3200000 (constant (F := Ideal) S_ .f32 0x3F800000#32)) u))

/-- The spline coordinate `u`, spread over the sixteen columns. -/
def coefB (u : FVec Ideal S3200000 .f32) : FVec Ideal S3200000x16 .f32 :=
  broadcastInDim S3200000x16 ![0, 1] bcast_S3200000x1_S3200000x16_0_1
    (broadcastInDim S3200000x1 ![0] bcast_S3200000_S3200000x1_0 u)

/-- The zero array the messages are summed onto. -/
def zeros16 : FVec Ideal S100000x16 .f32 :=
  broadcastInDim S100000x16 ![] bcast_S_S100000x16 (constant (F := Ideal) S_ .f32 0x00000000#32)

/-- A one per node. -/
def ones : FVec Ideal S100000 .f32 :=
  broadcastInDim S100000 ![] bcast_S_S100000 (constant (F := Ideal) S_ .f32 0x3F800000#32)

/-- Each node's in-degree: a one summed onto zero per incoming edge, the edges' target node numbers `d`. -/
def deg (d : IVec S3200000 32) : FVec Ideal S100000 .f32 :=
  Host.scatterAdd (F := Ideal) scatter_S100000_S3200000x1_S3200000_n_0_0_1
    (broadcastInDim S100000 ![] bcast_S_S100000 (constant (F := Ideal) S_ .f32 0x00000000#32))
    (dstCol d)
    (broadcastInDim S3200000 ![] bcast_S_S3200000 (constant (F := Ideal) S_ .f32 0x3F800000#32))

/-- A per-node vector spread over the sixteen columns. -/
def perNode (v : FVec Ideal S100000 .f32) : FVec Ideal S100000x16 .f32 :=
  broadcastInDim S100000x16 ![0, 1] bcast_S100000x1_S100000x16_0_1 (broadcastInDim S100000x1 ![0] bcast_S100000_S100000x1_0 v)

/-- The kernel program's neighbourhood sums: rows of the 32-column table gathered, cut in two, weighted and summed
    per target node. -/
def aggK (s d : IVec S3200000 32) (u : FVec Ideal S3200000 .f32) (T : FVec Ideal S100000x32 .f32) :
    FVec Ideal S100000x16 .f32 :=
  Host.scatterAdd (F := Ideal) scatter_S100000x16_S3200000x1_S3200000x16_1_0_0_1 zeros16 (dstCol d)
    (addf
      (mulf (coefA u) (extractStridedSlice S3200000x16 ![0, 0]
        (Host.gather gather_S100000x32_S3200000x1_S3200000x32_1_0_n_n_0_1_132 T (srcCol s)) slices_S3200000x32_S3200000x16_0_0))
      (mulf (coefB u) (extractStridedSlice S3200000x16 ![0, 16]
        (Host.gather gather_S100000x32_S3200000x1_S3200000x32_1_0_n_n_0_1_132 T (srcCol s)) slices_S3200000x32_S3200000x16_0_16)))

/-- The reference program's neighbourhood sums: rows of the two 16-column tables gathered, weighted and summed per
    target node. -/
def aggR (s d : IVec S3200000 32) (u : FVec Ideal S3200000 .f32) (T0 T1 : FVec Ideal S100000x16 .f32) :
    FVec Ideal S100000x16 .f32 :=
  Host.scatterAdd (F := Ideal) scatter_S100000x16_S3200000x1_S3200000x16_1_0_0_1 zeros16 (dstCol d)
    (addf
      (mulf (coefA u) (Host.gather Cert.ReferenceIdeal.gather_S100000x16_S3200000x1_S3200000x16_1_0_n_n_0_1_116 T0 (srcCol s)))
      (mulf (coefB u) (Host.gather Cert.ReferenceIdeal.gather_S100000x16_S3200000x1_S3200000x16_1_0_n_n_0_1_116 T1 (srcCol s))))

/-- The features times one 16-column weight matrix, as the reference program computes it. -/
def xw (x : FVec Ideal S100000x767 .f32) (m : FVec Ideal S767x16 .f32) : FVec Ideal S100000x16 .f32 :=
  Host.dotGeneral (F := Ideal) Cert.ReferenceIdeal.dot_S100000x767_S767x16_S100000x16_1_0_0_1_n_n none x m

/-- The reference program's layer one before its rectifier, from the edges' node numbers, the spline coordinate, the
    two spline products, the root product and the bias. -/
def refMid (s d : IVec S3200000 32) (u : FVec Ideal S3200000 .f32) (T0 T1 xr : FVec Ideal S100000x16 .f32)
    (b : FVec Ideal S16 .f32) : FVec Ideal S100000x16 .f32 :=
  addf
    (addf (Host.divf (F := Ideal) (aggR s d u T0 T1) (perNode (maximumf (deg d) ones))) xr)
    (broadcastInDim S100000x16 ![0, 1] Cert.ReferenceIdeal.Gen.bcast_S1x16_S100000x16_0_1
      (broadcastInDim S1x16 ![1] Cert.ReferenceIdeal.Gen.bcast_S16_S1x16_1 b))

/-- The kernel program's layer one. -/
def kerL1 (x : FVec Ideal S100000x767 .f32) (ei : IVec S2x3200000 32) (ea : FVec Ideal S3200000x1 .f32)
    (w : FVec Ideal S2x767x16 .f32) (root : FVec Ideal S767x16 .f32) (b : FVec Ideal S16 .f32) : FVec Ideal S100000x16 .f32 :=
  Spec.finRelu (N := 100000) (C := 16)
    (mulf (aggK (srcT ei) (dstT ei) (uT ea) (Spec.mmCols (N := 100000) (K := 767) (CT := 48) 32 0 (by decide) x (w48 w root)))
      (perNode (invdT ei)))
    (Spec.mmCols (N := 100000) (K := 767) (CT := 48) 16 32 (by decide) x (w48 w root))
    (shapeCast S1x16 b shapeCasts_S16_S1x16)

/-- The reference program's layer one. -/
def refL1 (x : FVec Ideal S100000x767 .f32) (ei : IVec S2x3200000 32) (ea : FVec Ideal S3200000x1 .f32)
    (w : FVec Ideal S2x767x16 .f32) (root : FVec Ideal S767x16 .f32) (b : FVec Ideal S16 .f32) : FVec Ideal S100000x16 .f32 :=
  maximumf (refMid (srcT ei) (dstT ei) (uT ea) (xw x (w0 w)) (xw x (w1 w)) (xw x root) b) zeros16

/-! ### The kernel program's buffers are those functions of its arguments -/

theorem U1_arg0 (V0 : Val) : (U1 V0 main_arg0 : FVec Ideal S100000x767 .f32) = V0 main_arg0 := by
  unfold U1; dsimp only [hostOps0]; after_results_simp
theorem U1_arg5 (V0 : Val) : (U1 V0 main_arg5 : FVec Ideal S16 .f32) = V0 main_arg5 := by
  unfold U1; dsimp only [hostOps0]; after_results_simp
theorem U1_v17 (V0 : Val) : (U1 V0 main_v17 : FVec Ideal S767x48 .f32) = w48 (V0 main_arg3) (V0 main_arg4) := by
  unfold U1 w48 w0 w1; dsimp only [hostOps0]; after_results_simp
  generalize hF : HloOp.result (StableHlo.reshape main_v15 main_v16 _ _ _ _) _ = F
  have e1 : (F main_v14 : FVec Ideal S767x16 .f32) = shapeCast S767x16
      (extractStridedSlice S1x767x16 ![0, 0, 0] (V0 main_arg3) slices_S2x767x16_S1x767x16_0_0_0) shapeCasts_S1x767x16_S767x16 := by
    subst hF; after_results_simp; rfl
  have e2 : (F main_v16 : FVec Ideal S767x16 .f32) = shapeCast S767x16
      (extractStridedSlice S1x767x16 ![1, 0, 0] (V0 main_arg3) slices_S2x767x16_S1x767x16_1_0_0) shapeCasts_S1x767x16_S767x16 := by
    subst hF; after_results_simp; rfl
  have e3 : (F main_arg4 : FVec Ideal S767x16 .f32) = V0 main_arg4 := by
    subst hF; after_results_simp
  show concatenate S767x48 1 [⟨S767x16, F main_v14⟩, ⟨S767x16, F main_v16⟩, ⟨S767x16, F main_arg4⟩] _ = _
  rw [e1, e2, e3]

theorem U2_v18_0 (V0 : Val) : (U2 V0 main_v18_0 : FVec Ideal S100000x32 .f32)
    = Spec.mmCols (N := 100000) (K := 767) (CT := 48) 32 0 (by decide) (V0 main_arg0) (w48 (V0 main_arg3) (V0 main_arg4)) := by
  unfold U2
  rw [Function.update_of_ne (devRef_ne_of_ne (by decide)), Function.update_self, U1_arg0, U1_v17]
theorem U2_v18_1 (V0 : Val) : (U2 V0 main_v18_1 : FVec Ideal S100000x16 .f32)
    = Spec.mmCols (N := 100000) (K := 767) (CT := 48) 16 32 (by decide) (V0 main_arg0) (w48 (V0 main_arg3) (V0 main_arg4)) := by
  unfold U2
  rw [Function.update_self, U1_arg0, U1_v17]
theorem U2_v1 (V0 : Val) : (U2 V0 main_v1 : IVec S3200000 32) = srcT (V0 main_arg1) := by
  unfold U2
  rw [Function.update_of_ne (devRef_ne_of_ne (by decide)), Function.update_of_ne (devRef_ne_of_ne (by decide)), U1_v1]
theorem U2_v3 (V0 : Val) : (U2 V0 main_v3 : IVec S3200000 32) = dstT (V0 main_arg1) := by
  unfold U2
  rw [Function.update_of_ne (devRef_ne_of_ne (by decide)), Function.update_of_ne (devRef_ne_of_ne (by decide)), U1_v3]
theorem U2_v4 (V0 : Val) : (U2 V0 main_v4 : FVec Ideal S3200000 .f32) = uT (V0 main_arg2) := by
  unfold U2
  rw [Function.update_of_ne (devRef_ne_of_ne (by decide)), Function.update_of_ne (devRef_ne_of_ne (by decide)), U1_v4]
theorem U2_v12 (V0 : Val) : (U2 V0 main_v12 : FVec Ideal S100000 .f32) = invdT (V0 main_arg1) := by
  unfold U2
  rw [Function.update_of_ne (devRef_ne_of_ne (by decide)), Function.update_of_ne (devRef_ne_of_ne (by decide)), U1_v12]
theorem U2_arg5 (V0 : Val) : (U2 V0 main_arg5 : FVec Ideal S16 .f32) = V0 main_arg5 := by
  unfold U2
  rw [Function.update_of_ne (devRef_ne_of_ne (by decide)), Function.update_of_ne (devRef_ne_of_ne (by decide)), U1_arg5]

theorem U3_v42 (V0 : Val) : (U3 V0 main_v42 : FVec Ideal S100000x16 .f32)
    = mulf (aggK (srcT (V0 main_arg1)) (dstT (V0 main_arg1)) (uT (V0 main_arg2))
        (Spec.mmCols (N := 100000) (K := 767) (CT := 48) 32 0 (by decide) (V0 main_arg0) (w48 (V0 main_arg3) (V0 main_arg4))))
      (perNode (invdT (V0 main_arg1))) := by
  unfold U3; dsimp only [hostOps1]; after_results_simp
  rw [U2_v1, U2_v3, U2_v4, U2_v12, U2_v18_0]
  rfl
theorem U3_v18_1 (V0 : Val) : (U3 V0 main_v18_1 : FVec Ideal S100000x16 .f32)
    = Spec.mmCols (N := 100000) (K := 767) (CT := 48) 16 32 (by decide) (V0 main_arg0) (w48 (V0 main_arg3) (V0 main_arg4)) := by
  unfold U3; dsimp only [hostOps1]; after_results_simp
  exact U2_v18_1 V0
theorem U3_v43 (V0 : Val) : (U3 V0 main_v43 : FVec Ideal S1x16 .f32) = shapeCast S1x16 (V0 main_arg5) shapeCasts_S16_S1x16 := by
  unfold U3; dsimp only [hostOps1]; after_results_simp
  rw [U2_arg5]
  rfl

/-- The kernel program's hidden features are its layer-one function of its six arguments. -/
theorem U4_v44 (V0 : Val) : (U4 V0 main_v44 : FVec Ideal S100000x16 .f32)
    = kerL1 (V0 main_arg0) (V0 main_arg1) (V0 main_arg2) (V0 main_arg3) (V0 main_arg4) (V0 main_arg5) := by
  unfold U4 kerL1
  rw [Function.update_self, U3_v42, U3_v18_1, U3_v43]

/-! ### The reference program's buffer is that function of its arguments

Layer one's 63 operations are read in three stretches: the first eleven prepare the edges' node numbers, the spline
coordinate and the two spline products; the next forty-nine end with the sum before the rectifier; the last three are the
rectifier. -/

section Reference

open Cert.ReferenceIdeal.Fold

/-- The buffers after the first eleven operations. -/
def RA (V0 : RVal) : RVal := after ((Cert.ReferenceIdeal.Value.ops (F := Ideal)).take 11) V0
/-- The buffers after the next forty-nine operations, from any contents. -/
def RB (VA : RVal) : RVal := after (((Cert.ReferenceIdeal.Value.ops (F := Ideal)).drop 11).take 49) VA
/-- The buffers after the last three operations of layer one, from any contents. -/
def RC (VB : RVal) : RVal := after (((Cert.ReferenceIdeal.Value.ops (F := Ideal)).drop 60).take 3) VB

theorem R1_split (V0 : RVal) : R1 V0 = RC (RB (RA V0)) := by
  unfold R1 RA RB RC
  rw [← StableHlo.after_append, ← StableHlo.after_append]
  rfl

theorem RA_v1 (V0 : RVal) : (RA V0 Cert.ReferenceIdeal.main_v1 : IVec S3200000 32) = srcT (V0 Cert.ReferenceIdeal.main_arg1) := by
  unfold RA srcT; simp only [Cert.ReferenceIdeal.Value.ops, List.take_succ_cons, List.take_zero]; after_results_simp; rfl
theorem RA_v3 (V0 : RVal) : (RA V0 Cert.ReferenceIdeal.main_v3 : IVec S3200000 32) = dstT (V0 Cert.ReferenceIdeal.main_arg1) := by
  unfold RA dstT; simp only [Cert.ReferenceIdeal.Value.ops, List.take_succ_cons, List.take_zero]; after_results_simp; rfl
theorem RA_v10 (V0 : RVal) : (RA V0 Cert.ReferenceIdeal.main_v10 : FVec Ideal S3200000 .f32) = uT (V0 Cert.ReferenceIdeal.main_arg2) := by
  unfold RA uT; simp only [Cert.ReferenceIdeal.Value.ops, List.take_succ_cons, List.take_zero]; after_results_simp; rfl
theorem RA_v6 (V0 : RVal) : (RA V0 Cert.ReferenceIdeal.main_v6 : FVec Ideal S100000x16 .f32)
    = xw (V0 Cert.ReferenceIdeal.main_arg0) (w0 (V0 Cert.ReferenceIdeal.main_arg3)) := by
  unfold RA xw w0; simp only [Cert.ReferenceIdeal.Value.ops, List.take_succ_cons, List.take_zero]; after_results_simp; rfl
theorem RA_v9 (V0 : RVal) : (RA V0 Cert.ReferenceIdeal.main_v9 : FVec Ideal S100000x16 .f32)
    = xw (V0 Cert.ReferenceIdeal.main_arg0) (w1 (V0 Cert.ReferenceIdeal.main_arg3)) := by
  unfold RA xw w1; simp only [Cert.ReferenceIdeal.Value.ops, List.take_succ_cons, List.take_zero]; after_results_simp; rfl
theorem RA_arg0 (V0 : RVal) : (RA V0 Cert.ReferenceIdeal.main_arg0 : FVec Ideal S100000x767 .f32) = V0 Cert.ReferenceIdeal.main_arg0 := by
  unfold RA; simp only [Cert.ReferenceIdeal.Value.ops, List.take_succ_cons, List.take_zero]; after_results_simp
theorem RA_arg4 (V0 : RVal) : (RA V0 Cert.ReferenceIdeal.main_arg4 : FVec Ideal S767x16 .f32) = V0 Cert.ReferenceIdeal.main_arg4 := by
  unfold RA; simp only [Cert.ReferenceIdeal.Value.ops, List.take_succ_cons, List.take_zero]; after_results_simp
theorem RA_arg5 (V0 : RVal) : (RA V0 Cert.ReferenceIdeal.main_arg5 : FVec Ideal S16 .f32) = V0 Cert.ReferenceIdeal.main_arg5 := by
  unfold RA; simp only [Cert.ReferenceIdeal.Value.ops, List.take_succ_cons, List.take_zero]; after_results_simp

theorem RB_v50 (VA : RVal) : (RB VA Cert.ReferenceIdeal.main_v50 : FVec Ideal S100000x16 .f32)
    = refMid (VA Cert.ReferenceIdeal.main_v1) (VA Cert.ReferenceIdeal.main_v3) (VA Cert.ReferenceIdeal.main_v10)
        (VA Cert.ReferenceIdeal.main_v6) (VA Cert.ReferenceIdeal.main_v9)
        (xw (VA Cert.ReferenceIdeal.main_arg0) (VA Cert.ReferenceIdeal.main_arg4)) (VA Cert.ReferenceIdeal.main_arg5) := by
  unfold RB
  simp only [Cert.ReferenceIdeal.Value.ops, List.drop_succ_cons, List.drop_zero, List.take_succ_cons, List.take_zero]
  after_results_simp
  rfl

theorem RC_v51 (VB : RVal) : (RC VB Cert.ReferenceIdeal.main_v51 : FVec Ideal S100000x16 .f32)
    = maximumf (VB Cert.ReferenceIdeal.main_v50 : FVec Ideal S100000x16 .f32) zeros16 := by
  unfold RC
  simp only [Cert.ReferenceIdeal.Value.ops, List.drop_succ_cons, List.drop_zero, List.take_succ_cons, List.take_zero]
  after_results_simp
  rfl

/-- The reference program's hidden features are its layer-one function of its six arguments. -/
theorem R1_v51 (VR : RVal) :
    (R1 VR Cert.ReferenceIdeal.main_v51 : FVec Ideal S100000x16 .f32)
      = refL1 (VR Cert.ReferenceIdeal.main_arg0) (VR Cert.ReferenceIdeal.main_arg1) (VR Cert.ReferenceIdeal.main_arg2)
          (VR Cert.ReferenceIdeal.main_arg3) (VR Cert.ReferenceIdeal.main_arg4) (VR Cert.ReferenceIdeal.main_arg5) := by
  rw [R1_split, RC_v51, RB_v50, RA_v1, RA_v3, RA_v10, RA_v6, RA_v9, RA_arg0, RA_arg4, RA_arg5]
  rfl

end Reference

/-! ### The two functions are equal -/

section Equal
variable (x : FVec Ideal S100000x767 .f32) (ei : IVec S2x3200000 32) (ea : FVec Ideal S3200000x1 .f32)
  (w : FVec Ideal S2x767x16 .f32) (root : FVec Ideal S767x16 .f32) (b : FVec Ideal S16 .f32)

/-- Columns 0–15 of the joined weight matrix are the first spline weight's. -/
theorem w48_cols0 (k : Fin 767) (c : Fin 48) (q : Fin 16) (hc : c.val = 0 + 0 + q.val) :
    w48 w root (ix2 k c) = w0 w (ix2 k q) :=
  (cols3 (w0 w) (w1 w) root concatenates_S767x16_S767x16_S767x16_S767x48_d1 k c q).1 (by omega)
/-- Columns 16–31 of the joined weight matrix are the second spline weight's. -/
theorem w48_cols1 (k : Fin 767) (c : Fin 48) (q : Fin 16) (hc : c.val = 0 + 16 + q.val) :
    w48 w root (ix2 k c) = w1 w (ix2 k q) :=
  (cols3 (w0 w) (w1 w) root concatenates_S767x16_S767x16_S767x16_S767x48_d1 k c q).2.1 (by omega)
/-- Columns 32–47 of the joined weight matrix are the root weight's. -/
theorem w48_cols2 (k : Fin 767) (c : Fin 48) (q : Fin 16) (hc : c.val = 32 + 0 + q.val) :
    w48 w root (ix2 k c) = root (ix2 k q) :=
  (cols3 (w0 w) (w1 w) root concatenates_S767x16_S767x16_S767x16_S767x48_d1 k c q).2.2 (by omega)

/-- The two programs sum the same messages: their neighbourhood sums are equal. -/
theorem aggR_eq_aggK (s d : IVec S3200000 32) (u : FVec Ideal S3200000 .f32) :
    aggR s d u (xw x (w0 w)) (xw x (w1 w))
      = aggK s d u (Spec.mmCols (N := 100000) (K := 767) (CT := 48) 32 0 (by decide) x (w48 w root)) := by
  have hT0 : ∀ (p : Fin 100000) (c : Fin 32) (q : Fin 16), c.val = q.val →
      Spec.mmCols (N := 100000) (K := 767) (CT := 48) 32 0 (by decide) x (w48 w root) (ix2 p c) = xw x (w0 w) (ix2 p q) :=
    fun p c q hc => mmCols_eq_dot 32 0 _ x (w48 w root) 0 (w0 w) (w48_cols0 w root)
      Cert.ReferenceIdeal.dot_S100000x767_S767x16_S100000x16_1_0_0_1_n_n rfl rfl rfl rfl rfl rfl p c q (by omega)
  have hT1 : ∀ (p : Fin 100000) (c : Fin 32) (q : Fin 16), c.val = 16 + q.val →
      Spec.mmCols (N := 100000) (K := 767) (CT := 48) 32 0 (by decide) x (w48 w root) (ix2 p c) = xw x (w1 w) (ix2 p q) :=
    fun p c q hc => mmCols_eq_dot 32 0 _ x (w48 w root) 16 (w1 w) (w48_cols1 w root)
      Cert.ReferenceIdeal.dot_S100000x767_S767x16_S100000x16_1_0_0_1_n_n rfl rfl rfl rfl rfl rfl p c q (by omega)
  obtain ⟨c0, c1⟩ := gather_cut (N := 100000) (E := 3200000) (by decide)
    (Spec.mmCols (N := 100000) (K := 767) (CT := 48) 32 0 (by decide) x (w48 w root)) (xw x (w0 w)) (xw x (w1 w)) hT0 hT1 (srcCol s)
    gather_S100000x32_S3200000x1_S3200000x32_1_0_n_n_0_1_132 gather_S100000x32_S3200000x1_S3200000x32_1_0_n_n_0_1_132_wf rfl
    Cert.ReferenceIdeal.gather_S100000x16_S3200000x1_S3200000x16_1_0_n_n_0_1_116
    Cert.ReferenceIdeal.Gen.gather_S100000x16_S3200000x1_S3200000x16_1_0_n_n_0_1_116_wf rfl
    slices_S3200000x32_S3200000x16_0_0 slices_S3200000x32_S3200000x16_0_16
  unfold aggR aggK
  rw [c0, c1]

/-- With the same neighbourhood sums `S` and the same in-degrees `D`, the reference's quotient, root product, bias and
    rectifier are the kernel's product by the reciprocal, column group, bias row and rectifier, entry by entry. -/
theorem tail_eq (S : FVec Ideal S100000x16 .f32) (D : FVec Ideal S100000 .f32) :
    maximumf
        (addf
          (addf (Host.divf (F := Ideal) S (perNode (maximumf D ones))) (xw x root))
          (broadcastInDim S100000x16 ![0, 1] Cert.ReferenceIdeal.Gen.bcast_S1x16_S100000x16_0_1
            (broadcastInDim S1x16 ![1] Cert.ReferenceIdeal.Gen.bcast_S16_S1x16_1 b)))
        zeros16
      = Spec.finRelu (N := 100000) (C := 16) (mulf S (perNode (Host.divf (F := Ideal) ones (maximumf D ones))))
          (Spec.mmCols (N := 100000) (K := 767) (CT := 48) 16 32 (by decide) x (w48 w root))
          (shapeCast S1x16 b shapeCasts_S16_S1x16) := by
  funext j
  obtain ⟨p, q, rfl⟩ : ∃ (p : Fin 100000) (q : Fin 16), j = ix2 p q := ⟨j 0, j 1, eq_ix2 j⟩
  rw [Spec.finRelu_apply]
  simp only [maximumf_apply, addf_apply, mulf_apply, hostDivf_apply]
  have hper : ∀ v : FVec Ideal S100000 .f32, perNode v (ix2 p q) = v (ix1 p) := fun v =>
    (bcast_col_apply bcast_S100000x1_S100000x16_0_1 _ p q).trans (bcast_vec_col_apply bcast_S100000_S100000x1_0 v p 0)
  have hones : ones (ix1 p) = 1 := by
    unfold ones
    rw [bcast_scalar_apply, constant_apply, Ideal.ofBits_one_f32]
  have e1 : perNode (maximumf D ones) (ix2 p q) = max (D (ix1 p)) 1 := by
    rw [hper, maximumf_apply, hones]
  have e2 : perNode (Host.divf (F := Ideal) ones (maximumf D ones)) (ix2 p q) = Ideal.div 1 (max (D (ix1 p)) 1) := by
    rw [hper, hostDivf_apply, maximumf_apply, hones]
  have e3 : xw x root (ix2 p q)
      = Spec.mmCols (N := 100000) (K := 767) (CT := 48) 16 32 (by decide) x (w48 w root) (ix2 p q) :=
    (mmCols_eq_dot 16 32 _ x (w48 w root) 0 root (w48_cols2 w root)
      Cert.ReferenceIdeal.dot_S100000x767_S767x16_S100000x16_1_0_0_1_n_n rfl rfl rfl rfl rfl rfl p q q (by omega)).symm
  have e4 : broadcastInDim S100000x16 ![0, 1] Cert.ReferenceIdeal.Gen.bcast_S1x16_S100000x16_0_1
      (broadcastInDim S1x16 ![1] Cert.ReferenceIdeal.Gen.bcast_S16_S1x16_1 b) (ix2 p q) = b (ix1 q) :=
    (bcast_row_apply Cert.ReferenceIdeal.Gen.bcast_S1x16_S100000x16_0_1 _ p q).trans
      (bcast_vec_row_apply Cert.ReferenceIdeal.Gen.bcast_S16_S1x16_1 b 0 q)
  have e5 : shapeCast S1x16 b shapeCasts_S16_S1x16 (ix2 (0 : Fin 1) q) = b (ix1 q) :=
    shapeCast_a_1a_apply b shapeCasts_S16_S1x16 0 q
  have e6 : zeros16 (ix2 p q) = Ideal.ofBits .f32 0x00000000#32 := by
    unfold zeros16
    rw [bcast_scalar_apply, constant_apply]
  rw [e1, e2, e3, e4, e5, e6, mul_div_one_max]

/-- The two programs' layer one is the same function of the six arrays. -/
theorem refL1_eq_kerL1 : refL1 x ei ea w root b = kerL1 x ei ea w root b := by
  have hinv : invdT ei = Host.divf (F := Ideal) ones (maximumf (deg (dstT ei)) ones) := rfl
  unfold refL1 refMid kerL1
  rw [aggR_eq_aggK x w root, hinv]
  exact tail_eq x w root b _ _

end Equal

end Programs

/-- Layer one: on equal arguments the reference program's hidden features are the kernel program's. -/
theorem layer1 (VK : Cert.KernelIdeal.Pure.Val) (VR : Cert.ReferenceIdeal.Fold.RVal)
    (h0 : (VR Cert.ReferenceIdeal.main_arg0 : FVec Ideal ⟨2, ![100000, 767]⟩ .f32) = VK Cert.KernelIdeal.main_arg0)
    (h1 : (VR Cert.ReferenceIdeal.main_arg1 : IVec ⟨2, ![2, 3200000]⟩ 32) = VK Cert.KernelIdeal.main_arg1)
    (h2 : (VR Cert.ReferenceIdeal.main_arg2 : FVec Ideal ⟨2, ![3200000, 1]⟩ .f32) = VK Cert.KernelIdeal.main_arg2)
    (h3 : (VR Cert.ReferenceIdeal.main_arg3 : FVec Ideal ⟨3, ![2, 767, 16]⟩ .f32) = VK Cert.KernelIdeal.main_arg3)
    (h4 : (VR Cert.ReferenceIdeal.main_arg4 : FVec Ideal ⟨2, ![767, 16]⟩ .f32) = VK Cert.KernelIdeal.main_arg4)
    (h5 : (VR Cert.ReferenceIdeal.main_arg5 : FVec Ideal ⟨1, ![16]⟩ .f32) = VK Cert.KernelIdeal.main_arg5) :
    (Cert.ReferenceIdeal.Fold.R1 VR Cert.ReferenceIdeal.main_v51 : FVec Ideal ⟨2, ![100000, 16]⟩ .f32)
      = (Cert.KernelIdeal.Pure.U4 VK Cert.KernelIdeal.main_v44 : FVec Ideal ⟨2, ![100000, 16]⟩ .f32) := by
  refine (R1_v51 VR).trans ?_
  refine Eq.trans ?_ (U4_v44 VK).symm
  rw [h0, h1, h2, h3, h4, h5]
  exact refL1_eq_kerL1 _ _ _ _ _ _

end Cert.Bridge.L1

end
-- ==== Proof.BridgeL2.lean ====
/-
  LAYER TWO OF THE TWO-LAYER GRAPH NETWORK: BOTH PROGRAMS COMPUTE THE SAME LOG-PROBABILITIES ON THE EXTENDED REALS.

  A layer sends node features x to
      out(i, c) = (Σ over edges e into i of ((1 − u e) · (x·W₀)(src e, c) + u e · (x·W₁)(src e, c))) / max(deg i, 1)
                  + (x·R)(i, c) + b(c),
  and layer two ends in a row-wise log-softmax. One program forms x·[W₀ | W₁ | R] as a single product with the three
  matrices laid side by side, reads rows of the 2C-wide left part through the edges' source numbers, cuts the two column
  groups out of the gathered rows, and multiplies the aggregate by 1 / max(deg, 1). The other forms the three products
  separately, gathers each C-wide table, and divides the aggregate by max(deg, 1). On the extended reals, where every
  operation is exact, the two agree with no finiteness assumption:
    • a column of the joint product in the range of one matrix is that matrix's product (a sum over k of the same terms);
    • a row gather followed by a cut of columns is the cut followed by the gather, entry by entry, through the same row;
    • max(d, 1) ≥ 1 is not zero, so a · (1 / max(d, 1)) = a / max(d, 1);
    • the maximum of the word of minus infinity with a fold of maxima started from that word is the fold.
  Everything else is the same operation applied to equal arguments.
-/
import proofs.«132475_j59768764891998_2_alg».proof.Proof.KPure
import proofs.«132475_j59768764891998_2_alg».proof.Proof.RefFold
import proofs.«132475_j59768764891998_2_alg».proof.Proof.LibAggRows
import proofs.«132475_j59768764891998_2_alg».proof.Proof.LibDotsNT
import proofs.«132475_j59768764891998_2_alg».proof.Proof.LibRowOps
import Idealize.ShloMosaic.Lib.IdealHost
import Idealize.ShloMosaic.Lib.ValueLayout

noncomputable section

open scoped BigOperators

namespace Cert.Bridge.L2

open Idealize.ShloMosaic Idealize.ShloMosaic.TcCoe Idealize.ShloMosaic.StableHlo Idealize.ShloMosaic.ValueIdx

/-! ## Vectors kept as columns and rows, read at an entry -/

section Layout
variable {α : Type}

/-- A vector [a] set as a column [a, 1] reads, at (p, u), the vector's entry p. -/
theorem col_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread over [a, b] reads, at (p, q), the column's entry of row p. -/
theorem spread_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b] reads, at (u, q), the vector's entry q. -/
theorem row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over [a, b] reads, at (p, q), the row's entry q. -/
theorem rows_apply {a b : ℕ} (x : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Layout

/-! ## Three matrices joined along the columns -/

section Cat3
variable {α : Type}

/-- The joint matrix's column q in the range of the first piece is that piece's column q. -/
theorem cat3_0 (a0 a1 a2 : (⟨2, ![16, 10]⟩ : Shape).Idx → α)
    (h : Shape.Concatenates [(⟨2, ![16, 10]⟩ : Shape), ⟨2, ![16, 10]⟩, ⟨2, ![16, 10]⟩] ⟨2, ![16, 30]⟩ 1)
    (k : Fin 16) (q : Fin 30) (q' : Fin 10) (hq : q.val = 0 + q'.val) :
    concatenate ⟨2, ![16, 30]⟩ 1 [⟨⟨2, ![16, 10]⟩, a0⟩, ⟨⟨2, ![16, 10]⟩, a1⟩, ⟨⟨2, ![16, 10]⟩, a2⟩] h (ix2 k q) = a0 (ix2 k q') := by
  refine concatenate_apply_piece 1 [⟨⟨2, ![16, 10]⟩, a0⟩, ⟨⟨2, ![16, 10]⟩, a1⟩, ⟨⟨2, ![16, 10]⟩, a2⟩] h (ix2 k q) 0
    (by show (0 : ℕ) < 3; decide) ⟨2, ![16, 10]⟩ a0 rfl rfl 0 rfl (ix2 k q')
    (fun b hb => ?_) hq.symm
  match b with
  | ⟨0, _⟩ => rfl
  | ⟨1, _⟩ => exact absurd rfl hb

/-- The joint matrix's column q in the range of the second piece is that piece's column q − 10. -/
theorem cat3_1 (a0 a1 a2 : (⟨2, ![16, 10]⟩ : Shape).Idx → α)
    (h : Shape.Concatenates [(⟨2, ![16, 10]⟩ : Shape), ⟨2, ![16, 10]⟩, ⟨2, ![16, 10]⟩] ⟨2, ![16, 30]⟩ 1)
    (k : Fin 16) (q : Fin 30) (q' : Fin 10) (hq : q.val = 10 + q'.val) :
    concatenate ⟨2, ![16, 30]⟩ 1 [⟨⟨2, ![16, 10]⟩, a0⟩, ⟨⟨2, ![16, 10]⟩, a1⟩, ⟨⟨2, ![16, 10]⟩, a2⟩] h (ix2 k q) = a1 (ix2 k q') := by
  refine concatenate_apply_piece 1 [⟨⟨2, ![16, 10]⟩, a0⟩, ⟨⟨2, ![16, 10]⟩, a1⟩, ⟨⟨2, ![16, 10]⟩, a2⟩] h (ix2 k q) 1
    (by show (1 : ℕ) < 3; decide) ⟨2, ![16, 10]⟩ a1 rfl rfl 10 rfl (ix2 k q')
    (fun b hb => ?_) hq.symm
  match b with
  | ⟨0, _⟩ => rfl
  | ⟨1, _⟩ => exact absurd rfl hb

/-- The joint matrix's column q in the range of the third piece is that piece's column q − 20. -/
theorem cat3_2 (a0 a1 a2 : (⟨2, ![16, 10]⟩ : Shape).Idx → α)
    (h : Shape.Concatenates [(⟨2, ![16, 10]⟩ : Shape), ⟨2, ![16, 10]⟩, ⟨2, ![16, 10]⟩] ⟨2, ![16, 30]⟩ 1)
    (k : Fin 16) (q : Fin 30) (q' : Fin 10) (hq : q.val = 20 + q'.val) :
    concatenate ⟨2, ![16, 30]⟩ 1 [⟨⟨2, ![16, 10]⟩, a0⟩, ⟨⟨2, ![16, 10]⟩, a1⟩, ⟨⟨2, ![16, 10]⟩, a2⟩] h (ix2 k q) = a2 (ix2 k q') := by
  refine concatenate_apply_piece 1 [⟨⟨2, ![16, 10]⟩, a0⟩, ⟨⟨2, ![16, 10]⟩, a1⟩, ⟨⟨2, ![16, 10]⟩, a2⟩] h (ix2 k q) 2
    (by show (2 : ℕ) < 3; decide) ⟨2, ![16, 10]⟩ a2 rfl rfl 20 rfl (ix2 k q')
    (fun b hb => ?_) hq.symm
  match b with
  | ⟨0, _⟩ => rfl
  | ⟨1, _⟩ => exact absurd rfl hb

end Cat3

/-! ## Column groups of the joint product, and rows gathered from them -/

section Tables

variable (x : FVec Ideal ⟨2, ![100000, 16]⟩ .f32) (W : FVec Ideal ⟨2, ![16, 10]⟩ .f32) (cat : FVec Ideal ⟨2, ![16, 30]⟩ .f32)
  (d : DotDims ⟨2, ![100000, 16]⟩ ⟨2, ![16, 10]⟩ ⟨2, ![100000, 10]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- Where the joint matrix's column off + q' is the matrix W's column q, the entry (p, q') of the joint product's
    columns off … off + C − 1 is the entry (p, q) of the product with W: the sum over k of x(p, k) · W(k, q). -/
theorem cols_eq_dot (C off : ℕ) (h : off + C ≤ 30) (p : Fin 100000) (q : Fin 10) (q' : Fin C)
    (hcat : ∀ (k : Fin 16) (c' : Fin 30), c'.val = off + q'.val → cat (ix2 k c') = W (ix2 k q)) :
    Spec.mmCols C off h x cat (ix2 p q') = Host.dotGeneral (F := Ideal) d none x W (ix2 p q) :=
  (Spec.mmCols_apply C off h x cat p q').trans
    ((Finset.sum_congr rfl fun k _ => by rw [hcat k _ rfl]).trans
      (LibDotsNT.plain_dotGeneral_apply d hlc hrc hln hrn hlb hrb none .single x W p q).symm)

include hlc hrc hln hrn hlb hrb in
/-- Rows of the separate product gathered through an index column are the columns off … off + 9 cut from the rows
    of the joint product's 20-wide left part gathered through the same column. -/
theorem gather_cols (off : ℕ) (hoff : off + 10 ≤ 20) (h20 : 0 + 20 ≤ 30)
    (hcat : ∀ (k : Fin 16) (c : Fin 10) (c' : Fin 30), c'.val = off + c.val → cat (ix2 k c') = W (ix2 k c))
    (wfR : GatherDims.WF ⟨2, ![100000, 10]⟩ ⟨2, ![3200000, 1]⟩ ⟨2, ![3200000, 10]⟩ [1] [0] [] [0] [] 1 ![1, 10])
    (wfK : GatherDims.WF ⟨2, ![100000, 20]⟩ ⟨2, ![3200000, 1]⟩ ⟨2, ![3200000, 20]⟩ [1] [0] [] [0] [] 1 ![1, 20])
    (idx : IVec ⟨2, ![3200000, 1]⟩ 32)
    (hs : (⟨2, ![3200000, 20]⟩ : Shape).Slices ![0, off] ⟨2, ![3200000, 10]⟩) :
    Host.gather (LibAggRows.rowGatherDims 100000 3200000 10 wfR) (Host.dotGeneral (F := Ideal) d none x W) idx
      = extractStridedSlice ⟨2, ![3200000, 10]⟩ ![0, off]
          (Host.gather (LibAggRows.rowGatherDims 100000 3200000 20 wfK) (Spec.mmCols 20 0 h20 x cat) idx) hs := by
  funext j
  obtain ⟨e, c, rfl⟩ : ∃ (e : Fin 3200000) (c : Fin 10), j = ix2 e c := ⟨j 0, j 1, eq_ix2 j⟩
  have hc : off + c.val < 20 := by have := c.isLt; omega
  have hN : 0 < 100000 := by decide
  refine (LibAggRows.rowGather_apply hN wfR _ idx e c).trans (Eq.symm ?_)
  refine (slice2_axis1_apply off _ hs e c ⟨off + c.val, hc⟩ rfl).trans ?_
  refine (LibAggRows.rowGather_apply hN wfK _ idx e ⟨off + c.val, hc⟩).trans ?_
  exact cols_eq_dot x W cat d hlc hrc hln hrn hlb hrb 20 0 h20 _ c ⟨off + c.val, hc⟩
    (fun k c' h => hcat k c c' (by rw [h]; exact Nat.zero_add _))

end Tables

/-! ## The normalised aggregate plus the root product plus the bias, at an entry -/

section PreAct

/-- a · (1 / max(d, 1)) = a / max(d, 1): the divisor is at least one, hence not zero. -/
theorem mul_inv_maxdeg (a dg : EReal) :
    a * Ideal.div (Ideal.ofBits .f32 0x3F800000#32) (max dg (Ideal.ofBits .f32 0x3F800000#32))
      = Ideal.div a (max dg (Ideal.ofBits .f32 0x3F800000#32)) := by
  rw [Ideal.ofBits_one_f32]
  exact Ideal.mul_one_div (ne_of_gt (lt_of_lt_of_le zero_lt_one (le_max_right dg 1)))

/-- The pre-activation at (p, q), the one program dividing the aggregate by max(deg, 1) spread over the columns and
    spreading the bias vector down the rows, the other multiplying by the spread reciprocal and reading the bias as a
    one-row matrix: equal aggregates, degrees and biases, and root products equal entry by entry, give equal entries. -/
theorem preact_apply
    (AR AK : FVec Ideal ⟨2, ![100000, 10]⟩ .f32) (DR DK : FVec Ideal ⟨1, ![100000]⟩ .f32)
    (rootR rootK : FVec Ideal ⟨2, ![100000, 10]⟩ .f32) (biasR biasK : FVec Ideal ⟨1, ![10]⟩ .f32)
    (h0 : (⟨0, ![]⟩ : Shape).BroadcastsInDim ⟨1, ![100000]⟩ (![] : Fin 0 → Fin 1))
    (h1 : (⟨1, ![100000]⟩ : Shape).BroadcastsInDim ⟨2, ![100000, 1]⟩ (![0] : Fin 1 → Fin 2))
    (h2 : (⟨2, ![100000, 1]⟩ : Shape).BroadcastsInDim ⟨2, ![100000, 10]⟩ (![0, 1] : Fin 2 → Fin 2))
    (hb1 : (⟨1, ![10]⟩ : Shape).BroadcastsInDim ⟨2, ![1, 10]⟩ (![1] : Fin 1 → Fin 2))
    (hb2 : (⟨2, ![1, 10]⟩ : Shape).BroadcastsInDim ⟨2, ![100000, 10]⟩ (![0, 1] : Fin 2 → Fin 2))
    (hc : (⟨1, ![10]⟩ : Shape).ShapeCasts ⟨2, ![1, 10]⟩)
    (hA : AR = AK) (hD : DR = DK) (hroot : ∀ (p : Fin 100000) (q : Fin 10), rootR (ix2 p q) = rootK (ix2 p q))
    (hbias : biasR = biasK) (p : Fin 100000) (q : Fin 10) :
    addf (addf (Host.divf (F := Ideal) AR
          (broadcastInDim ⟨2, ![100000, 10]⟩ (![0, 1] : Fin 2 → Fin 2) h2 (broadcastInDim ⟨2, ![100000, 1]⟩ (![0] : Fin 1 → Fin 2) h1
            (maximumf DR (broadcastInDim ⟨1, ![100000]⟩ (![] : Fin 0 → Fin 1) h0 (constant (F := Ideal) ⟨0, ![]⟩ .f32 0x3F800000#32))))))
        rootR)
      (broadcastInDim ⟨2, ![100000, 10]⟩ (![0, 1] : Fin 2 → Fin 2) hb2 (broadcastInDim ⟨2, ![1, 10]⟩ (![1] : Fin 1 → Fin 2) hb1 biasR))
      (ix2 p q)
    = mulf AK (broadcastInDim ⟨2, ![100000, 10]⟩ (![0, 1] : Fin 2 → Fin 2) h2 (broadcastInDim ⟨2, ![100000, 1]⟩ (![0] : Fin 1 → Fin 2) h1
          (Host.divf (F := Ideal) (broadcastInDim ⟨1, ![100000]⟩ (![] : Fin 0 → Fin 1) h0 (constant (F := Ideal) ⟨0, ![]⟩ .f32 0x3F800000#32))
            (maximumf DK (broadcastInDim ⟨1, ![100000]⟩ (![] : Fin 0 → Fin 1) h0 (constant (F := Ideal) ⟨0, ![]⟩ .f32 0x3F800000#32))))))
        (ix2 p q)
      + rootK (ix2 p q) + shapeCast ⟨2, ![1, 10]⟩ biasK hc (ix2 (0 : Fin 1) q) := by
  subst hA hD hbias
  simp only [addf_apply, mulf_apply, hostDivf_apply, maximumf_apply, spread_apply, col_apply, rows_apply, row_apply,
    shapeCast_a_1a_apply, hroot]
  rw [broadcastInDim_scalar_apply, constant_apply, mul_inv_maxdeg]

end PreAct

/-! ## The row-wise log-softmax as the reference takes it -/

/-- The host's logarithm at an index is the extended reals' logarithm of the entry. -/
theorem hostLog_apply {s : Shape} {φ : FTy} (v : FVec Ideal s φ) (i : s.Idx) : Host.log v i = Ideal.log (v i) := rfl
/-- The host's exponential at an index is the extended reals' exponential of the entry. -/
theorem hostExp_apply {s : Shape} {φ : FTy} (v : FVec Ideal s φ) (i : s.Idx) : Host.exp v i = Ideal.exp (v i) := rfl

section LogSoftmax

variable (h0 : (⟨0, ![]⟩ : Shape).BroadcastsInDim ⟨1, ![100000]⟩ (![] : Fin 0 → Fin 1))
  (h1 : (⟨1, ![100000]⟩ : Shape).BroadcastsInDim ⟨2, ![100000, 1]⟩ (![0] : Fin 1 → Fin 2))
  (h2 : (⟨2, ![100000, 1]⟩ : Shape).BroadcastsInDim ⟨2, ![100000, 10]⟩ (![0, 1] : Fin 2 → Fin 2))
  (hr : (⟨2, ![100000, 10]⟩ : Shape).ReducesTo [1] ⟨1, ![100000]⟩) (hu : 0 < (⟨0, ![]⟩ : Shape).numel)

/-- Each row's largest entry: the maximum of the word of minus infinity with the row maximum folded from that word. -/
def rowTopRef (X : FVec Ideal ⟨2, ![100000, 10]⟩ .f32) : FVec Ideal ⟨1, ![100000]⟩ .f32 :=
  maximumf (broadcastInDim ⟨1, ![100000]⟩ (![] : Fin 0 → Fin 1) h0 (constant (F := Ideal) ⟨0, ![]⟩ .f32 0xFF800000#32))
    (Host.reduce FloatOps.maximumf X (constant (F := Ideal) ⟨0, ![]⟩ .f32 0xFF800000#32) hr hu)

/-- Each entry less its row's largest, the row maxima kept as a column and spread back over the columns. -/
def shiftRef (X : FVec Ideal ⟨2, ![100000, 10]⟩ .f32) : FVec Ideal ⟨2, ![100000, 10]⟩ .f32 :=
  subf X (broadcastInDim ⟨2, ![100000, 10]⟩ (![0, 1] : Fin 2 → Fin 2) h2
    (broadcastInDim ⟨2, ![100000, 1]⟩ (![0] : Fin 1 → Fin 2) h1 (rowTopRef h0 hr hu X)))

/-- The shifted entries less the logarithm of their row's sum of exponentials (summed from the zero word, kept as a
    column, spread back). -/
def lsmRef (X : FVec Ideal ⟨2, ![100000, 10]⟩ .f32) : FVec Ideal ⟨2, ![100000, 10]⟩ .f32 :=
  subf (shiftRef h0 h1 h2 hr hu X)
    (broadcastInDim ⟨2, ![100000, 10]⟩ (![0, 1] : Fin 2 → Fin 2) h2
      (Host.log (broadcastInDim ⟨2, ![100000, 1]⟩ (![0] : Fin 1 → Fin 2) h1
        (Host.reduceAdd (Host.exp (shiftRef h0 h1 h2 hr hu X)) (constant (F := Ideal) ⟨0, ![]⟩ .f32 0x00000000#32) hr hu))))

variable (X A R : FVec Ideal ⟨2, ![100000, 10]⟩ .f32) (b : FVec Ideal ⟨2, ![1, 10]⟩ .f32)
  (hX : ∀ (p : Fin 100000) (q : Fin 10), X (ix2 p q) = A (ix2 p q) + R (ix2 p q) + b (ix2 (0 : Fin 1) q))

include hX in
/-- The maximum of a word with a fold of maxima started from that word is the fold: the row's top is the
    specification's. -/
theorem rowTopRef_apply (p : Fin 100000) : rowTopRef h0 hr hu X (ix1 p) = Spec.rowTop A R b p := by
  have hred : (⟨2, ![100000, 10]⟩ : Shape).Reduces [1] ⟨1, ![100000]⟩ := by decide
  unfold rowTopRef
  rw [maximumf_apply, broadcastInDim_scalar_apply, constant_apply, LibRowOps.hostRowMax_apply X _ hr hred hu p,
    constant_apply]
  unfold Spec.rowTop Spec.preAct
  simp only [hX]
  exact max_eq_right ((Finset.le_fold_max _).mpr (Or.inl le_rfl))

include hX in
/-- The reference's chain over an array whose entries are the pre-activations is the specification's log-softmax. -/
theorem lsmRef_eq : lsmRef h0 h1 h2 hr hu X = Spec.finLsm A R b := by
  have hred : (⟨2, ![100000, 10]⟩ : Shape).Reduces [1] ⟨1, ![100000]⟩ := by decide
  funext j
  obtain ⟨p, q, rfl⟩ : ∃ (p : Fin 100000) (q : Fin 10), j = ix2 p q := ⟨j 0, j 1, eq_ix2 j⟩
  have hz : ∀ q' : Fin 10, shiftRef h0 h1 h2 hr hu X (ix2 p q') = Spec.shifted A R b p q' := by
    intro q'
    unfold shiftRef
    rw [subf_apply, spread_apply, col_apply, rowTopRef_apply h0 hr hu X A R b hX p, hX]
    rfl
  have hS : Host.reduceAdd (Host.exp (shiftRef h0 h1 h2 hr hu X)) (constant (F := Ideal) ⟨0, ![]⟩ .f32 0x00000000#32) hr hu (ix1 p)
      = ∑ k : Fin 10, Ideal.exp (Spec.shifted A R b p k) := by
    rw [hostReduceAdd_apply, Ideal.hostReduceAdd_single hr hred, constant_apply, Ideal.ofBits_zero_f32, zero_add]
    exact Finset.sum_congr rfl fun k _ => by
      rw [LibRowOps.lift_row hred p k, hostExp_apply, hz]
      rfl
  unfold lsmRef
  rw [subf_apply, hz, spread_apply, hostLog_apply, col_apply, hS, Spec.finLsm_apply]

end LogSoftmax

/-! ## Congruence: the same operation on equal arguments -/

section Congr

/-- A scatter-add of equal updates through equal index columns onto equal operands, by equal dimension numbers. -/
theorem scatter_congr {s i u : Shape} {sc sc' : ScatterDims s i u} (hsc : sc = sc')
    {Z Z' : FVec Ideal s .f32} (hZ : Z = Z') {I I' : IVec i 32} (hI : I = I') {M M' : FVec Ideal u .f32} (hM : M = M') :
    Host.scatterAdd (F := Ideal) sc Z I M = Host.scatterAdd (F := Ideal) sc' Z' I' M' := by
  subst hsc hZ hI hM; rfl

/-- The edge messages: a sum of two products with equal factors. -/
theorem msg_congr {s : Shape} {C0 C0' G0 G0' C1 C1' G1 G1' : FVec Ideal s .f32}
    (h0 : C0 = C0') (hG0 : G0 = G0') (h1 : C1 = C1') (hG1 : G1 = G1') :
    addf (mulf C0 G0) (mulf C1 G1) = addf (mulf C0' G0') (mulf C1' G1') := by
  subst h0 hG0 h1 hG1; rfl

end Congr

/-! ## The kernel program's layer-two buffers as terms over the buffers layer one left -/

section Kernel
open Cert.KernelIdeal Cert.KernelIdeal.Gen Cert.KernelIdeal.Pure

theorem w3_0 : (![main_v46, main_v48, main_arg7] : Fin 3 → Ref sig .tc) 0 = main_v46 := rfl
theorem w3_1 : (![main_v46, main_v48, main_arg7] : Fin 3 → Ref sig .tc) 1 = main_v48 := rfl
theorem w3_2 : (![main_v46, main_v48, main_arg7] : Fin 3 → Ref sig .tc) 2 = main_arg7 := rfl

/-- The three layer-two weight matrices laid side by side: the two slabs of the weight array, then the root matrix. -/
def catW (w : FVec Ideal S2x16x10 .f32) (root : FVec Ideal S16x10 .f32) : FVec Ideal S16x30 .f32 :=
  concatenate S16x30 1
    [⟨S16x10, shapeCast S16x10 (extractStridedSlice S1x16x10 ![0, 0, 0] w slices_S2x16x10_S1x16x10_0_0_0) shapeCasts_S1x16x10_S16x10⟩,
     ⟨S16x10, shapeCast S16x10 (extractStridedSlice S1x16x10 ![1, 0, 0] w slices_S2x16x10_S1x16x10_1_0_0) shapeCasts_S1x16x10_S16x10⟩,
     ⟨S16x10, root⟩] concatenates_S16x10_S16x10_S16x10_S16x30_d1

/-- The third host stretch leaves the joint weight matrix. -/
theorem U5_v49 (VK : Val) : (U5 VK main_v49 : FVec Ideal S16x30 .f32) = catW (VK main_arg6) (VK main_arg7) := by
  unfold U5 catW; dsimp only [hostOps2]; after_results_simp
  dsimp only [w3_0, w3_1, w3_2]
  repeat (first
    | rw [reshape_result] | rw [unary_result]
    | (rw [unary_result_ne]; rotate_left; decide)
    | (rw [reshape_result_ne]; rotate_left; decide))
  rfl

/-- The third host stretch does not write the hidden features. -/
theorem U5_v44 (VK : Val) : (U5 VK main_v44 : FVec Ideal S100000x16 .f32) = VK main_v44 := by
  unfold U5; dsimp only [hostOps2]; after_results_simp

/-- Neither the third host stretch nor the product stage writes the edges' source numbers … -/
theorem U6_v1 (VK : Val) : (U6 VK main_v1 : IVec S3200000 32) = VK main_v1 := by
  unfold U6
  rw [Function.update_of_ne (devRef_ne_of_ne (by decide)), Function.update_of_ne (devRef_ne_of_ne (by decide))]
  unfold U5; dsimp only [hostOps2]; after_results_simp
/-- … their target numbers … -/
theorem U6_v3 (VK : Val) : (U6 VK main_v3 : IVec S3200000 32) = VK main_v3 := by
  unfold U6
  rw [Function.update_of_ne (devRef_ne_of_ne (by decide)), Function.update_of_ne (devRef_ne_of_ne (by decide))]
  unfold U5; dsimp only [hostOps2]; after_results_simp
/-- … the spline coordinate … -/
theorem U6_v4 (VK : Val) : (U6 VK main_v4 : FVec Ideal S3200000 .f32) = VK main_v4 := by
  unfold U6
  rw [Function.update_of_ne (devRef_ne_of_ne (by decide)), Function.update_of_ne (devRef_ne_of_ne (by decide))]
  unfold U5; dsimp only [hostOps2]; after_results_simp
/-- … the reciprocal degrees … -/
theorem U6_v12 (VK : Val) : (U6 VK main_v12 : FVec Ideal S100000 .f32) = VK main_v12 := by
  unfold U6
  rw [Function.update_of_ne (devRef_ne_of_ne (by decide)), Function.update_of_ne (devRef_ne_of_ne (by decide))]
  unfold U5; dsimp only [hostOps2]; after_results_simp
/-- … or the bias vector. -/
theorem U6_arg8 (VK : Val) : (U6 VK main_arg8 : FVec Ideal S10 .f32) = VK main_arg8 := by
  unfold U6
  rw [Function.update_of_ne (devRef_ne_of_ne (by decide)), Function.update_of_ne (devRef_ne_of_ne (by decide))]
  unfold U5; dsimp only [hostOps2]; after_results_simp

/-- The product stage's first result: columns 0 … 19 of the hidden features times the joint weight matrix. -/
theorem U6_v50_0 (VK : Val) : (U6 VK main_v50_0 : FVec Ideal S100000x20 .f32)
    = Spec.mmCols (N := 100000) (K := 16) (CT := 30) 20 0 (by decide) (VK main_v44 : FVec Ideal S100000x16 .f32)
        (catW (VK main_arg6) (VK main_arg7)) := by
  unfold U6
  rw [Function.update_of_ne (devRef_ne_of_ne (by decide)), Function.update_self, U5_v44, U5_v49]

/-- The product stage's second result, untouched by the fourth host stretch: columns 20 … 29. -/
theorem U7_v50_1 (VK : Val) : (U7 VK main_v50_1 : FVec Ideal S100000x10 .f32)
    = Spec.mmCols (N := 100000) (K := 16) (CT := 30) 10 20 (by decide) (VK main_v44 : FVec Ideal S100000x16 .f32)
        (catW (VK main_arg6) (VK main_arg7)) := by
  unfold U7; dsimp only [hostOps3]; after_results_simp
  unfold U6
  rw [Function.update_self, U5_v44, U5_v49]

/-- The bias as a one-row matrix. -/
theorem U7_v75 (VK : Val) : (U7 VK main_v75 : FVec Ideal S1x10 .f32)
    = shapeCast S1x10 (VK main_arg8 : FVec Ideal S10 .f32) shapeCasts_S10_S1x10 := by
  unfold U7; dsimp only [hostOps3]; after_results_simp
  rw [U6_arg8]
  rfl

end Kernel

/-! ## The reference program's layer two: the pre-activation, then the log-softmax -/

/-- Contents carried to a typed reference's buffer and back are unchanged. -/
theorem ofBuf_toBuf {sig : RefSig} {T : BufTy} {Val : EltTy → Type} (x : TRef sig T) (v : T.Contents Val) :
    x.ofBuf (x.toBuf v) = v := by
  obtain ⟨r, rfl, _, _⟩ := x
  rfl

section Reference
open Cert.ReferenceIdeal Cert.ReferenceIdeal.Gen Cert.ReferenceIdeal.Fold Cert.ReferenceIdeal.Value

/-- Layer two's fold is the log-softmax's fifteen operations after the sixty that end in the pre-activation. -/
theorem R2_split (VR : RVal) : R2 VR = after (opsL2.drop 60) (after (opsL2.take 60) VR) := by
  unfold R2; rw [← Cert.ReferenceIdeal.Fold.after_append, List.take_append_drop]

set_option maxRecDepth 100000 in
/-- The last fifteen operations are the row-wise log-softmax chain over the pre-activation buffer. -/
theorem tail_v103 (W : RVal) :
    (after (opsL2.drop 60) W main_v103 : FVec Ideal S100000x10 .f32)
      = lsmRef bcast_S_S100000 bcast_S100000_S100000x1_0 bcast_S100000x1_S100000x10_0_1
          reducesTo_S100000x10_S100000_d1 h_S_ (W main_v102 : FVec Ideal S100000x10 .f32) := by
  have e : opsL2.drop 60 = (ops (F := Ideal)).drop 123 := List.drop_drop ..
  rw [e]
  simp only [ops, List.drop_succ_cons, List.drop_zero]
  after_results_simp
  simp only [ofBuf_toBuf]
  unfold lsmRef shiftRef rowTopRef
  rfl

end Reference

/-! ## Layer two: the reference's log-probabilities are the kernel program's -/

set_option maxRecDepth 100000 in
set_option maxHeartbeats 8000000 in
/-- From equal hidden features, edges, spline coordinates and layer-two parameters, and with the kernel program's
    edge columns, spline coordinate and reciprocal degrees being what its first host stretch computes from the edges, the
    reference program's log-probabilities are the kernel program's. -/
theorem layer2 (VK : Cert.KernelIdeal.Pure.Val) (VR : Cert.ReferenceIdeal.Fold.RVal)
    (hx : (VR Cert.ReferenceIdeal.main_v51 : FVec Ideal ⟨2, ![100000, 16]⟩ .f32) = VK Cert.KernelIdeal.main_v44)
    (h1 : (VR Cert.ReferenceIdeal.main_arg1 : IVec ⟨2, ![2, 3200000]⟩ 32) = VK Cert.KernelIdeal.main_arg1)
    (h2 : (VR Cert.ReferenceIdeal.main_arg2 : FVec Ideal ⟨2, ![3200000, 1]⟩ .f32) = VK Cert.KernelIdeal.main_arg2)
    (h6 : (VR Cert.ReferenceIdeal.main_arg6 : FVec Ideal ⟨3, ![2, 16, 10]⟩ .f32) = VK Cert.KernelIdeal.main_arg6)
    (h7 : (VR Cert.ReferenceIdeal.main_arg7 : FVec Ideal ⟨2, ![16, 10]⟩ .f32) = VK Cert.KernelIdeal.main_arg7)
    (h8 : (VR Cert.ReferenceIdeal.main_arg8 : FVec Ideal ⟨1, ![10]⟩ .f32) = VK Cert.KernelIdeal.main_arg8)
    (hs : (VK Cert.KernelIdeal.main_v1 : IVec ⟨1, ![3200000]⟩ 32) = Cert.KernelIdeal.Pure.srcT (VK Cert.KernelIdeal.main_arg1))
    (hd : (VK Cert.KernelIdeal.main_v3 : IVec ⟨1, ![3200000]⟩ 32) = Cert.KernelIdeal.Pure.dstT (VK Cert.KernelIdeal.main_arg1))
    (hu : (VK Cert.KernelIdeal.main_v4 : FVec Ideal ⟨1, ![3200000]⟩ .f32) = Cert.KernelIdeal.Pure.uT (VK Cert.KernelIdeal.main_arg2))
    (hi : (VK Cert.KernelIdeal.main_v12 : FVec Ideal ⟨1, ![100000]⟩ .f32) = Cert.KernelIdeal.Pure.invdT (VK Cert.KernelIdeal.main_arg1)) :
    (Cert.ReferenceIdeal.Fold.R2 VR Cert.ReferenceIdeal.main_v103 : FVec Ideal ⟨2, ![100000, 10]⟩ .f32)
      = (Cert.KernelIdeal.Pure.U8 VK Cert.KernelIdeal.main_v76 : FVec Ideal ⟨2, ![100000, 10]⟩ .f32) := by
  -- the kernel program's result is the specification's log-softmax of three of its buffers
  have hK8 : (Cert.KernelIdeal.Pure.U8 VK Cert.KernelIdeal.main_v76 : FVec Ideal ⟨2, ![100000, 10]⟩ .f32)
      = Spec.finLsm (N := 100000) (C := 10)
          (Cert.KernelIdeal.Pure.U7 VK Cert.KernelIdeal.main_v74 : FVec Ideal ⟨2, ![100000, 10]⟩ .f32)
          (Cert.KernelIdeal.Pure.U7 VK Cert.KernelIdeal.main_v50_1 : FVec Ideal ⟨2, ![100000, 10]⟩ .f32)
          (Cert.KernelIdeal.Pure.U7 VK Cert.KernelIdeal.main_v75 : FVec Ideal ⟨2, ![1, 10]⟩ .f32) := by
    unfold Cert.KernelIdeal.Pure.U8
    exact Function.update_self _ _ _
  -- the reference's is its log-softmax chain over its pre-activation: it is enough that the pre-activations agree
  rw [hK8, R2_split, tail_v103]
  refine lsmRef_eq _ _ _ _ _ _ _ _ _ (fun p q => ?_)
  rw [U7_v50_1, U7_v75]
  -- the kernel program's normalised aggregate as the fourth host stretch's term over what the first layer left
  unfold Cert.KernelIdeal.Pure.U7
  dsimp only [Cert.KernelIdeal.Gen.hostOps3]
  after_results_simp
  rw [U6_v1, U6_v3, U6_v4, U6_v12, U6_v50_0, hs, hd, hu, hi]
  unfold Cert.KernelIdeal.Pure.invdT Cert.KernelIdeal.Pure.srcT Cert.KernelIdeal.Pure.dstT Cert.KernelIdeal.Pure.uT
  -- the reference's pre-activation as its sixty operations' term over the same arrays
  simp only [Cert.ReferenceIdeal.Fold.opsL2, Cert.ReferenceIdeal.Value.ops, List.drop_succ_cons, List.drop_zero,
    List.take_succ_cons, List.take_zero]
  after_results_simp
  rw [hx, h1, h2, h6, h7, h8]
  refine preact_apply _ _ _ _ _ _ _ _ _ _ _ _ _ _ ?_ ?_ ?_ rfl p q
  · -- equal aggregates: the same scatter-add, through the same target column, of equal messages
    refine scatter_congr rfl rfl rfl (msg_congr rfl ?_ rfl ?_)
    · exact gather_cols _ _ _ _ rfl rfl rfl rfl rfl rfl 0 (by decide) _
        (fun k c c' h => cat3_0 _ _ _ _ k c' c h) _ _ _ _
    · exact gather_cols _ _ _ _ rfl rfl rfl rfl rfl rfl 10 (by decide) _
        (fun k c c' h => cat3_1 _ _ _ _ k c' c h) _ _ _ _
  · -- equal degrees: the same scatter-add of ones through the same target column
    exact scatter_congr rfl rfl rfl rfl
  · -- equal root products: columns 20 … 29 of the joint product
    exact fun p q => (cols_eq_dot _ _ _ _ rfl rfl rfl rfl rfl rfl 10 20 _ p q q
      (fun k c' h => cat3_2 _ _ _ _ k c' q h)).symm

end Cert.Bridge.L2

end
-- ==== Proof.lean ====
/-
  THE CERTIFICATE: a two-layer spline-convolution network on a graph of 100000 nodes and 3200000 edges, as a program of
  four tiled stages between stretches of host operations, against its plain reference.

  Each layer computes, for node i and channel c,
      (Σ over edges e into i of ((1 − u e) · h0(src e, c) + u e · h1(src e, c))) · (1 / max(deg i, 1)) + (x · root)(i, c) + b(c),
  with h0 = x · W[0] and h1 = x · W[1]; layer one is rectified, layer two ends in a row-wise log-softmax. The program forms
  x · [W[0] | W[1] | root] as ONE tiled product and cuts column groups from it, gathers rows of the double-width table and
  cuts again, and multiplies by the reciprocal of max(deg, 1); the reference forms three products, gathers each table, and
  divides by max(deg, 1). On the extended reals these are the same function of the arguments, entry by entry, with no
  appeal to finiteness: a column group of a product with matrices side by side is the product with that matrix; cutting
  commutes with gathering rows; and a · (1 · d⁻¹) = a · d⁻¹ = a / d because d = max(deg, 1) ≥ 1 is never zero.

  The three frames: each program runs to the end, faults nowhere and leaves its arguments as launched. For the two kernel
  programs that is the run of the four tiled stages chained through the host stretches (Proof/KRun, Proof/KIRun); for the
  reference it is the fold of its 138 host operations (Proof/RefFold). The idealization rewrote nothing, so `preserves` is
  trivial. The value claim reads the idealized program's run as a pure fold (Proof/KIFold over Proof/KPure) and joins it
  to the reference's fold layer by layer (Proof/BridgeL1, Proof/BridgeL2).
-/
import proofs.«132475_j59768764891998_2_alg».proof.Defs
import proofs.«132475_j59768764891998_2_alg».proof.Proof.Gen.Kernel
import proofs.«132475_j59768764891998_2_alg».proof.Proof.Gen.KernelIdeal
import proofs.«132475_j59768764891998_2_alg».proof.Proof.Gen.ReferenceIdeal
import proofs.«132475_j59768764891998_2_alg».proof.Proof.Gen.Pre_finite_inputs
import proofs.«132475_j59768764891998_2_alg».proof.Proof.KRun
import proofs.«132475_j59768764891998_2_alg».proof.Proof.KIFold
import proofs.«132475_j59768764891998_2_alg».proof.Proof.Glue
import proofs.«132475_j59768764891998_2_alg».proof.Proof.BridgeL1
import proofs.«132475_j59768764891998_2_alg».proof.Proof.BridgeL2
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

open Cert.ReferenceIdeal.Fold in
/-- The reference's arguments end as launched: neither layer's operations write one. -/
theorem frame_ri : Cert.frame_ReferenceIdeal := fun m ρ _ =>
  (θ_run Cert.ReferenceIdeal.defs _ _).mono (fun _ h c =>
    ⟨(h c Cert.ReferenceIdeal.main_arg0).trans ((R2_arg0 _).trans (R1_arg0 _)),
     (h c Cert.ReferenceIdeal.main_arg1).trans ((R2_arg1 _).trans (R1_arg1 _)),
     (h c Cert.ReferenceIdeal.main_arg2).trans ((R2_arg2 _).trans (R1_arg2 _)),
     (h c Cert.ReferenceIdeal.main_arg3).trans ((R2_arg3 _).trans (R1_arg3 _)),
     (h c Cert.ReferenceIdeal.main_arg4).trans ((R2_arg4 _).trans (R1_arg4 _)),
     (h c Cert.ReferenceIdeal.main_arg5).trans ((R2_arg5 _).trans (R1_arg5 _)),
     (h c Cert.ReferenceIdeal.main_arg6).trans ((R2_arg6 _).trans (R1_arg6 _)),
     (h c Cert.ReferenceIdeal.main_arg7).trans ((R2_arg7 _).trans (R1_arg7 _)),
     (h c Cert.ReferenceIdeal.main_arg8).trans ((R2_arg8 _).trans (R1_arg8 _))⟩)
    (run_fold m ρ)

open Cert.ReferenceIdeal.Fold Cert.KernelIdeal.Pure Cert.KernelIdeal.Hand in
/-- From memories agreeing on the arguments both idealized programs run to the end with the same log-probabilities and
    the same hidden features, entry by entry on the extended reals, and their arguments unchanged. -/
theorem algebraic : Cert.algebraic_KernelIdeal_ReferenceIdeal := by
  intro m ρ m' ρ' _ hagree
  refine ⟨fun c => U8 (U4 (W0 m c)) Cert.KernelIdeal.main_v76, fun c => U4 (W0 m c) Cert.KernelIdeal.main_v44, ?_, ?_⟩
  · refine (θ_run Cert.KernelIdeal.defs _ _).mono (fun r h c => ?_) (Cert.KernelIdeal.Hand.run_all m ρ)
    refine ⟨(h c _ (mem_uc Cert.KernelIdeal.main_v76 (by decide))).trans (congrFun (fold8 m c) _),
      (h c _ (mem_uc Cert.KernelIdeal.main_v44 (by decide))).trans ((congrFun (fold8 m c) _).trans (U8_v44 _)),
      (h c _ (mem_uc Cert.KernelIdeal.main_arg0 (by decide))).trans (W8_main_arg0 m c),
      (h c _ (mem_uc Cert.KernelIdeal.main_arg1 (by decide))).trans (W8_main_arg1 m c),
      (h c _ (mem_uc Cert.KernelIdeal.main_arg2 (by decide))).trans (W8_main_arg2 m c),
      (h c _ (mem_uc Cert.KernelIdeal.main_arg3 (by decide))).trans (W8_main_arg3 m c),
      (h c _ (mem_uc Cert.KernelIdeal.main_arg4 (by decide))).trans (W8_main_arg4 m c),
      (h c _ (mem_uc Cert.KernelIdeal.main_arg5 (by decide))).trans (W8_main_arg5 m c),
      (h c _ (mem_uc Cert.KernelIdeal.main_arg6 (by decide))).trans (W8_main_arg6 m c),
      (h c _ (mem_uc Cert.KernelIdeal.main_arg7 (by decide))).trans (W8_main_arg7 m c),
      (h c _ (mem_uc Cert.KernelIdeal.main_arg8 (by decide))).trans (W8_main_arg8 m c)⟩
  · refine (θ_run Cert.ReferenceIdeal.defs _ _).mono (fun r h c => ?_) (run_fold m' ρ')
    obtain ⟨a0, a1, a2, a3, a4, a5, a6, a7, a8⟩ := hagree c
    have hx : (R1 (StableHlo.launchContents m' c) Cert.ReferenceIdeal.main_v51 : FVec Ideal ⟨2, ![100000, 16]⟩ .f32)
        = U4 (W0 m c) Cert.KernelIdeal.main_v44 :=
      Cert.Bridge.L1.layer1 (W0 m c) (StableHlo.launchContents m' c) a0 a1 a2 a3 a4 a5
    refine ⟨(h c Cert.ReferenceIdeal.main_v103).trans ?_, (h c Cert.ReferenceIdeal.main_v51).trans ((R2_v51 _).trans hx),
      (h c Cert.ReferenceIdeal.main_arg0).trans ((R2_arg0 _).trans (R1_arg0 _)),
      (h c Cert.ReferenceIdeal.main_arg1).trans ((R2_arg1 _).trans (R1_arg1 _)),
      (h c Cert.ReferenceIdeal.main_arg2).trans ((R2_arg2 _).trans (R1_arg2 _)),
      (h c Cert.ReferenceIdeal.main_arg3).trans ((R2_arg3 _).trans (R1_arg3 _)),
      (h c Cert.ReferenceIdeal.main_arg4).trans ((R2_arg4 _).trans (R1_arg4 _)),
      (h c Cert.ReferenceIdeal.main_arg5).trans ((R2_arg5 _).trans (R1_arg5 _)),
      (h c Cert.ReferenceIdeal.main_arg6).trans ((R2_arg6 _).trans (R1_arg6 _)),
      (h c Cert.ReferenceIdeal.main_arg7).trans ((R2_arg7 _).trans (R1_arg7 _)),
      (h c Cert.ReferenceIdeal.main_arg8).trans ((R2_arg8 _).trans (R1_arg8 _))⟩
    exact Cert.Bridge.L2.layer2 (U4 (W0 m c)) (R1 (StableHlo.launchContents m' c)) hx
      ((R1_arg1 _).trans (a1.trans (U4_arg1 (W0 m c)).symm)) ((R1_arg2 _).trans (a2.trans (U4_arg2 (W0 m c)).symm))
      ((R1_arg6 _).trans (a6.trans (U4_arg6 (W0 m c)).symm)) ((R1_arg7 _).trans (a7.trans (U4_arg7 (W0 m c)).symm))
      ((R1_arg8 _).trans (a8.trans (U4_arg8 (W0 m c)).symm)) (U4_v1 (W0 m c)) (U4_v3 (W0 m c)) (U4_v4 (W0 m c)) (U4_v12 (W0 m c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
